-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part8 {F : FTy → Type} [FloatOps F] (main_arg29 : IVec S200000 32) (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  let main_c_54 : IVec S_ 32 := constantI S_ 32 0#32
  let main_v139 : IVec S200000 32 := broadcastInDim S200000 ![] bcast_S_S200000 main_c_54
  let main_v140 : IVec S200000 1 := cmpi .sge main_arg29 main_v139
  let main_c_55 : IVec S_ 1 := constantI S_ 1 1#1
  let main_v141 : IVec S_ 1 := (fun x v => Host.reduce IntOp.andi x v reducesTo_S200000_S_d0 h_S_) main_v140 main_c_55
  let main_v142 : IVec S_ 1 := andi main_v138 main_v141
  main_v142

def fn_part7 {F : FTy → Type} [FloatOps F] (main_arg25 : FVec F S128 .f32) (main_arg26 : FVec F S128x1 .f32) (main_arg27 : FVec F S1 .f32) (main_arg29 : IVec S200000 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x1 .f32 := Host.absf main_arg26
  let main_cst_50 : FVec F S_ .f32 := constant S_ .f32 0x7F800000#32
  let main_v130 : FVec F S128x1 .f32 := broadcastInDim S128x1 ![] bcast_S_S128x1 main_cst_50
  let main_v131 : IVec S128x1 1 := cmpf .olt main_v129 main_v130
  let main_c_51 : IVec S_ 1 := constantI S_ 1 1#1
  let main_v132 : IVec S_ 1 := (fun x v => Host.reduce IntOp.andi x v reducesTo_S128x1_S_d0_1 h_S_) main_v131 main_c_51
  let main_v133 : IVec S_ 1 := andi main_v128 main_v132
  let main_v134 : FVec F S1 .f32 := Host.absf main_arg27
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_arg29 main_v133 main_v136

def fn_part6 {F : FTy → Type} [FloatOps F] (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v98 : IVec S_ 1) (main_v101 : IVec S192x128 1) (main_c_39 : IVec S_ 1) : IVec S_ 1 :=
  let main_v102 : IVec S_ 1 := (fun x v => Host.reduce IntOp.andi x v reducesTo_S192x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg25 main_arg26 main_arg27 main_arg29 main_v118 main_v119

def fn_part5 {F : FTy → Type} [FloatOps F] (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v83 : IVec S_ 1) (main_v84 : FVec F S192 .f32) (main_cst_32 : FVec F S_ .f32) : IVec S_ 1 :=
  let main_v85 : FVec F S192 .f32 := broadcastInDim S192 ![] bcast_S_S192 main_cst_32
  let main_v86 : IVec S192 1 := cmpf .olt main_v84 main_v85
  let main_c_33 : IVec S_ 1 := constantI S_ 1 1#1
  let main_v87 : IVec S_ 1 := (fun x v => Host.reduce IntOp.andi x v reducesTo_S192_S_d0 h_S_) main_v86 main_c_33
  let main_v88 : IVec S_ 1 := andi main_v83 main_v87
  let main_v89 : FVec F S192 .f32 := Host.absf main_arg18
  let main_cst_34 : FVec F S_ .f32 := constant S_ .f32 0x7F800000#32
  let main_v90 : FVec F S192 .f32 := broadcastInDim S192 ![] bcast_S_S192 main_cst_34
  let main_v91 : IVec S192 1 := cmpf .olt main_v89 main_v90
  let main_c_35 : IVec S_ 1 := constantI S_ 1 1#1
  let main_v92 : IVec S_ 1 := (fun x v => Host.reduce IntOp.andi x v reducesTo_S192_S_d0 h_S_) main_v91 main_c_35
  let main_v93 : IVec S_ 1 := andi main_v88 main_v92
  let main_v94 : FVec F S192 .f32 := Host.absf main_arg19
  let main_cst_36 : FVec F S_ .f32 := constant S_ .f32 0x7F800000#32
  let main_v95 : FVec F S192 .f32 := broadcastInDim S192 ![] bcast_S_S192 main_cst_36
  let main_v96 : IVec S192 1 := cmpf .olt main_v94 main_v95
  let main_c_37 : IVec S_ 1 := constantI S_ 1 1#1
  let main_v97 : IVec S_ 1 := (fun x v => Host.reduce IntOp.andi x v reducesTo_S192_S_d0 h_S_) main_v96 main_c_37
  let main_v98 : IVec S_ 1 := andi main_v93 main_v97
  let main_v99 : FVec F S192x128 .f32 := Host.absf main_arg20
  let main_cst_38 : FVec F S_ .f32 := constant S_ .f32 0x7F800000#32
  let main_v100 : FVec F S192x128 .f32 := broadcastInDim S192x128 ![] bcast_S_S192x128 main_cst_38
  let main_v101 : IVec S192x128 1 := cmpf .olt main_v99 main_v100
  let main_c_39 : IVec S_ 1 := constantI S_ 1 1#1
  fn_part6 (F := F) main_arg21 main_arg22 main_arg23 main_arg24 main_arg25 main_arg26 main_arg27 main_arg29 main_v98 main_v101 main_c_39

def fn_part4 {F : FTy → Type} [FloatOps F] (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v63 : IVec S_ 1) (main_v67 : IVec S_ 1) : IVec S_ 1 :=
  let main_v68 : IVec S_ 1 := andi main_v63 main_v67
  let main_v69 : FVec F S256x192 .f32 := Host.absf main_arg14
  let main_cst_26 : FVec F S_ .f32 := constant S_ .f32 0x7F800000#32
  let main_v70 : FVec F S256x192 .f32 := broadcastInDim S256x192 ![] bcast_S_S256x192 main_cst_26
  let main_v71 : IVec S256x192 1 := cmpf .olt main_v69 main_v70
  let main_c_27 : IVec S_ 1 := constantI S_ 1 1#1
  let main_v72 : IVec S_ 1 := (fun x v => Host.reduce IntOp.andi x v reducesTo_S256x192_S_d0_1 h_S_) main_v71 main_c_27
  let main_v73 : IVec S_ 1 := andi main_v68 main_v72
  let main_v74 : FVec F S192 .f32 := Host.absf main_arg15
  let main_cst_28 : FVec F S_ .f32 := constant S_ .f32 0x7F800000#32
  let main_v75 : FVec F S192 .f32 := broadcastInDim S192 ![] bcast_S_S192 main_cst_28
  let main_v76 : IVec S192 1 := cmpf .olt main_v74 main_v75
  let main_c_29 : IVec S_ 1 := constantI S_ 1 1#1
  let main_v77 : IVec S_ 1 := (fun x v => Host.reduce IntOp.andi x v reducesTo_S192_S_d0 h_S_) main_v76 main_c_29
  let main_v78 : IVec S_ 1 := andi main_v73 main_v77
  let main_v79 : FVec F S192 .f32 := Host.absf main_arg16
  let main_cst_30 : FVec F S_ .f32 := constant S_ .f32 0x7F800000#32
  let main_v80 : FVec F S192 .f32 := broadcastInDim S192 ![] bcast_S_S192 main_cst_30
  let main_v81 : IVec S192 1 := cmpf .olt main_v79 main_v80
  let main_c_31 : IVec S_ 1 := constantI S_ 1 1#1
  let main_v82 : IVec S_ 1 := (fun x v => Host.reduce IntOp.andi x v reducesTo_S192_S_d0 h_S_) main_v81 main_c_31
  let main_v83 : IVec S_ 1 := andi main_v78 main_v82
  let main_v84 : FVec F S192 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg29 main_v83 main_v84 main_cst_32

def fn_part3 {F : FTy → Type} [FloatOps F] (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg29 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg29 main_v48 main_v49 main_v50

def fn_part1 {F : FTy → Type} [FloatOps F] (main_arg4 : FVec F S64x128 .f32) (main_arg5 : FVec F S128 .f32) (main_arg6 : FVec F S8x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg29 main_v33

def fn {F : FTy → Type} [FloatOps F] (main_arg0 : FVec F S200000x2 .f32) (main_arg1 : FVec F S512x8 .f32) (main_arg2 : FVec F S2x64 .f32) (main_arg3 : FVec F S64 .f32) (main_arg4 : FVec F S64x128 .f32) (main_arg5 : FVec F S128 .f32) (main_arg6 : FVec F S8x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg28 : IVec S2x600000 32) (main_arg29 : IVec S200000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg29 main_v13 main_v16
-- ==== Kernel.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S200000x1 : Shape := ⟨2, ![200000, 1]⟩
abbrev S200000x64 : Shape := ⟨2, ![200000, 64]⟩
abbrev S4000x2 : Shape := ⟨2, ![4000, 2]⟩
abbrev S4000x1 : Shape := ⟨2, ![4000, 1]⟩
abbrev S4000x64 : Shape := ⟨2, ![4000, 64]⟩
abbrev S1x64 : Shape := ⟨2, ![1, 64]⟩
abbrev S600000x64 : Shape := ⟨2, ![600000, 64]⟩
abbrev S200000x128 : Shape := ⟨2, ![200000, 128]⟩
abbrev S4000x128 : Shape := ⟨2, ![4000, 128]⟩
abbrev S600000x128 : Shape := ⟨2, ![600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S1x256 : Shape := ⟨2, ![1, 256]⟩
abbrev S512x256 : Shape := ⟨2, ![512, 256]⟩
abbrev S1x192 : Shape := ⟨2, ![1, 192]⟩
abbrev S1x1 : Shape := ⟨2, ![1, 1]⟩
abbrev S128x192 : Shape := ⟨2, ![128, 192]⟩
abbrev S512x192 : Shape := ⟨2, ![512, 192]⟩

abbrev nBuf : Space → Nat
  | .hbm => 124
  | .vmem => 60
  | .smem => 0
  | _ => 0

abbrev bufTy : (tb : Table) → Fin (tcTables nBuf tb) → BufTy
  | .hbm, ⟨0, _⟩ => ⟨S200000x2, .f32⟩
  | .hbm, ⟨1, _⟩ => ⟨S512x8, .f32⟩
  | .hbm, ⟨2, _⟩ => ⟨S2x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S8x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S256x192, .f32⟩
  | .hbm, ⟨15, _⟩ => ⟨S192, .f32⟩
  | .hbm, ⟨16, _⟩ => ⟨S192, .f32⟩
  | .hbm, ⟨17, _⟩ => ⟨S192, .f32⟩
  | .hbm, ⟨18, _⟩ => ⟨S192, .f32⟩
  | .hbm, ⟨19, _⟩ => ⟨S192, .f32⟩
  | .hbm, ⟨20, _⟩ => ⟨S192x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128x1, .f32⟩
  | .hbm, ⟨27, _⟩ => ⟨S1, .f32⟩
  | .hbm, ⟨28, _⟩ => ⟨S2x600000, .i32⟩
  | .hbm, ⟨29, _⟩ => ⟨S200000, .i32⟩
  | .hbm, ⟨30, _⟩ => ⟨S1x600000, .i32⟩
  | .hbm, ⟨31, _⟩ => ⟨S600000, .i32⟩
  | .hbm, ⟨32, _⟩ => ⟨S1x600000, .i32⟩
  | .hbm, ⟨33, _⟩ => ⟨S600000, .i32⟩
  | .hbm, ⟨34, _⟩ => ⟨S_, .f32⟩
  | .hbm, ⟨35, _⟩ => ⟨S200000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S_, .f32⟩
  | .hbm, ⟨45, _⟩ => ⟨S600000, .f32⟩
  | .hbm, ⟨46, _⟩ => ⟨S200000, .f32⟩
  | .hbm, ⟨47, _⟩ => ⟨S_, .f32⟩
  | .hbm, ⟨48, _⟩ => ⟨S200000, .f32⟩
  | .hbm, ⟨49, _⟩ => ⟨S200000, .f32⟩
  | .hbm, ⟨50, _⟩ => ⟨S_, .f32⟩
  | .hbm, ⟨51, _⟩ => ⟨S200000, .f32⟩
  | .hbm, ⟨52, _⟩ => ⟨S200000, .f32⟩
  | .hbm, ⟨53, _⟩ => ⟨S200000x1, .f32⟩
  | .hbm, ⟨54, _⟩ => ⟨S200000x64, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x64, .f32⟩
  | .hbm, ⟨64, _⟩ => ⟨S_, .f32⟩
  | .hbm, ⟨65, _⟩ => ⟨S200000x64, .f32⟩
  | .hbm, ⟨66, _⟩ => ⟨S600000x1, .i32⟩
  | .hbm, ⟨67, _⟩ => ⟨S200000x64, .f32⟩
  | .hbm, ⟨68, _⟩ => ⟨S1x64, .f32⟩
  | .hbm, ⟨69, _⟩ => ⟨S200000x64, .f32⟩
  | .hbm, ⟨70, _⟩ => ⟨S200000x128, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x128, .f32⟩
  | .hbm, ⟨80, _⟩ => ⟨S_, .f32⟩
  | .hbm, ⟨81, _⟩ => ⟨S200000x128, .f32⟩
  | .hbm, ⟨82, _⟩ => ⟨S600000x1, .i32⟩
  | .hbm, ⟨83, _⟩ => ⟨S200000x128, .f32⟩
  | .hbm, ⟨84, _⟩ => ⟨S1x128, .f32⟩
  | .hbm, ⟨85, _⟩ => ⟨S200000x128, .f32⟩
  | .hbm, ⟨86, _⟩ => ⟨S_, .f32⟩
  | .hbm, ⟨87, _⟩ => ⟨S512, .f32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S_, .f32⟩
  | .hbm, ⟨97, _⟩ => ⟨S200000, .f32⟩
  | .hbm, ⟨98, _⟩ => ⟨S512, .f32⟩
  | .hbm, ⟨99, _⟩ => ⟨S_, .f32⟩
  | .hbm, ⟨100, _⟩ => ⟨S512x128, .f32⟩
  | .hbm, ⟨101, _⟩ => ⟨S200000x1, .i32⟩
  | .hbm, ⟨102, _⟩ => ⟨S512x128, .f32⟩
  | .hbm, ⟨103, _⟩ => ⟨S512x1, .f32⟩
  | .hbm, ⟨104, _⟩ => ⟨S1x256, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S1x256, .f32⟩
  | .hbm, ⟨109, _⟩ => ⟨S1x128, .f32⟩
  | .hbm, ⟨110, _⟩ => ⟨S512x128, .f32⟩
  | .hbm, ⟨111, _⟩ => ⟨S1x192, .f32⟩
  | .hbm, ⟨112, _⟩ => ⟨S1x192, .f32⟩
  | .hbm, ⟨113, _⟩ => ⟨S1x192, .f32⟩
  | .hbm, ⟨114, _⟩ => ⟨S1x192, .f32⟩
  | .hbm, ⟨115, _⟩ => ⟨S1x192, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x1, .f32⟩
  | .hbm, ⟨122, _⟩ => ⟨S512x1, .f32⟩
  | .hbm, ⟨123, _⟩ => ⟨S512, .f32⟩
  | .local _ .vmem, ⟨0, _⟩ => ⟨S4000x2, .f32⟩
  | .local _ .vmem, ⟨1, _⟩ => ⟨S4000x2, .f32⟩
  | .local _ .vmem, ⟨2, _⟩ => ⟨S2x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x128, .f32⟩
  | .local _ .vmem, ⟨19, _⟩ => ⟨S4000x1, .f32⟩
  | .local _ .vmem, ⟨20, _⟩ => ⟨S4000x1, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x1, .f32⟩
  | .local _ .vmem, ⟨28, _⟩ => ⟨S4000x1, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S512x8, .f32⟩
  | .local _ .vmem, ⟨33, _⟩ => ⟨S8x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S256x128, .f32⟩
  | .local _ .vmem, ⟨40, _⟩ => ⟨S1x128, .f32⟩
  | .local _ .vmem, ⟨41, _⟩ => ⟨S512x128, .f32⟩
  | .local _ .vmem, ⟨42, _⟩ => ⟨S512x128, .f32⟩
  | .local _ .vmem, ⟨43, _⟩ => ⟨S512x1, .f32⟩
  | .local _ .vmem, ⟨44, _⟩ => ⟨S512x128, .f32⟩
  | .local _ .vmem, ⟨45, _⟩ => ⟨S256x192, .f32⟩
  | .local _ .vmem, ⟨46, _⟩ => ⟨S1x192, .f32⟩
  | .local _ .vmem, ⟨47, _⟩ => ⟨S1x192, .f32⟩
  | .local _ .vmem, ⟨48, _⟩ => ⟨S1x192, .f32⟩
  | .local _ .vmem, ⟨49, _⟩ => ⟨S1x192, .f32⟩
  | .local _ .vmem, ⟨50, _⟩ => ⟨S1x192, .f32⟩
  | .local _ .vmem, ⟨51, _⟩ => ⟨S192x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S128x1, .f32⟩
  | .local _ .vmem, ⟨58, _⟩ => ⟨S1x1, .f32⟩
  | .local _ .vmem, ⟨59, _⟩ => ⟨S512x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_c : Ref sig .tc := ⟨.hbm, 36, rfl⟩
abbrev main_v5 : Ref sig .tc := ⟨.hbm, 37, rfl⟩
abbrev main_v6 : Ref sig .tc := ⟨.hbm, 38, rfl⟩
abbrev main_c_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_4 : Ref sig .tc := ⟨.hbm, 55, rfl⟩
abbrev main_v19 : Ref sig .tc := ⟨.hbm, 56, rfl⟩
abbrev main_v20 : Ref sig .tc := ⟨.hbm, 57, rfl⟩
abbrev main_c_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_7 : Ref sig .tc := ⟨.hbm, 71, rfl⟩
abbrev main_v32 : Ref sig .tc := ⟨.hbm, 72, rfl⟩
abbrev main_v33 : Ref sig .tc := ⟨.hbm, 73, rfl⟩
abbrev main_c_8 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_c_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_13 : Ref sig .tc := ⟨.hbm, 96, rfl⟩
abbrev main_v51 : Ref sig .tc := ⟨.hbm, 97, rfl⟩
abbrev main_v52 : Ref sig .tc := ⟨.hbm, 98, rfl⟩
abbrev main_cst_14 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg9_0 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg7_0 : Ref sig .tc := ⟨.vmem, 49, rfl⟩
abbrev cc5_stg8_0 : Ref sig .tc := ⟨.vmem, 50, rfl⟩
abbrev cc5_stg9_0 : Ref sig .tc := ⟨.vmem, 51, rfl⟩
abbrev cc5_stg10_0 : Ref sig .tc := ⟨.vmem, 52, rfl⟩
abbrev cc5_stg11_0 : Ref sig .tc := ⟨.vmem, 53, rfl⟩
abbrev cc5_stg12_0 : Ref sig .tc := ⟨.vmem, 54, rfl⟩
abbrev cc5_stg13_0 : Ref sig .tc := ⟨.vmem, 55, rfl⟩
abbrev cc5_stg14_0 : Ref sig .tc := ⟨.vmem, 56, rfl⟩
abbrev cc5_stg15_0 : Ref sig .tc := ⟨.vmem, 57, rfl⟩
abbrev cc5_stg16_0 : Ref sig .tc := ⟨.vmem, 58, rfl⟩
abbrev cc5_stg17_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc5_sem0_0 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem8_0 : DmaSem sig := 50
abbrev cc5_sem9_0 : DmaSem sig := 51
abbrev cc5_sem10_0 : DmaSem sig := 52
abbrev cc5_sem11_0 : DmaSem sig := 53
abbrev cc5_sem12_0 : DmaSem sig := 54
abbrev cc5_sem13_0 : DmaSem sig := 55
abbrev cc5_sem14_0 : DmaSem sig := 56
abbrev cc5_sem15_0 : DmaSem sig := 57
abbrev cc5_sem16_0 : DmaSem sig := 58
abbrev cc5_sem17_0 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x8 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S8x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x192 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x192 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x192 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S192x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x128 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S128x1 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x1 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S512x1 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S200000 : S_.BroadcastsInDim S200000 (![] : Fin 0 → Fin S200000.rank)
  bcast_S_S600000 : S_.BroadcastsInDim S600000 (![] : Fin 0 → Fin S600000.rank)
  bcast_S600000_S600000x1_0 : S600000.BroadcastsInDim S600000x1 (![0] : Fin 1 → Fin S600000x1.rank)
  bcast_S200000_S200000x1_0 : S200000.BroadcastsInDim S200000x1 (![0] : Fin 1 → Fin S200000x1.rank)
  inb_S4000x2_S4000x2_0_0 : ∀ a, (![0, 0] : Fin 2 → Nat) a + S4000x2.size a ≤ S4000x2.size a
  h_S4000x2 : 0 < S4000x2.numel
  inb_S2x64_S2x64_0_0 : ∀ a, (![0, 0] : Fin 2 → Nat) a + S2x64.size a ≤ S2x64.size a
  h_S2x64 : 0 < S2x64.numel
  slices_S4000x2_o0_0_S4000x1 : S4000x2.Slices ![0, 0] S4000x1
  slices_S2x64_o0_0_S1x64 : S2x64.Slices ![0, 0] S1x64
  broadcasts_S4000x1_S4000x64 : S4000x1.Broadcasts S4000x64
  broadcasts_S1x64_S4000x64 : S1x64.Broadcasts S4000x64
  slices_S4000x2_o0_1_S4000x1 : S4000x2.Slices ![0, 1] S4000x1
  slices_S2x64_o1_0_S1x64 : S2x64.Slices ![1, 0] S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  bcast_S_S200000x64 : S_.BroadcastsInDim S200000x64 (![] : Fin 0 → Fin S200000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S200000x128 : S_.BroadcastsInDim S200000x128 (![] : Fin 0 → Fin S200000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  shapeCasts_S256_S1x256 : S256.ShapeCasts S1x256
  inb_S512x8_S512x8_0_0 : ∀ a, (![0, 0] : Fin 2 → Nat) a + S512x8.size a ≤ S512x8.size a
  h_S512x8 : 0 < S512x8.numel
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S192_S1x192 : S192.ShapeCasts S1x192
  shapeCasts_S1_S1x1 : S1.ShapeCasts S1x1
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S256x192_S256x192_0_0 : ∀ a, (![0, 0] : Fin 2 → Nat) a + S256x192.size a ≤ S256x192.size a
  h_S256x192 : 0 < S256x192.numel
  slices_S256x192_o0_0_S128x192 : S256x192.Slices ![0, 0] S128x192
  slices_S256x192_o128_0_S128x192 : S256x192.Slices ![128, 0] S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  inb_S192x128_S192x128_0_0 : ∀ a, (![0, 0] : Fin 2 → Nat) a + S192x128.size a ≤ S192x128.size a
  h_S192x128 : 0 < S192x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  scatter_S200000_S600000x1_S600000_n_0_0_1_wf : ScatterDims.WF S200000 S600000x1 S600000 [] [0] [0] 1
  gather_S200000x64_S600000x1_S600000x64_1_0_n_n_0_1_164_wf : GatherDims.WF S200000x64 S600000x1 S600000x64 [1] [0] [] [0] [] 1 ![1, 64]
  scatter_S200000x64_S600000x1_S600000x64_1_0_0_1_wf : ScatterDims.WF S200000x64 S600000x1 S600000x64 [1] [0] [0] 1
  dot_S4000x64_S64x128_S4000x128_1_0_0_1_n_n_wf : DotDims.WF S4000x64 S64x128 S4000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S512_S200000x1_S200000_n_0_0_1_wf : ScatterDims.WF S512 S200000x1 S200000 [] [0] [0] 1
  scatter_S512x128_S200000x1_S200000x128_1_0_0_1_wf : ScatterDims.WF S512x128 S200000x1 S200000x128 [1] [0] [0] 1
  dot_S512x8_S8x256_S512x256_1_0_0_1_n_n_wf : DotDims.WF S512x8 S8x256 S512x256 [1] [0] [0] [1] [] []
  dot_S512x256_S256x128_S512x128_1_0_0_1_n_n_wf : DotDims.WF S512x256 S256x128 S512x128 [1] [0] [0] [1] [] []
  dot_S512x128_S128x192_S512x192_1_0_0_1_n_n_wf : DotDims.WF S512x128 S128x192 S512x192 [1] [0] [0] [1] [] []
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S200000x2.size a
  hwx0_0 : ∀ i : grid0.Coords, EltTy.bits .f32 = 32 ∨ (Rect.block (s := S200000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S200000x64.size a
  hwx0_3 : ∀ i : grid0.Coords, EltTy.bits .f32 = 32 ∨ (Rect.block (s := S200000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S200000x64.size a
  hwx1_4 : ∀ i : grid1.Coords, EltTy.bits .f32 = 32 ∨ (Rect.block (s := S200000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S200000x128.size a
  hwx2_3 : ∀ i : grid2.Coords, EltTy.bits .f32 = 32 ∨ (Rect.block (s := S200000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S200000x1.size a
  hwx3_2 : ∀ i : grid3.Coords, EltTy.bits .f32 = 32 ∨ (Rect.block (s := S200000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S200000x128.size a
  hwx3_4 : ∀ i : grid3.Coords, EltTy.bits .f32 = 32 ∨ (Rect.block (s := S200000x128) S4000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x8.size a ≤ S512x8.size a
  hwx4_0 : ∀ i : grid4.Coords, EltTy.bits .f32 = 32 ∨ (Rect.block (s := S512x8) S512x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x256.size a ≤ S8x256.size a
  hwx4_1 : ∀ i : grid4.Coords, EltTy.bits .f32 = 32 ∨ (Rect.block (s := S8x256) S8x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x128.size a ≤ S512x128.size a
  hwx4_9 : ∀ i : grid4.Coords, EltTy.bits .f32 = 32 ∨ (Rect.block (s := S512x128) S512x128.size (cc4_transform_9 i) (hinb4_9 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S512x1.size a
  hwx5_1 : ∀ i : grid5.Coords, EltTy.bits .f32 = 32 ∨ (Rect.block (s := S512x1) S512x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x128.size a ≤ S512x128.size a
  hwx5_2 : ∀ i : grid5.Coords, EltTy.bits .f32 = 32 ∨ (Rect.block (s := S512x128) S512x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x192.size a ≤ S256x192.size a
  hwx5_3 : ∀ i : grid5.Coords, EltTy.bits .f32 = 32 ∨ (Rect.block (s := S256x192) S256x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x192.size a ≤ S1x192.size a
  hwx5_6 : ∀ i : grid5.Coords, EltTy.bits .f32 = 32 ∨ (Rect.block (s := S1x192) S1x192.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x192.size a ≤ S1x192.size a
  hwx5_7 : ∀ i : grid5.Coords, EltTy.bits .f32 = 32 ∨ (Rect.block (s := S1x192) S1x192.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x192.size a ≤ S1x192.size a
  hwx5_8 : ∀ i : grid5.Coords, EltTy.bits .f32 = 32 ∨ (Rect.block (s := S1x192) S1x192.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S192x128.size a ≤ S192x128.size a
  hwx5_9 : ∀ i : grid5.Coords, EltTy.bits .f32 = 32 ∨ (Rect.block (s := S192x128) S192x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x128.size a ≤ S1x128.size a
  hwx5_13 : ∀ i : grid5.Coords, EltTy.bits .f32 = 32 ∨ (Rect.block (s := S1x128) S1x128.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x128.size a ≤ S1x128.size a
  hwx5_14 : ∀ i : grid5.Coords, EltTy.bits .f32 = 32 ∨ (Rect.block (s := S1x128) S1x128.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S128x1.size a ≤ S128x1.size a
  hwx5_15 : ∀ i : grid5.Coords, EltTy.bits .f32 = 32 ∨ (Rect.block (s := S128x1) S128x1.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x1.size a ≤ S1x1.size a
  hwx5_16 : ∀ i : grid5.Coords, EltTy.bits .f32 = 32 ∨ (Rect.block (s := S1x1) S1x1.size (cc5_transform_16 i) (hinb5_16 i)).WholeWords (EltTy.packing .f32)
  hstage5_17 : ∀ j, (stage5_17 j).IsWhole
  nbuf5_17 : grid5.bufCount reads5_17 true = 1
  hreads5_17 : ∀ i i' : grid5.Coords, (∀ a, reads5_17 a = true → i a = i' a) → cc5_transform_17 i = cc5_transform_17 i'
  hinb5_17 : ∀ (i : grid5.Coords) a, (cc5_transform_17 i a + 1) * S512x1.size a ≤ S512x1.size a
  hwx5_17 : ∀ i : grid5.Coords, EltTy.bits .f32 = 32 ∨ (Rect.block (s := S512x1) S512x1.size (cc5_transform_17 i) (hinb5_17 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x128_S200000x1_S200000x128_1_0_0_1 : ScatterDims S512x128 S200000x1 S200000x128 where
  updateWindowDims := [1]
  insertedWindowDims := [0]
  scatterDimsToOperandDims := [0]
  indexVectorDim := 1
  wf := scatter_S512x128_S200000x1_S200000x128_1_0_0_1_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x192_S512x192_1_0_0_1_n_n : DotDims S512x128 S128x192 S512x192 where
  lhsContracting := [1]
  rhsContracting := [0]
  lhsNonContracting := [0]
  rhsNonContracting := [1]
  lhsBatch := []
  rhsBatch := []
  wf := dot_S512x128_S128x192_S512x192_1_0_0_1_n_n_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S512x8.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S8x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg12) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v62) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v63) S512x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v55) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v56) S512x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S512x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S256x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v66) S1x192.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v67) S1x192.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v68) S1x192.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg20) S192x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v69) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v70) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v71) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v72) S1x128.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v73) S1x128.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_arg26) S128x1.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_v74) S1x1.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_v75) S512x1.size cc5_transform_17 reads5_17 true true 1 stage5_17 sem5_17
    hrank5 hreads5_17 hinb5_17 nbuf5_17 (Memref.isWhole_whole _) hwx5_17 hstage5_17

abbrev win5 : Fin 18 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | ⟨_ + 18, h⟩ => absurd h (Nat.not_lt.2 (Nat.le_add_left _ _))
abbrev spec5 : Fin 18 → Pipeline.WinSpec sig grid5.rank := fun w => (win5 w).toWinSpec

class Facts : Prop extends Facts₀ where

variable [Facts]
-- ==== ReferenceIdeal.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S1x600000 : Shape := ⟨2, ![1, 600000]⟩
abbrev S600000 : Shape := ⟨1, ![600000]⟩
abbrev S200000x64 : Shape := ⟨2, ![200000, 64]⟩
abbrev S_ : Shape := ⟨0, ![]⟩
abbrev S600000x1 : Shape := ⟨2, ![600000, 1]⟩
abbrev S600000x64 : Shape := ⟨2, ![600000, 64]⟩
abbrev S200000x1 : Shape := ⟨2, ![200000, 1]⟩
abbrev S1x64 : Shape := ⟨2, ![1, 64]⟩
abbrev S200000x128 : Shape := ⟨2, ![200000, 128]⟩
abbrev S600000x128 : Shape := ⟨2, ![600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x256 : Shape := ⟨2, ![512, 256]⟩
abbrev S1x256 : Shape := ⟨2, ![1, 256]⟩
abbrev S512x192 : Shape := ⟨2, ![512, 192]⟩
abbrev S1x192 : Shape := ⟨2, ![1, 192]⟩
abbrev S1x1 : Shape := ⟨2, ![1, 1]⟩

abbrev nBuf : Space → Nat
  | .hbm => 269
  | .vmem => 0
  | .smem => 0
  | _ => 0

abbrev hbmTy0_0 (i : Nat) : BufTy := match i % 128 with
  | 0 => ⟨S200000x2, .f32⟩
  | 1 => ⟨S512x8, .f32⟩
  | 2 => ⟨S2x64, .f32⟩
  | 3 => ⟨S64, .f32⟩
  | 4 => ⟨S64x128, .f32⟩
  | 5 => ⟨S128, .f32⟩
  | 6 => ⟨S8x256, .f32⟩
  | 7 => ⟨S256, .f32⟩
  | 8 => ⟨S256, .f32⟩
  | 9 => ⟨S256, .f32⟩
  | 10 => ⟨S256, .f32⟩
  | 11 => ⟨S256, .f32⟩
  | 12 => ⟨S256x128, .f32⟩
  | 13 => ⟨S128, .f32⟩
  | 14 => ⟨S256x192, .f32⟩
  | 15 => ⟨S192, .f32⟩
  | 16 => ⟨S192, .f32⟩
  | 17 => ⟨S192, .f32⟩
  | 18 => ⟨S192, .f32⟩
  | 19 => ⟨S192, .f32⟩
  | 20 => ⟨S192x128, .f32⟩
  | 21 => ⟨S128, .f32⟩
  | 22 => ⟨S128, .f32⟩
  | 23 => ⟨S128, .f32⟩
  | 24 => ⟨S128, .f32⟩
  | 25 => ⟨S128, .f32⟩
  | 26 => ⟨S128x1, .f32⟩
  | 27 => ⟨S1, .f32⟩
  | 28 => ⟨S2x600000, .i32⟩
  | 29 => ⟨S200000, .i32⟩
  | 30 => ⟨S1x600000, .i32⟩
  | 31 => ⟨S600000, .i32⟩
  | 32 => ⟨S1x600000, .i32⟩
  | 33 => ⟨S600000, .i32⟩
  | 34 => ⟨S200000x64, .f32⟩
  | 35 => ⟨S_, .f32⟩
  | 36 => ⟨S200000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S_, .f32⟩
  | 46 => ⟨S600000, .f32⟩
  | 47 => ⟨S200000, .f32⟩
  | 48 => ⟨S_, .f32⟩
  | 49 => ⟨S200000, .f32⟩
  | 50 => ⟨S200000, .f32⟩
  | 51 => ⟨S_, .f32⟩
  | 52 => ⟨S200000, .f32⟩
  | 53 => ⟨S200000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x64, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000, .f32⟩
  | 81 => ⟨S600000, .f32⟩
  | 82 => ⟨S600000x1, .f32⟩
  | 83 => ⟨S600000x64, .f32⟩
  | 84 => ⟨S600000x64, .f32⟩
  | 85 => ⟨S_, .f32⟩
  | 86 => ⟨S200000x64, .f32⟩
  | 87 => ⟨S600000x1, .i32⟩
  | 88 => ⟨S200000x64, .f32⟩
  | 89 => ⟨S200000, .f32⟩
  | 90 => ⟨S200000x1, .f32⟩
  | 91 => ⟨S200000x64, .f32⟩
  | 92 => ⟨S200000x64, .f32⟩
  | 93 => ⟨S200000x64, .f32⟩
  | 94 => ⟨S1x64, .f32⟩
  | 95 => ⟨S200000x64, .f32⟩
  | 96 => ⟨S200000x64, .f32⟩
  | 97 => ⟨S_, .f32⟩
  | 98 => ⟨S200000x64, .f32⟩
  | 99 => ⟨S200000x64, .f32⟩
  | 100 => ⟨S200000x128, .f32⟩
  | 101 => ⟨S_, .f32⟩
  | 102 => ⟨S200000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S_, .f32⟩
  | 112 => ⟨S600000, .f32⟩
  | 113 => ⟨S200000, .f32⟩
  | 114 => ⟨S_, .f32⟩
  | 115 => ⟨S200000, .f32⟩
  | 116 => ⟨S200000, .f32⟩
  | 117 => ⟨S_, .f32⟩
  | 118 => ⟨S200000, .f32⟩
  | 119 => ⟨S200000, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S200000x2, .f32⟩

abbrev hbmTy0_1 (i : Nat) : BufTy := match i % 128 with
  | 0 => ⟨S600000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000, .f32⟩
  | 19 => ⟨S600000, .f32⟩
  | 20 => ⟨S600000x1, .f32⟩
  | 21 => ⟨S600000x128, .f32⟩
  | 22 => ⟨S600000x128, .f32⟩
  | 23 => ⟨S_, .f32⟩
  | 24 => ⟨S200000x128, .f32⟩
  | 25 => ⟨S600000x1, .i32⟩
  | 26 => ⟨S200000x128, .f32⟩
  | 27 => ⟨S200000, .f32⟩
  | 28 => ⟨S200000x1, .f32⟩
  | 29 => ⟨S200000x128, .f32⟩
  | 30 => ⟨S200000x128, .f32⟩
  | 31 => ⟨S200000x128, .f32⟩
  | 32 => ⟨S1x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000, .f32⟩
  | 40 => ⟨S_, .f32⟩
  | 41 => ⟨S512, .f32⟩
  | 42 => ⟨S200000x1, .i32⟩
  | 43 => ⟨S512, .f32⟩
  | 44 => ⟨S_, .f32⟩
  | 45 => ⟨S512x128, .f32⟩
  | 46 => ⟨S200000x1, .i32⟩
  | 47 => ⟨S512x128, .f32⟩
  | 48 => ⟨S_, .f32⟩
  | 49 => ⟨S512, .f32⟩
  | 50 => ⟨S512, .f32⟩
  | 51 => ⟨S512x1, .f32⟩
  | 52 => ⟨S512x128, .f32⟩
  | 53 => ⟨S512x128, .f32⟩
  | 54 => ⟨S512x256, .f32⟩
  | 55 => ⟨S1x256, .f32⟩
  | 56 => ⟨S512x256, .f32⟩
  | 57 => ⟨S512x256, .f32⟩
  | 58 => ⟨S1x256, .f32⟩
  | 59 => ⟨S512x256, .f32⟩
  | 60 => ⟨S512x256, .f32⟩
  | 61 => ⟨S_, .f32⟩
  | 62 => ⟨S256, .f32⟩
  | 63 => ⟨S256, .f32⟩
  | 64 => ⟨S256, .f32⟩
  | 65 => ⟨S1x256, .f32⟩
  | 66 => ⟨S512x256, .f32⟩
  | 67 => ⟨S512x256, .f32⟩
  | 68 => ⟨S1x256, .f32⟩
  | 69 => ⟨S512x256, .f32⟩
  | 70 => ⟨S512x256, .f32⟩
  | 71 => ⟨S1x256, .f32⟩
  | 72 => ⟨S512x256, .f32⟩
  | 73 => ⟨S512x256, .f32⟩
  | 74 => ⟨S_, .f32⟩
  | 75 => ⟨S512x256, .f32⟩
  | 76 => ⟨S512x256, .f32⟩
  | 77 => ⟨S512x128, .f32⟩
  | 78 => ⟨S1x128, .f32⟩
  | 79 => ⟨S512x128, .f32⟩
  | 80 => ⟨S512x128, .f32⟩
  | 81 => ⟨S512x256, .f32⟩
  | 82 => ⟨S512x192, .f32⟩
  | 83 => ⟨S1x192, .f32⟩
  | 84 => ⟨S512x192, .f32⟩
  | 85 => ⟨S512x192, .f32⟩
  | 86 => ⟨S1x192, .f32⟩
  | 87 => ⟨S512x192, .f32⟩
  | 88 => ⟨S512x192, .f32⟩
  | 89 => ⟨S_, .f32⟩
  | 90 => ⟨S192, .f32⟩
  | 91 => ⟨S192, .f32⟩
  | 92 => ⟨S192, .f32⟩
  | 93 => ⟨S1x192, .f32⟩
  | 94 => ⟨S512x192, .f32⟩
  | 95 => ⟨S512x192, .f32⟩
  | 96 => ⟨S1x192, .f32⟩
  | 97 => ⟨S512x192, .f32⟩
  | 98 => ⟨S512x192, .f32⟩
  | 99 => ⟨S1x192, .f32⟩
  | 100 => ⟨S512x192, .f32⟩
  | 101 => ⟨S512x192, .f32⟩
  | 102 => ⟨S_, .f32⟩
  | 103 => ⟨S512x192, .f32⟩
  | 104 => ⟨S512x192, .f32⟩
  | 105 => ⟨S512x128, .f32⟩
  | 106 => ⟨S1x128, .f32⟩
  | 107 => ⟨S512x128, .f32⟩
  | 108 => ⟨S512x128, .f32⟩
  | 109 => ⟨S1x128, .f32⟩
  | 110 => ⟨S512x128, .f32⟩
  | 111 => ⟨S512x128, .f32⟩
  | 112 => ⟨S_, .f32⟩
  | 113 => ⟨S128, .f32⟩
  | 114 => ⟨S128, .f32⟩
  | 115 => ⟨S128, .f32⟩
  | 116 => ⟨S1x128, .f32⟩
  | 117 => ⟨S512x128, .f32⟩
  | 118 => ⟨S512x128, .f32⟩
  | 119 => ⟨S1x128, .f32⟩
  | 120 => ⟨S512x128, .f32⟩
  | 121 => ⟨S512x128, .f32⟩
  | 122 => ⟨S1x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S200000x2, .f32⟩

abbrev hbmTy0_2 (i : Nat) : BufTy := match i % 128 with
  | 0 => ⟨S512x1, .f32⟩
  | 1 => ⟨S1x1, .f32⟩
  | 2 => ⟨S512x1, .f32⟩
  | 3 => ⟨S512x1, .f32⟩
  | 4 => ⟨S512x1, .f32⟩
  | 5 => ⟨S512x1, .f32⟩
  | 6 => ⟨S_, .f32⟩
  | 7 => ⟨S512x1, .f32⟩
  | 8 => ⟨S512x1, .f32⟩
  | 9 => ⟨S_, .f32⟩
  | 10 => ⟨S512x1, .f32⟩
  | 11 => ⟨S512x1, .f32⟩
  | 12 => ⟨S512, .f32⟩
  | _ => ⟨S200000x2, .f32⟩

abbrev hbmTy (i : Nat) : BufTy := match i / 128 with
  | 0 => hbmTy0_0 i
  | 1 => hbmTy0_1 i
  | 2 => hbmTy0_2 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_c : Ref sig .tc := ⟨.hbm, 37, rfl⟩
abbrev main_v6 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_c_4 : Ref sig .tc := ⟨.hbm, 54, rfl⟩
abbrev main_v18 : Ref sig .tc := ⟨.hbm, 55, rfl⟩
abbrev main_v19 : Ref sig .tc := ⟨.hbm, 56, rfl⟩
abbrev main_c_5 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_6 : Ref sig .tc := ⟨.hbm, 63, rfl⟩
abbrev main_v25 : Ref sig .tc := ⟨.hbm, 64, rfl⟩
abbrev main_v26 : Ref sig .tc := ⟨.hbm, 65, rfl⟩
abbrev main_c_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c_8 : Ref sig .tc := ⟨.hbm, 72, rfl⟩
abbrev main_v32 : Ref sig .tc := ⟨.hbm, 73, rfl⟩
abbrev main_v33 : Ref sig .tc := ⟨.hbm, 74, rfl⟩
abbrev main_c_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_10 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call0_cst : Ref sig .tc := ⟨.hbm, 97, rfl⟩
abbrev main_call0_v0 : Ref sig .tc := ⟨.hbm, 98, rfl⟩
abbrev main_v54 : Ref sig .tc := ⟨.hbm, 99, rfl⟩
abbrev main_v55 : Ref sig .tc := ⟨.hbm, 100, rfl⟩
abbrev main_cst_11 : Ref sig .tc := ⟨.hbm, 101, rfl⟩
abbrev main_v56 : Ref sig .tc := ⟨.hbm, 102, rfl⟩
abbrev main_c_12 : Ref sig .tc := ⟨.hbm, 103, rfl⟩
abbrev main_v57 : Ref sig .tc := ⟨.hbm, 104, rfl⟩
abbrev main_v58 : Ref sig .tc := ⟨.hbm, 105, rfl⟩
abbrev main_c_13 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_14 : Ref sig .tc := ⟨.hbm, 111, rfl⟩
abbrev main_v63 : Ref sig .tc := ⟨.hbm, 112, rfl⟩
abbrev main_v64 : Ref sig .tc := ⟨.hbm, 113, rfl⟩
abbrev main_cst_15 : Ref sig .tc := ⟨.hbm, 114, rfl⟩
abbrev main_v65 : Ref sig .tc := ⟨.hbm, 115, rfl⟩
abbrev main_v66 : Ref sig .tc := ⟨.hbm, 116, rfl⟩
abbrev main_cst_16 : Ref sig .tc := ⟨.hbm, 117, rfl⟩
abbrev main_v67 : Ref sig .tc := ⟨.hbm, 118, rfl⟩
abbrev main_v68 : Ref sig .tc := ⟨.hbm, 119, rfl⟩
abbrev main_c_17 : Ref sig .tc := ⟨.hbm, 120, rfl⟩
abbrev main_v69 : Ref sig .tc := ⟨.hbm, 121, rfl⟩
abbrev main_v70 : Ref sig .tc := ⟨.hbm, 122, rfl⟩
abbrev main_c_18 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_19 : Ref sig .tc := ⟨.hbm, 129, rfl⟩
abbrev main_v76 : Ref sig .tc := ⟨.hbm, 130, rfl⟩
abbrev main_v77 : Ref sig .tc := ⟨.hbm, 131, rfl⟩
abbrev main_c_20 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_21 : Ref sig .tc := ⟨.hbm, 138, rfl⟩
abbrev main_v83 : Ref sig .tc := ⟨.hbm, 139, rfl⟩
abbrev main_v84 : Ref sig .tc := ⟨.hbm, 140, rfl⟩
abbrev main_c_22 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_23 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call1_cst : Ref sig .tc := ⟨.hbm, 163, rfl⟩
abbrev main_call1_v0 : Ref sig .tc := ⟨.hbm, 164, rfl⟩
abbrev main_v105 : Ref sig .tc := ⟨.hbm, 165, rfl⟩
abbrev main_cst_24 : Ref sig .tc := ⟨.hbm, 166, rfl⟩
abbrev main_v106 : Ref sig .tc := ⟨.hbm, 167, rfl⟩
abbrev main_cst_25 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_26 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_28 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_call2_cst : Ref sig .tc := ⟨.hbm, 202, rfl⟩
abbrev main_call2_v0 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_29 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_call3_cst : Ref sig .tc := ⟨.hbm, 230, rfl⟩
abbrev main_call3_v0 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_30 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_call4_cst : Ref sig .tc := ⟨.hbm, 253, rfl⟩
abbrev main_call4_v0 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_31 : Ref sig .tc := ⟨.hbm, 262, rfl⟩
abbrev main_v189 : Ref sig .tc := ⟨.hbm, 263, rfl⟩
abbrev main_v190 : Ref sig .tc := ⟨.hbm, 264, rfl⟩
abbrev main_cst_32 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S200000 : S_.BroadcastsInDim S200000 (![] : Fin 0 → Fin S200000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S256 : S_.BroadcastsInDim S256 (![] : Fin 0 → Fin S256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  concatenates_S512x128_S512x128_S512x256_d1 : Shape.Concatenates [S512x128, S512x128] S512x256 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S192 : S_.BroadcastsInDim S192 (![] : Fin 0 → Fin S192.rank)
  bcast_S_S512x192 : S_.BroadcastsInDim S512x192 (![] : Fin 0 → Fin S512x192.rank)
  bcast_S_S128 : S_.BroadcastsInDim S128 (![] : Fin 0 → Fin S128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  shapeCasts_S512x1_S512 : S512x1.ShapeCasts S512
  dot_S200000x2_S2x64_S200000x64_1_0_0_1_n_n_wf : DotDims.WF S200000x2 S2x64 S200000x64 [1] [0] [0] [1] [] []
  scatter_S200000_S600000x1_S600000_n_0_0_1_wf : ScatterDims.WF S200000 S600000x1 S600000 [] [0] [0] 1
  gather_S200000x64_S600000x1_S600000x64_1_0_n_n_0_1_164_wf : GatherDims.WF S200000x64 S600000x1 S600000x64 [1] [0] [] [0] [] 1 ![1, 64]
  gather_S200000_S600000x1_S600000_n_0_n_n_0_1_1_wf : GatherDims.WF S200000 S600000x1 S600000 [] [0] [] [0] [] 1 ![1]
  scatter_S200000x64_S600000x1_S600000x64_1_0_0_1_wf : ScatterDims.WF S200000x64 S600000x1 S600000x64 [1] [0] [0] 1
  dot_S200000x64_S64x128_S200000x128_1_0_0_1_n_n_wf : DotDims.WF S200000x64 S64x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S512_S200000x1_S200000_n_0_0_1_wf : ScatterDims.WF S512 S200000x1 S200000 [] [0] [0] 1
  scatter_S512x128_S200000x1_S200000x128_1_0_0_1_wf : ScatterDims.WF S512x128 S200000x1 S200000x128 [1] [0] [0] 1
  dot_S512x8_S8x256_S512x256_1_0_0_1_n_n_wf : DotDims.WF S512x8 S8x256 S512x256 [1] [0] [0] [1] [] []
  dot_S512x256_S256x128_S512x128_1_0_0_1_n_n_wf : DotDims.WF S512x256 S256x128 S512x128 [1] [0] [0] [1] [] []
  dot_S512x256_S256x192_S512x192_1_0_0_1_n_n_wf : DotDims.WF S512x256 S256x192 S512x192 [1] [0] [0] [1] [] []
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []

variable [Facts₀]

def dot_S200000x2_S2x64_S200000x64_1_0_0_1_n_n : DotDims S200000x2 S2x64 S200000x64 where
  lhsContracting := [1]
  rhsContracting := [0]
  lhsNonContracting := [0]
  rhsNonContracting := [1]
  lhsBatch := []
  rhsBatch := []
  wf := dot_S200000x2_S2x64_S200000x64_1_0_0_1_n_n_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x128_S200000x1_S200000x128_1_0_0_1 : ScatterDims S512x128 S200000x1 S200000x128 where
  updateWindowDims := [1]
  insertedWindowDims := [0]
  scatterDimsToOperandDims := [0]
  indexVectorDim := 1
  wf := scatter_S512x128_S200000x1_S200000x128_1_0_0_1_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x256_S256x192_S512x192_1_0_0_1_n_n : DotDims S512x256 S256x192 S512x192 where
  lhsContracting := [1]
  rhsContracting := [0]
  lhsNonContracting := [0]
  rhsNonContracting := [1]
  lhsBatch := []
  rhsBatch := []
  wf := dot_S512x256_S256x192_S512x192_1_0_0_1_n_n_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KRun.lean ====
/-
  The idealized kernel program's run with its result NAMED: every weakly fair execution of @main terminates,
  nothing faulting, with the returned buffer at the last boundary's contents (the fold of the host stretches and
  the six regions' write-backs through @main) and every argument array as launched. The launch theorem over the
  program's twelve segments, with the final thread state read at the returned buffer as well as at the arguments.
-/
import proofs.«117654_j30477087932519_2_alg».proof.Proof.Gen.KernelIdeal.Frame

set_option maxRecDepth 16384

noncomputable section

namespace Cert.Bridge.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the returned buffer ends at the last boundary's contents, the arguments as launched. -/
theorem run : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c)⟩)

end Cert.Bridge.KRun

end
-- ==== Proof.FoldA.lean ====
/-
  Buffers of the idealized kernel program that nothing writes between two boundaries of @main keep their contents:
  the graph-convolution half (the launch through the second layer's final stage).
-/
import proofs.«117654_j30477087932519_2_alg».proof.Proof.Gen.KernelIdeal.Frame

set_option maxRecDepth 16384

noncomputable section

namespace Cert.Bridge.FoldA

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Buffer `main_arg0` is written by nothing between boundaries 0 and 1 of @main: its contents there are the same. -/
theorem keep_arg0_1_0 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg2` is written by nothing between boundaries 0 and 1 of @main: its contents there are the same. -/
theorem keep_arg2_1_0 : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v1` is written by nothing between boundaries 1 and 2 of @main: its contents there are the same. -/
theorem keep_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- Buffer `main_v3` is written by nothing between boundaries 1 and 2 of @main: its contents there are the same. -/
theorem keep_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Buffer `main_arg3` is written by nothing between boundaries 0 and 2 of @main: its contents there are the same. -/
theorem keep_arg3_2_0 : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v18` is written by nothing between boundaries 2 and 3 of @main: its contents there are the same. -/
theorem keep_v18_3_2 : W3 m ρ c (Proc.devRef .tc main_v18) = W2 m ρ c (Proc.devRef .tc main_v18) :=
  calc W3 m ρ c (Proc.devRef .tc main_v18)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v17` is written by nothing between boundaries 1 and 3 of @main: its contents there are the same. -/
theorem keep_v17_3_1 : W3 m ρ c (Proc.devRef .tc main_v17) = W1 m ρ c (Proc.devRef .tc main_v17) :=
  calc W3 m ρ c (Proc.devRef .tc main_v17)
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := (W2_arr m ρ c 2).trans (((dat0 (V1 m ρ) c).arrAt_in 2 rfl _).trans (A_eq0 (V1 m ρ) c 2))

/-- Buffer `main_arg4` is written by nothing between boundaries 0 and 4 of @main: its contents there are the same. -/
theorem keep_arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v17` is written by nothing between boundaries 1 and 4 of @main: its contents there are the same. -/
theorem keep_v17_4_1 : W4 m ρ c (Proc.devRef .tc main_v17) = W1 m ρ c (Proc.devRef .tc main_v17) :=
  calc W4 m ρ c (Proc.devRef .tc main_v17)
    _ = W3 m ρ c (Proc.devRef .tc main_v17) := (W4_arr m ρ c 2).trans (((dat1 (V3 m ρ) c).arrAt_in 2 rfl _).trans (A_eq1 (V3 m ρ) c 2))
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := (W2_arr m ρ c 2).trans (((dat0 (V1 m ρ) c).arrAt_in 2 rfl _).trans (A_eq0 (V1 m ρ) c 2))

/-- Buffer `main_v1` is written by nothing between boundaries 1 and 5 of @main: its contents there are the same. -/
theorem keep_v1_5_1 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer `main_v3` is written by nothing between boundaries 1 and 5 of @main: its contents there are the same. -/
theorem keep_v3_5_1 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer `main_arg5` is written by nothing between boundaries 0 and 5 of @main: its contents there are the same. -/
theorem keep_arg5_5_0 : W5 m ρ c (Proc.devRef .tc main_arg5) = W0 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v31` is written by nothing between boundaries 5 and 6 of @main: its contents there are the same. -/
theorem keep_v31_6_5 : W6 m ρ c (Proc.devRef .tc main_v31) = W5 m ρ c (Proc.devRef .tc main_v31) :=
  calc W6 m ρ c (Proc.devRef .tc main_v31)
    _ = W5 m ρ c (Proc.devRef .tc main_v31) := StableHlo.after_of_forall_not_mem (b := Proc.devRef .tc main_v31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v17` is written by nothing between boundaries 1 and 6 of @main: its contents there are the same. -/
theorem keep_v17_6_1 : W6 m ρ c (Proc.devRef .tc main_v17) = W1 m ρ c (Proc.devRef .tc main_v17) :=
  calc W6 m ρ c (Proc.devRef .tc main_v17)
    _ = W5 m ρ c (Proc.devRef .tc main_v17) := StableHlo.after_of_forall_not_mem (b := Proc.devRef .tc main_v17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v17) := (W5_arr m ρ c 2).trans (((dat2 (V4 m ρ) c).arrAt_in 2 rfl _).trans (A_eq2 (V4 m ρ) c 2))
    _ = W3 m ρ c (Proc.devRef .tc main_v17) := (W4_arr m ρ c 2).trans (((dat1 (V3 m ρ) c).arrAt_in 2 rfl _).trans (A_eq1 (V3 m ρ) c 2))
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := (W2_arr m ρ c 2).trans (((dat0 (V1 m ρ) c).arrAt_in 2 rfl _).trans (A_eq0 (V1 m ρ) c 2))

end Cert.Bridge.FoldA

end
-- ==== Proof.FoldB.lean ====
/-
  Buffers of the idealized kernel program that nothing writes between two boundaries of @main keep their contents:
  the arguments the pooling stretch and the feature MLP read.
-/
import proofs.«117654_j30477087932519_2_alg».proof.Proof.Gen.KernelIdeal.Frame

set_option maxRecDepth 16384

noncomputable section

namespace Cert.Bridge.FoldB

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Buffer `main_arg29` is written by nothing between boundaries 0 and 7 of @main: its contents there are the same. -/
theorem keep_arg29_7_0 : W7 m ρ c (Proc.devRef .tc main_arg29) = W0 m ρ c (Proc.devRef .tc main_arg29) :=
  calc W7 m ρ c (Proc.devRef .tc main_arg29)
    _ = W6 m ρ c (Proc.devRef .tc main_arg29) := W7_of_ne m ρ c main_arg29 (by decide)
    _ = W5 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg29) := W5_of_ne m ρ c main_arg29 (by decide)
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg7` is written by nothing between boundaries 0 and 7 of @main: its contents there are the same. -/
theorem keep_arg7_7_0 : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg8` is written by nothing between boundaries 0 and 7 of @main: its contents there are the same. -/
theorem keep_arg8_7_0 : W7 m ρ c (Proc.devRef .tc main_arg8) = W0 m ρ c (Proc.devRef .tc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg9` is written by nothing between boundaries 0 and 7 of @main: its contents there are the same. -/
theorem keep_arg9_7_0 : W7 m ρ c (Proc.devRef .tc main_arg9) = W0 m ρ c (Proc.devRef .tc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg10` is written by nothing between boundaries 0 and 7 of @main: its contents there are the same. -/
theorem keep_arg10_7_0 : W7 m ρ c (Proc.devRef .tc main_arg10) = W0 m ρ c (Proc.devRef .tc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg11` is written by nothing between boundaries 0 and 7 of @main: its contents there are the same. -/
theorem keep_arg11_7_0 : W7 m ρ c (Proc.devRef .tc main_arg11) = W0 m ρ c (Proc.devRef .tc main_arg11) :=
  calc W7 m ρ c (Proc.devRef .tc main_arg11)
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg13` is written by nothing between boundaries 0 and 7 of @main: its contents there are the same. -/
theorem keep_arg13_7_0 : W7 m ρ c (Proc.devRef .tc main_arg13) = W0 m ρ c (Proc.devRef .tc main_arg13) :=
  calc W7 m ρ c (Proc.devRef .tc main_arg13)
    _ = W6 m ρ c (Proc.devRef .tc main_arg13) := W7_of_ne m ρ c main_arg13 (by decide)
    _ = W5 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg1` is written by nothing between boundaries 0 and 8 of @main: its contents there are the same. -/
theorem keep_arg1_8_0 : W8 m ρ c (Proc.devRef .tc main_arg1) = W0 m ρ c (Proc.devRef .tc main_arg1) :=
  calc W8 m ρ c (Proc.devRef .tc main_arg1)
    _ = W7 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg6` is written by nothing between boundaries 0 and 8 of @main: its contents there are the same. -/
theorem keep_arg6_8_0 : W8 m ρ c (Proc.devRef .tc main_arg6) = W0 m ρ c (Proc.devRef .tc main_arg6) :=
  calc W8 m ρ c (Proc.devRef .tc main_arg6)
    _ = W7 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg12` is written by nothing between boundaries 0 and 8 of @main: its contents there are the same. -/
theorem keep_arg12_8_0 : W8 m ρ c (Proc.devRef .tc main_arg12) = W0 m ρ c (Proc.devRef .tc main_arg12) :=
  calc W8 m ρ c (Proc.devRef .tc main_arg12)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Bridge.FoldB

end
-- ==== Proof.FoldC.lean ====
/-
  Buffers of the idealized kernel program that nothing writes between two boundaries of @main keep their contents:
  what the fusion head reads.
-/
import proofs.«117654_j30477087932519_2_alg».proof.Proof.Gen.KernelIdeal.Frame

set_option maxRecDepth 16384

noncomputable section

namespace Cert.Bridge.FoldC

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Buffer `main_arg15` is written by nothing between boundaries 0 and 9 of @main: its contents there are the same. -/
theorem keep_arg15_9_0 : W9 m ρ c (Proc.devRef .tc main_arg15) = W0 m ρ c (Proc.devRef .tc main_arg15) :=
  calc W9 m ρ c (Proc.devRef .tc main_arg15)
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := W7_of_ne m ρ c main_arg15 (by decide)
    _ = W5 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg16` is written by nothing between boundaries 0 and 9 of @main: its contents there are the same. -/
theorem keep_arg16_9_0 : W9 m ρ c (Proc.devRef .tc main_arg16) = W0 m ρ c (Proc.devRef .tc main_arg16) :=
  calc W9 m ρ c (Proc.devRef .tc main_arg16)
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := W7_of_ne m ρ c main_arg16 (by decide)
    _ = W5 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg17` is written by nothing between boundaries 0 and 9 of @main: its contents there are the same. -/
theorem keep_arg17_9_0 : W9 m ρ c (Proc.devRef .tc main_arg17) = W0 m ρ c (Proc.devRef .tc main_arg17) :=
  calc W9 m ρ c (Proc.devRef .tc main_arg17)
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := W7_of_ne m ρ c main_arg17 (by decide)
    _ = W5 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg18` is written by nothing between boundaries 0 and 9 of @main: its contents there are the same. -/
theorem keep_arg18_9_0 : W9 m ρ c (Proc.devRef .tc main_arg18) = W0 m ρ c (Proc.devRef .tc main_arg18) :=
  calc W9 m ρ c (Proc.devRef .tc main_arg18)
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := W7_of_ne m ρ c main_arg18 (by decide)
    _ = W5 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg18) := W5_of_ne m ρ c main_arg18 (by decide)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg19` is written by nothing between boundaries 0 and 9 of @main: its contents there are the same. -/
theorem keep_arg19_9_0 : W9 m ρ c (Proc.devRef .tc main_arg19) = W0 m ρ c (Proc.devRef .tc main_arg19) :=
  calc W9 m ρ c (Proc.devRef .tc main_arg19)
    _ = W8 m ρ c (Proc.devRef .tc main_arg19) := W9_of_ne m ρ c main_arg19 (by decide)
    _ = W7 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg19) := W7_of_ne m ρ c main_arg19 (by decide)
    _ = W5 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := W5_of_ne m ρ c main_arg19 (by decide)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg21` is written by nothing between boundaries 0 and 9 of @main: its contents there are the same. -/
theorem keep_arg21_9_0 : W9 m ρ c (Proc.devRef .tc main_arg21) = W0 m ρ c (Proc.devRef .tc main_arg21) :=
  calc W9 m ρ c (Proc.devRef .tc main_arg21)
    _ = W8 m ρ c (Proc.devRef .tc main_arg21) := W9_of_ne m ρ c main_arg21 (by decide)
    _ = W7 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg21) := W7_of_ne m ρ c main_arg21 (by decide)
    _ = W5 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg21) := W5_of_ne m ρ c main_arg21 (by decide)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg22` is written by nothing between boundaries 0 and 9 of @main: its contents there are the same. -/
theorem keep_arg22_9_0 : W9 m ρ c (Proc.devRef .tc main_arg22) = W0 m ρ c (Proc.devRef .tc main_arg22) :=
  calc W9 m ρ c (Proc.devRef .tc main_arg22)
    _ = W8 m ρ c (Proc.devRef .tc main_arg22) := W9_of_ne m ρ c main_arg22 (by decide)
    _ = W7 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg22) := W7_of_ne m ρ c main_arg22 (by decide)
    _ = W5 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg22) := W5_of_ne m ρ c main_arg22 (by decide)
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg23` is written by nothing between boundaries 0 and 9 of @main: its contents there are the same. -/
theorem keep_arg23_9_0 : W9 m ρ c (Proc.devRef .tc main_arg23) = W0 m ρ c (Proc.devRef .tc main_arg23) :=
  calc W9 m ρ c (Proc.devRef .tc main_arg23)
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := W7_of_ne m ρ c main_arg23 (by decide)
    _ = W5 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg23) := W5_of_ne m ρ c main_arg23 (by decide)
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg24` is written by nothing between boundaries 0 and 9 of @main: its contents there are the same. -/
theorem keep_arg24_9_0 : W9 m ρ c (Proc.devRef .tc main_arg24) = W0 m ρ c (Proc.devRef .tc main_arg24) :=
  calc W9 m ρ c (Proc.devRef .tc main_arg24)
    _ = W8 m ρ c (Proc.devRef .tc main_arg24) := W9_of_ne m ρ c main_arg24 (by decide)
    _ = W7 m ρ c (Proc.devRef .tc main_arg24) := StableHlo.after_of_forall_not_mem (b := Proc.devRef .tc main_arg24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg24) := W7_of_ne m ρ c main_arg24 (by decide)
    _ = W5 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg24) := W5_of_ne m ρ c main_arg24 (by decide)
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg25` is written by nothing between boundaries 0 and 9 of @main: its contents there are the same. -/
theorem keep_arg25_9_0 : W9 m ρ c (Proc.devRef .tc main_arg25) = W0 m ρ c (Proc.devRef .tc main_arg25) :=
  calc W9 m ρ c (Proc.devRef .tc main_arg25)
    _ = W8 m ρ c (Proc.devRef .tc main_arg25) := W9_of_ne m ρ c main_arg25 (by decide)
    _ = W7 m ρ c (Proc.devRef .tc main_arg25) := StableHlo.after_of_forall_not_mem (b := Proc.devRef .tc main_arg25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg25) := W7_of_ne m ρ c main_arg25 (by decide)
    _ = W5 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg25) := W5_of_ne m ρ c main_arg25 (by decide)
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg27` is written by nothing between boundaries 0 and 9 of @main: its contents there are the same. -/
theorem keep_arg27_9_0 : W9 m ρ c (Proc.devRef .tc main_arg27) = W0 m ρ c (Proc.devRef .tc main_arg27) :=
  calc W9 m ρ c (Proc.devRef .tc main_arg27)
    _ = W8 m ρ c (Proc.devRef .tc main_arg27) := W9_of_ne m ρ c main_arg27 (by decide)
    _ = W7 m ρ c (Proc.devRef .tc main_arg27) := StableHlo.after_of_forall_not_mem (b := Proc.devRef .tc main_arg27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg27) := W7_of_ne m ρ c main_arg27 (by decide)
    _ = W5 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg27) := W5_of_ne m ρ c main_arg27 (by decide)
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_v55` is written by nothing between boundaries 8 and 10 of @main: its contents there are the same. -/
theorem keep_v55_10_8 : W10 m ρ c (Proc.devRef .tc main_v55) = W8 m ρ c (Proc.devRef .tc main_v55) :=
  calc W10 m ρ c (Proc.devRef .tc main_v55)
    _ = W9 m ρ c (Proc.devRef .tc main_v55) := StableHlo.after_of_forall_not_mem (b := Proc.devRef .tc main_v55) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v55) := W9_of_ne m ρ c main_v55 (by decide)

/-- Buffer `main_v56` is written by nothing between boundaries 8 and 10 of @main: its contents there are the same. -/
theorem keep_v56_10_8 : W10 m ρ c (Proc.devRef .tc main_v56) = W8 m ρ c (Proc.devRef .tc main_v56) :=
  calc W10 m ρ c (Proc.devRef .tc main_v56)
    _ = W9 m ρ c (Proc.devRef .tc main_v56) := StableHlo.after_of_forall_not_mem (b := Proc.devRef .tc main_v56) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v56) := W9_of_ne m ρ c main_v56 (by decide)

/-- Buffer `main_v63` is written by nothing between boundaries 9 and 10 of @main: its contents there are the same. -/
theorem keep_v63_10_9 : W10 m ρ c (Proc.devRef .tc main_v63) = W9 m ρ c (Proc.devRef .tc main_v63) :=
  calc W10 m ρ c (Proc.devRef .tc main_v63)
    _ = W9 m ρ c (Proc.devRef .tc main_v63) := StableHlo.after_of_forall_not_mem (b := Proc.devRef .tc main_v63) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg14` is written by nothing between boundaries 0 and 10 of @main: its contents there are the same. -/
theorem keep_arg14_10_0 : W10 m ρ c (Proc.devRef .tc main_arg14) = W0 m ρ c (Proc.devRef .tc main_arg14) :=
  calc W10 m ρ c (Proc.devRef .tc main_arg14)
    _ = W9 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := W7_of_ne m ρ c main_arg14 (by decide)
    _ = W5 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg20` is written by nothing between boundaries 0 and 10 of @main: its contents there are the same. -/
theorem keep_arg20_10_0 : W10 m ρ c (Proc.devRef .tc main_arg20) = W0 m ρ c (Proc.devRef .tc main_arg20) :=
  calc W10 m ρ c (Proc.devRef .tc main_arg20)
    _ = W9 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg20) := W9_of_ne m ρ c main_arg20 (by decide)
    _ = W7 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := W7_of_ne m ρ c main_arg20 (by decide)
    _ = W5 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer `main_arg26` is written by nothing between boundaries 0 and 10 of @main: its contents there are the same. -/
theorem keep_arg26_10_0 : W10 m ρ c (Proc.devRef .tc main_arg26) = W0 m ρ c (Proc.devRef .tc main_arg26) :=
  calc W10 m ρ c (Proc.devRef .tc main_arg26)
    _ = W9 m ρ c (Proc.devRef .tc main_arg26) := StableHlo.after_of_forall_not_mem (b := Proc.devRef .tc main_arg26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg26) := W9_of_ne m ρ c main_arg26 (by decide)
    _ = W7 m ρ c (Proc.devRef .tc main_arg26) := StableHlo.after_of_forall_not_mem (b := Proc.devRef .tc main_arg26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg26) := W7_of_ne m ρ c main_arg26 (by decide)
    _ = W5 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg26) := W5_of_ne m ρ c main_arg26 (by decide)
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Bridge.FoldC

end
-- ==== Proof.HostK.lean ====
/-
  What the host stretches of the idealized kernel program leave in the buffers the regions read, as the
  operations' terms of the arguments: the edge endpoints, the normalisation column, the aggregated messages of each
  layer, the per-graph sums and counts, and the row forms of the small parameter vectors.
-/
import proofs.«117654_j30477087932519_2_alg».proof.Proof.Gen.KernelIdeal.Frame
import proofs.«117654_j30477087932519_2_alg».proof.Proof.Gen.ReferenceIdeal.Read
import proofs.«117654_j30477087932519_2_alg».proof.Proof.FoldA
import proofs.«117654_j30477087932519_2_alg».proof.Proof.FoldB
import proofs.«117654_j30477087932519_2_alg».proof.Proof.FoldC
import Idealize.ShloMosaic.Lib.StableHlo.Run

set_option maxRecDepth 16384
set_option maxHeartbeats 2000000

noncomputable section

namespace Cert.Bridge.HostK

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The per-graph node counts as the kernel program computes them: a scatter-add of ones at the graph index with
    NEGATIVE indices wrapped by the number of graphs. -/
def cntK (B : IVec S200000 32) : S512.Idx → EReal :=
  Host.scatterAdd (F := Ideal) (φ := .f32) scatter_S512_S200000x1_S200000_n_0_0_1
    (broadcastInDim S512 ![] bcast_S_S512 (constant (F := Ideal) S_ .f32 0x00000000#32))
    (broadcastInDim S200000x1 ![0] bcast_S200000_S200000x1_0
      (select (cmpi .slt B (broadcastInDim S200000 ![] bcast_S_S200000 (constantI S_ 32 0#32)))
        (addi B (broadcastInDim S200000 ![] bcast_S_S200000 (constantI S_ 32 512#32))) B))
    (broadcastInDim S200000 ![] bcast_S_S200000 (constant (F := Ideal) S_ .f32 0x3F800000#32))

/-- The edges' source endpoints. -/
theorem W1_v1 : W1 m ρ c (Proc.devRef .tc main_v1) = Cert.ReferenceIdeal.Read.val_main_v1 (F := Ideal) (m ((c : Thread nD τ).loc main_arg28)) := by
  show StableHlo.after hostOps0 (W0 m ρ c) (Proc.devRef .tc main_v1) = _
  after_results
  rfl
/-- The edges' destination endpoints. -/
theorem W1_v3 : W1 m ρ c (Proc.devRef .tc main_v3) = Cert.ReferenceIdeal.Read.val_main_v3 (F := Ideal) (m ((c : Thread nD τ).loc main_arg28)) := by
  show StableHlo.after hostOps0 (W0 m ρ c) (Proc.devRef .tc main_v3) = _
  after_results
  rfl
/-- The normalisation `deg^(-1/2)` as a column. -/
theorem W1_v17 : W1 m ρ c (Proc.devRef .tc main_v17) = broadcastInDim S200000x1 ![0] bcast_S200000_S200000x1_0 (Cert.ReferenceIdeal.Read.val_main_v17 (F := Ideal) (m ((c : Thread nD τ).loc main_arg28))) := by
  show StableHlo.after hostOps0 (W0 m ρ c) (Proc.devRef .tc main_v17) = _
  after_results
  rfl
/-- The first layer's aggregated messages: the scaled features gathered at the sources, summed at the destinations. -/
theorem W3_v28 (hp : S200000x64.Idx → EReal) (h18 : W2 m ρ c (Proc.devRef .tc main_v18) = hp) :
    W3 m ρ c (Proc.devRef .tc main_v28) = Host.scatterAdd (F := Ideal) (φ := .f32) scatter_S200000x64_S600000x1_S600000x64_1_0_0_1 (Cert.ReferenceIdeal.Read.val_main_v43 (F := Ideal)) (Cert.ReferenceIdeal.Read.val_main_v44 (F := Ideal) (m ((c : Thread nD τ).loc main_arg28)))
      (Host.gather gather_S200000x64_S600000x1_S600000x64_1_0_n_n_0_1_164 hp (Cert.ReferenceIdeal.Read.val_main_v23 (F := Ideal) (m ((c : Thread nD τ).loc main_arg28)))) := by
  show StableHlo.after hostOps1 (W2 m ρ c) (Proc.devRef .tc main_v28) = _
  after_results
  rw [h18, FoldA.keep_v1_2_1, FoldA.keep_v3_2_1, W1_v1, W1_v3]
  rfl
/-- The first layer's bias as a row. -/
theorem W3_v29 : W3 m ρ c (Proc.devRef .tc main_v29) = shapeCast S1x64 (m ((c : Thread nD τ).loc main_arg3)) shapeCasts_S64_S1x64 := by
  show StableHlo.after hostOps1 (W2 m ρ c) (Proc.devRef .tc main_v29) = _
  after_results
  rw [FoldA.keep_arg3_2_0]
  rfl
/-- The second layer's aggregated messages. -/
theorem W6_v41 (hp : S200000x128.Idx → EReal) (h31 : W5 m ρ c (Proc.devRef .tc main_v31) = hp) :
    W6 m ρ c (Proc.devRef .tc main_v41) = Host.scatterAdd (F := Ideal) (φ := .f32) scatter_S200000x128_S600000x1_S600000x128_1_0_0_1 (Cert.ReferenceIdeal.Read.val_main_v94 (F := Ideal)) (Cert.ReferenceIdeal.Read.val_main_v95 (F := Ideal) (m ((c : Thread nD τ).loc main_arg28)))
      (Host.gather gather_S200000x128_S600000x1_S600000x128_1_0_n_n_0_1_1128 hp (Cert.ReferenceIdeal.Read.val_main_v74 (F := Ideal) (m ((c : Thread nD τ).loc main_arg28)))) := by
  show StableHlo.after hostOps3 (W5 m ρ c) (Proc.devRef .tc main_v41) = _
  after_results
  rw [h31, FoldA.keep_v1_5_1, FoldA.keep_v3_5_1, W1_v1, W1_v3]
  rfl
/-- The second layer's bias as a row. -/
theorem W6_v42 : W6 m ρ c (Proc.devRef .tc main_v42) = shapeCast S1x128 (m ((c : Thread nD τ).loc main_arg5)) shapeCasts_S128_S1x128 := by
  show StableHlo.after hostOps3 (W5 m ρ c) (Proc.devRef .tc main_v42) = _
  after_results
  rw [FoldA.keep_arg5_5_0]
  rfl
/-- The per-graph sums of the node features. -/
theorem W8_v55 (h2 : S200000x128.Idx → EReal) (h43 : W7 m ρ c (Proc.devRef .tc main_v43) = h2) :
    W8 m ρ c (Proc.devRef .tc main_v55) = Host.scatterAdd (F := Ideal) (φ := .f32) scatter_S512x128_S200000x1_S200000x128_1_0_0_1 (Cert.ReferenceIdeal.Read.val_main_v110 (F := Ideal)) (Cert.ReferenceIdeal.Read.val_main_v111 (F := Ideal) (m ((c : Thread nD τ).loc main_arg29))) h2 := by
  show StableHlo.after hostOps4 (W7 m ρ c) (Proc.devRef .tc main_v55) = _
  after_results
  rw [h43, FoldB.keep_arg29_7_0]
  rfl
/-- The per-graph node counts as a column. -/
theorem W8_v56 : W8 m ρ c (Proc.devRef .tc main_v56) = broadcastInDim S512x1 ![0] bcast_S512_S512x1_0 (cntK (m ((c : Thread nD τ).loc main_arg29))) := by
  show StableHlo.after hostOps4 (W7 m ρ c) (Proc.devRef .tc main_v56) = _
  after_results
  rw [FoldB.keep_arg29_7_0]
  rfl
/-- Argument 7 as a row. -/
theorem W8_v57 : W8 m ρ c (Proc.devRef .tc main_v57) = shapeCast S1x256 (m ((c : Thread nD τ).loc main_arg7)) shapeCasts_S256_S1x256 := by
  show StableHlo.after hostOps4 (W7 m ρ c) (Proc.devRef .tc main_v57) = _
  after_results
  rw [FoldB.keep_arg7_7_0]
  rfl
/-- Argument 8 as a row. -/
theorem W8_v58 : W8 m ρ c (Proc.devRef .tc main_v58) = shapeCast S1x256 (m ((c : Thread nD τ).loc main_arg8)) shapeCasts_S256_S1x256 := by
  show StableHlo.after hostOps4 (W7 m ρ c) (Proc.devRef .tc main_v58) = _
  after_results
  rw [FoldB.keep_arg8_7_0]
  rfl
/-- Argument 9 as a row. -/
theorem W8_v59 : W8 m ρ c (Proc.devRef .tc main_v59) = shapeCast S1x256 (m ((c : Thread nD τ).loc main_arg9)) shapeCasts_S256_S1x256 := by
  show StableHlo.after hostOps4 (W7 m ρ c) (Proc.devRef .tc main_v59) = _
  after_results
  rw [FoldB.keep_arg9_7_0]
  rfl
/-- Argument 10 as a row. -/
theorem W8_v60 : W8 m ρ c (Proc.devRef .tc main_v60) = shapeCast S1x256 (m ((c : Thread nD τ).loc main_arg10)) shapeCasts_S256_S1x256 := by
  show StableHlo.after hostOps4 (W7 m ρ c) (Proc.devRef .tc main_v60) = _
  after_results
  rw [FoldB.keep_arg10_7_0]
  rfl
/-- Argument 11 as a row. -/
theorem W8_v61 : W8 m ρ c (Proc.devRef .tc main_v61) = shapeCast S1x256 (m ((c : Thread nD τ).loc main_arg11)) shapeCasts_S256_S1x256 := by
  show StableHlo.after hostOps4 (W7 m ρ c) (Proc.devRef .tc main_v61) = _
  after_results
  rw [FoldB.keep_arg11_7_0]
  rfl
/-- Argument 13 as a row. -/
theorem W8_v62 : W8 m ρ c (Proc.devRef .tc main_v62) = shapeCast S1x128 (m ((c : Thread nD τ).loc main_arg13)) shapeCasts_S128_S1x128 := by
  show StableHlo.after hostOps4 (W7 m ρ c) (Proc.devRef .tc main_v62) = _
  after_results
  rw [FoldB.keep_arg13_7_0]
  rfl
/-- Argument 15 as a row. -/
theorem W10_v64 : W10 m ρ c (Proc.devRef .tc main_v64) = shapeCast S1x192 (m ((c : Thread nD τ).loc main_arg15)) shapeCasts_S192_S1x192 := by
  show StableHlo.after hostOps5 (W9 m ρ c) (Proc.devRef .tc main_v64) = _
  after_results
  rw [FoldC.keep_arg15_9_0]
  rfl
/-- Argument 16 as a row. -/
theorem W10_v65 : W10 m ρ c (Proc.devRef .tc main_v65) = shapeCast S1x192 (m ((c : Thread nD τ).loc main_arg16)) shapeCasts_S192_S1x192 := by
  show StableHlo.after hostOps5 (W9 m ρ c) (Proc.devRef .tc main_v65) = _
  after_results
  rw [FoldC.keep_arg16_9_0]
  rfl
/-- Argument 17 as a row. -/
theorem W10_v66 : W10 m ρ c (Proc.devRef .tc main_v66) = shapeCast S1x192 (m ((c : Thread nD τ).loc main_arg17)) shapeCasts_S192_S1x192 := by
  show StableHlo.after hostOps5 (W9 m ρ c) (Proc.devRef .tc main_v66) = _
  after_results
  rw [FoldC.keep_arg17_9_0]
  rfl
/-- Argument 18 as a row. -/
theorem W10_v67 : W10 m ρ c (Proc.devRef .tc main_v67) = shapeCast S1x192 (m ((c : Thread nD τ).loc main_arg18)) shapeCasts_S192_S1x192 := by
  show StableHlo.after hostOps5 (W9 m ρ c) (Proc.devRef .tc main_v67) = _
  after_results
  rw [FoldC.keep_arg18_9_0]
  rfl
/-- Argument 19 as a row. -/
theorem W10_v68 : W10 m ρ c (Proc.devRef .tc main_v68) = shapeCast S1x192 (m ((c : Thread nD τ).loc main_arg19)) shapeCasts_S192_S1x192 := by
  show StableHlo.after hostOps5 (W9 m ρ c) (Proc.devRef .tc main_v68) = _
  after_results
  rw [FoldC.keep_arg19_9_0]
  rfl
/-- Argument 21 as a row. -/
theorem W10_v69 : W10 m ρ c (Proc.devRef .tc main_v69) = shapeCast S1x128 (m ((c : Thread nD τ).loc main_arg21)) shapeCasts_S128_S1x128 := by
  show StableHlo.after hostOps5 (W9 m ρ c) (Proc.devRef .tc main_v69) = _
  after_results
  rw [FoldC.keep_arg21_9_0]
  rfl
/-- Argument 22 as a row. -/
theorem W10_v70 : W10 m ρ c (Proc.devRef .tc main_v70) = shapeCast S1x128 (m ((c : Thread nD τ).loc main_arg22)) shapeCasts_S128_S1x128 := by
  show StableHlo.after hostOps5 (W9 m ρ c) (Proc.devRef .tc main_v70) = _
  after_results
  rw [FoldC.keep_arg22_9_0]
  rfl
/-- Argument 23 as a row. -/
theorem W10_v71 : W10 m ρ c (Proc.devRef .tc main_v71) = shapeCast S1x128 (m ((c : Thread nD τ).loc main_arg23)) shapeCasts_S128_S1x128 := by
  show StableHlo.after hostOps5 (W9 m ρ c) (Proc.devRef .tc main_v71) = _
  after_results
  rw [FoldC.keep_arg23_9_0]
  rfl
/-- Argument 24 as a row. -/
theorem W10_v72 : W10 m ρ c (Proc.devRef .tc main_v72) = shapeCast S1x128 (m ((c : Thread nD τ).loc main_arg24)) shapeCasts_S128_S1x128 := by
  show StableHlo.after hostOps5 (W9 m ρ c) (Proc.devRef .tc main_v72) = _
  after_results
  rw [FoldC.keep_arg24_9_0]
  rfl
/-- Argument 25 as a row. -/
theorem W10_v73 : W10 m ρ c (Proc.devRef .tc main_v73) = shapeCast S1x128 (m ((c : Thread nD τ).loc main_arg25)) shapeCasts_S128_S1x128 := by
  show StableHlo.after hostOps5 (W9 m ρ c) (Proc.devRef .tc main_v73) = _
  after_results
  rw [FoldC.keep_arg25_9_0]
  rfl
/-- Argument 27 as a row. -/
theorem W10_v74 : W10 m ρ c (Proc.devRef .tc main_v74) = shapeCast S1x1 (m ((c : Thread nD τ).loc main_arg27)) shapeCasts_S1_S1x1 := by
  show StableHlo.after hostOps5 (W9 m ρ c) (Proc.devRef .tc main_v74) = _
  after_results
  rw [FoldC.keep_arg27_9_0]
  rfl
/-- The returned vector: the head's column, reshaped. -/
theorem W12_v76 (o : S512x1.Idx → EReal) (h75 : W11 m ρ c (Proc.devRef .tc main_v75) = o) :
    W12 m ρ c (Proc.devRef .tc main_v76) = shapeCast S512 o shapeCasts_S512x1_S512 := by
  show StableHlo.after hostOps6 (W11 m ρ c) (Proc.devRef .tc main_v76) = _
  after_results
  rw [h75]
  rfl

end Cert.Bridge.HostK

end
-- ==== Proof.Pre.lean ====
/-
  The precondition's last conjunct, decoded: every node's graph index is non-negative. Under it the kernel program's
  per-graph node counts (a scatter-add of ones at the graph index with negative indices WRAPPED by the number of graphs)
  are the reference's (a scatter-add of ones at the raw graph index, out-of-range indices dropped): wrapping changes a
  negative index only.
-/
import proofs.«117654_j30477087932519_2_alg».proof.Defs
import proofs.«117654_j30477087932519_2_alg».proof.Proof.HostK
import Idealize.ShloMosaic.Lib.ReduceAll
import Idealize.ShloMosaic.Lib.ValueIdx

set_option maxRecDepth 16384

noncomputable section

namespace Cert.Bridge.Pre

open Idealize.ShloMosaic Idealize.ShloMosaic.TcCoe Idealize.SL.Sem Idealize.ShloMosaic.ValueIdx

instance : Subsingleton Cert.Pre_finite_inputs.S_.Idx := ⟨fun a b => funext fun d => d.elim0⟩

/-- Under the precondition every node's graph index is non-negative (read as a signed word). -/
theorem batch_nonneg [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S200000.Idx) :
    0 ≤ (m ((c.tc : Thread Cert.KernelIdeal.nD Cert.KernelIdeal.τ).loc Cert.KernelIdeal.main_arg29) i).toInt := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at e
  have e2 := (IntOp.andi_eq_one.1 e).2
  have e3 := Host.reduce_andi_all _ _ _ _ _ e2 i
  have e4 := IntOp.cmpi_sge.1 e3
  exact e4

open Cert.KernelIdeal Cert.KernelIdeal.Gen in
/-- With every graph index non-negative, the wrapped index is the index, so the two counts are one scatter-add. -/
theorem cnt_eq (B : IVec Cert.KernelIdeal.S200000 32) (hB : ∀ i, 0 ≤ (B i).toInt) :
    HostK.cntK B = Cert.ReferenceIdeal.Read.val_main_v109 (F := Ideal) B := by
  have hw : (select (cmpi .slt B (broadcastInDim Cert.KernelIdeal.S200000 ![] bcast_S_S200000 (constantI Cert.KernelIdeal.S_ 32 0#32)))
      (addi B (broadcastInDim Cert.KernelIdeal.S200000 ![] bcast_S_S200000 (constantI Cert.KernelIdeal.S_ 32 512#32))) B) = B := by
    funext i
    have h0 : IntOp.cmpi .slt (B i) (0#32) = 0#1 :=
      eq_zero_of_ne_one fun h1 => by
        have := IntOp.cmpi_slt.1 h1
        have h00 : (0#32 : BitVec 32).toInt = 0 := by decide
        have := hB i
        omega
    show Scalar.select (IntOp.cmpi .slt (B i) (0#32)) _ (B i) = B i
    rw [h0, select_zero]
  unfold HostK.cntK
  rw [hw]
  rfl

end Cert.Bridge.Pre

end
-- ==== Proof.Spec.lean ====
/-
  The two per-node stages of a graph-convolution layer, as functions of whole arrays over the extended reals.

  A layer with input features `a`, weights `W`, bias `b` and the symmetric normalisation `dis = deg^(-1/2)` is computed
  in two dense stages around a gather and a scatter-add over the edges:
    * the LINEAR stage scales each node's transformed features by that node's `dis`:
        `hp[r, c] = (Σ_k a[r, k] · W[k, c]) · dis[r]`  (for two input features the sum is written out);
    * the FINAL stage adds the node's own scaled features to the aggregated messages, scales by `dis` again, adds the
      bias and clamps at zero:  `out[r, c] = max (dis[r] · (agg[r, c] + hp[r, c]) + b[c]) 0`.
  `dis` is carried as a column `[N, 1]` and the bias as a row `[1, C]`, as the dense stages receive them.
-/
import Idealize.ShloMosaic.PureOps.Ideal
import Idealize.ShloMosaic.Lib.ValueIdx

noncomputable section

open scoped BigOperators

namespace Cert.Bridge

open Idealize.ShloMosaic Idealize.ShloMosaic.ValueIdx

/-- An array of rank 2 over the extended reals. -/
abbrev A2 (n0 n1 : Nat) : Type := (⟨2, ![n0, n1]⟩ : Shape).Idx → EReal
/-- An array of rank 1 over the extended reals. -/
abbrev A1 (n : Nat) : Type := (⟨1, ![n]⟩ : Shape).Idx → EReal

/-- The linear stage on two input features at node `r`, output feature `c`. -/
def linVpuAt (x : A2 200000 2) (w : A2 2 64) (d : A2 200000 1) (r : Fin 200000) (c : Fin 64) : EReal :=
  (x (ix2 r (0 : Fin 2)) * w (ix2 (0 : Fin 2) c) + x (ix2 r (1 : Fin 2)) * w (ix2 (1 : Fin 2) c)) * d (ix2 r (0 : Fin 1))

/-- The linear stage on two input features, as a whole array. -/
def linVpu (x : A2 200000 2) (w : A2 2 64) (d : A2 200000 1) : A2 200000 64 :=
  fun i => linVpuAt x w d (i 0) (i 1)

/-- The linear stage on 64 input features at node `r`, output feature `c`: the product row·column, scaled. -/
def linMxuAt (h : A2 200000 64) (w : A2 64 128) (d : A2 200000 1) (r : Fin 200000) (c : Fin 128) : EReal :=
  (∑ k : Fin 64, h (ix2 r k) * w (ix2 k c)) * d (ix2 r (0 : Fin 1))

/-- The linear stage on 64 input features, as a whole array. -/
def linMxu (h : A2 200000 64) (w : A2 64 128) (d : A2 200000 1) : A2 200000 128 :=
  fun i => linMxuAt h w d (i 0) (i 1)

/-- The final stage at node `r`, feature `c`, for any feature count `C`. -/
def finAt {C : Nat} (agg hp : A2 200000 C) (d : A2 200000 1) (b : A2 1 C) (r : Fin 200000) (c : Fin C) : EReal :=
  max (d (ix2 r (0 : Fin 1)) * (agg (ix2 r c) + hp (ix2 r c)) + b (ix2 (0 : Fin 1) c)) 0

/-- The final stage as a whole array. -/
def fin {C : Nat} (agg hp : A2 200000 C) (d : A2 200000 1) (b : A2 1 C) : A2 200000 C :=
  fun i => finAt agg hp d b (i 0) (i 1)

theorem linVpu_ix (x : A2 200000 2) (w : A2 2 64) (d : A2 200000 1) (r : Fin 200000) (c : Fin 64) :
    linVpu x w d (ix2 r c) = linVpuAt x w d r c := rfl
theorem linMxu_ix (h : A2 200000 64) (w : A2 64 128) (d : A2 200000 1) (r : Fin 200000) (c : Fin 128) :
    linMxu h w d (ix2 r c) = linMxuAt h w d r c := rfl
theorem fin_ix {C : Nat} (agg hp : A2 200000 C) (d : A2 200000 1) (b : A2 1 C) (r : Fin 200000) (c : Fin C) :
    fin agg hp d b (ix2 r c) = finAt agg hp d b r c := rfl

end Cert.Bridge

end
-- ==== Proof.LayersLib.lean ====
/-
  Shared facts for the four row-tiled dense stages: each stage runs over 50 grid points, point `t` handling rows
  `4000 t … 4000 t + 3999` of arrays with 200000 rows.  Here: the zero offsets of a whole-buffer access, the row of the
  array that row `p` of block `t` is, and the two broadcasts every stage uses read at an index — a column `[4000, 1]`
  repeated along the lanes, and a row `[1, C]` repeated along the sublanes, for `C = 64` and `C = 128`.
-/
import proofs.«117654_j30477087932519_2_alg».proof.Proof.Gen.KernelIdeal.Frame
import proofs.«117654_j30477087932519_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Layers

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-buffer access, as the constant function. -/
theorem zero_off : (![0, 0] : Fin 2 → Nat) = fun _ => 0 := funext fun a => by fin_cases a <;> rfl

/-- Row `p` of block `t` is row `4000 t + p` of the array. -/
abbrev row (t p : Nat) (ht : t < 50) (hp : p < 4000) : Fin 200000 := ⟨t * 4000 + p, by omega⟩

/-- A column `[4000, 1]` broadcast along 64 lanes reads its row's entry. -/
theorem bcast_col64 (v : Vec Ideal S4000x1 .f32) (p : Fin 4000) (q : Fin 64) :
    broadcastTo S4000x64 v broadcasts_S4000x1_S4000x64 (ix2 p q) = v (ix2 p (0 : Fin 1)) :=
  broadcastTo_apply v broadcasts_S4000x1_S4000x64 (ix2 p q) (ix2 p (0 : Fin 1))
    (fun a => by match a with | ⟨0, _⟩ => rfl | ⟨1, _⟩ => rfl)

/-- A row `[1, 64]` broadcast along 4000 sublanes reads its column's entry. -/
theorem bcast_row64 (v : Vec Ideal S1x64 .f32) (p : Fin 4000) (q : Fin 64) :
    broadcastTo S4000x64 v broadcasts_S1x64_S4000x64 (ix2 p q) = v (ix2 (0 : Fin 1) q) :=
  broadcastTo_apply v broadcasts_S1x64_S4000x64 (ix2 p q) (ix2 (0 : Fin 1) q)
    (fun a => by match a with | ⟨0, _⟩ => rfl | ⟨1, _⟩ => rfl)

/-- A column `[4000, 1]` broadcast along 128 lanes reads its row's entry. -/
theorem bcast_col128 (v : Vec Ideal S4000x1 .f32) (p : Fin 4000) (q : Fin 128) :
    broadcastTo S4000x128 v broadcasts_S4000x1_S4000x128 (ix2 p q) = v (ix2 p (0 : Fin 1)) :=
  broadcastTo_apply v broadcasts_S4000x1_S4000x128 (ix2 p q) (ix2 p (0 : Fin 1))
    (fun a => by match a with | ⟨0, _⟩ => rfl | ⟨1, _⟩ => rfl)

/-- A row `[1, 128]` broadcast along 4000 sublanes reads its column's entry. -/
theorem bcast_row128 (v : Vec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q)
    (fun a => by match a with | ⟨0, _⟩ => rfl | ⟨1, _⟩ => rfl)

end Cert.Bridge.Layers

end
-- ==== Proof.Layers0.lean ====
/-
  The linear stage on two input features, tiled: the first dense stage of the network runs over 50 grid points,
  point `t` computing rows `4000 t … 4000 t + 3999` of  hp[r, c] = (x[r, 0] · W[0, c] + x[r, 1] · W[1, c]) · dis[r]
  from the same rows of `x` and `dis` and the whole of `W`.  Here: the body's arithmetic at one element of a block,
  each window's block as rows of its array, what a point writes back as a block of the whole-array stage, the cover
  of the output by the 50 blocks, and so the output array after the stage as `linVpu` of the arrays the stage found.
-/
import proofs.«117654_j30477087932519_2_alg».proof.Proof.LayersLib

noncomputable section

open scoped BigOperators

namespace Cert.Bridge.Layers

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at one element of a block -/

/-- Column 0 of a `[4000, 2]` block. -/
theorem slice0_col0 (x : Vec Ideal S4000x2 .f32) (p : Fin 4000) :
    extractStridedSlice S4000x1 ![0, 0] x slices_S4000x2_o0_0_S4000x1 (ix2 p (0 : Fin 1)) = x (ix2 p (0 : Fin 2)) :=
  extractStridedSlice_apply ![0, 0] x slices_S4000x2_o0_0_S4000x1 (ix2 p (0 : Fin 1)) (ix2 p (0 : Fin 2))
    (fun a => by match a with | ⟨0, _⟩ => exact (Nat.zero_add _).symm | ⟨1, _⟩ => rfl)

/-- Column 1 of a `[4000, 2]` block. -/
theorem slice0_col1 (x : Vec Ideal S4000x2 .f32) (p : Fin 4000) :
    extractStridedSlice S4000x1 ![0, 1] x slices_S4000x2_o0_1_S4000x1 (ix2 p (0 : Fin 1)) = x (ix2 p (1 : Fin 2)) :=
  extractStridedSlice_apply ![0, 1] x slices_S4000x2_o0_1_S4000x1 (ix2 p (0 : Fin 1)) (ix2 p (1 : Fin 2))
    (fun a => by match a with | ⟨0, _⟩ => exact (Nat.zero_add _).symm | ⟨1, _⟩ => rfl)

/-- Row 0 of the `[2, 64]` weights. -/
theorem slice0_row0 (x : Vec Ideal S2x64 .f32) (q : Fin 64) :
    extractStridedSlice S1x64 ![0, 0] x slices_S2x64_o0_0_S1x64 (ix2 (0 : Fin 1) q) = x (ix2 (0 : Fin 2) q) :=
  extractStridedSlice_apply ![0, 0] x slices_S2x64_o0_0_S1x64 (ix2 (0 : Fin 1) q) (ix2 (0 : Fin 2) q)
    (fun a => by match a with | ⟨0, _⟩ => rfl | ⟨1, _⟩ => exact (Nat.zero_add _).symm)

/-- Row 1 of the `[2, 64]` weights. -/
theorem slice0_row1 (x : Vec Ideal S2x64 .f32) (q : Fin 64) :
    extractStridedSlice S1x64 ![1, 0] x slices_S2x64_o1_0_S1x64 (ix2 (0 : Fin 1) q) = x (ix2 (1 : Fin 2) q) :=
  extractStridedSlice_apply ![1, 0] x slices_S2x64_o1_0_S1x64 (ix2 (0 : Fin 1) q) (ix2 (1 : Fin 2) q)
    (fun a => by match a with | ⟨0, _⟩ => rfl | ⟨1, _⟩ => exact (Nat.zero_add _).symm)

/-- The body's result at row `p`, lane `q` of a block: the two products of the row's features with the weights'
    rows added, times the row's scale. -/
theorem pay0_ix (x0 : Vec Ideal S4000x2 .f32) (x1 : Vec Ideal S2x64 .f32) (x2 : Vec Ideal S4000x1 .f32) (p : Fin 4000) (q : Fin 64) :
    k0_pay1 x0 x1 x2 (ix2 p q)
      = (x0 (ix2 p (0 : Fin 2)) * x1 (ix2 (0 : Fin 2) q) + x0 (ix2 p (1 : Fin 2)) * x1 (ix2 (1 : Fin 2) q)) * x2 (ix2 p (0 : Fin 1)) := by
  unfold k0_pay1
  simp only [mulf_apply, addf_apply, shapeCast_self]
  rw [bcast_col64, bcast_col64, bcast_col64, bcast_row64, bcast_row64, slice0_col0, slice0_col1, slice0_row0, slice0_row1]

/-! ## From blocks to the array -/

section Blocks
variable (V : (c : Dev nD) → (b : Ref sig .tc) → Buf (Elt Ideal) ((c : Thread nD τ).loc b))

/-- The block indices over the grid: at point `t` the three row-tiled windows sit at block row `t`, and the weights'
    window is the whole small array at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t`: rows `4000 t …` of the features. -/
theorem blk0_0 (c : Dev nD) (t : Fin cfg0.N) (ht : t.val < 50) (p : Fin 4000) (k : Fin 2) :
    (iblk0 (F := Ideal) V c 0 t : Vec Ideal S4000x2 .f32) (ix2 p k)
      = (V c (Pipeline.arrRef spec0 0) : A2 200000 2) (ix2 (row t.val p.val ht p.isLt) k) := by
  obtain ⟨e0, e1, -⟩ := idx0 t
  unfold iblk0
  rw [View.read_apply]
  show V c (Pipeline.arrRef spec0 0) (((cfg0.win 0).blk t).view.emb (ix2 p k)) = _
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 2 + 1 * k.val = k.val; rw [e1]; omega

/-- The weights' block at every point: the weights. -/
theorem blk0_1 (c : Dev nD) (t : Fin cfg0.N) (k : Fin 2) (q : Fin 64) :
    (iblk0 (F := Ideal) V c 1 t : Vec Ideal S2x64 .f32) (ix2 k q)
      = (V c (Pipeline.arrRef spec0 1) : A2 2 64) (ix2 k q) := by
  obtain ⟨-, -, e0, e1, -⟩ := idx0 t
  unfold iblk0
  rw [View.read_apply]
  show V c (Pipeline.arrRef spec0 1) (((cfg0.win 1).blk t).view.emb (ix2 k q)) = _
  refine congrArg _ (funext fun a => Fin.ext ?_)
  match a with
  | ⟨0, _⟩ => show win0_1.index t (0 : Fin 2) * 2 + 1 * k.val = k.val; rw [e0]; omega
  | ⟨1, _⟩ => show win0_1.index t (1 : Fin 2) * 64 + 1 * q.val = q.val; rw [e1]; omega

/-- The scale column's block at point `t`: rows `4000 t …` of the column. -/
theorem blk0_2 (c : Dev nD) (t : Fin cfg0.N) (ht : t.val < 50) (p : Fin 4000) :
    (iblk0 (F := Ideal) V c 2 t : Vec Ideal S4000x1 .f32) (ix2 p (0 : Fin 1))
      = (V c (Pipeline.arrRef spec0 2) : A2 200000 1) (ix2 (row t.val p.val ht p.isLt) (0 : Fin 1)) := by
  obtain ⟨-, -, -, -, e0, e1, -⟩ := idx0 t
  unfold iblk0
  rw [View.read_apply]
  show V c (Pipeline.arrRef spec0 2) (((cfg0.win 2).blk t).view.emb (ix2 p (0 : Fin 1))) = _
  refine congrArg _ (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 1 + 1 * 0 = 0; rw [e1]

/-- Where an element of the output's block at point `t` sits in the array. -/
theorem emb0_3 (t : Fin cfg0.N) (ht : t.val < 50) (p : Fin 4000) (q : Fin 64) :
    (((cfg0.win 3).blk t).view.emb (ix2 p q) : S200000x64.Idx) = ix2 (row t.val p.val ht p.isLt) q := by
  obtain ⟨-, -, -, -, -, -, e0, e1⟩ := idx0 t
  refine funext fun a => Fin.ext ?_
  match a with
  | ⟨0, _⟩ => show win0_3.index t (0 : Fin 2) * 4000 + 1 * p.val = t.val * 4000 + p.val; rw [e0]; omega
  | ⟨1, _⟩ => show win0_3.index t (1 : Fin 2) * 64 + 1 * q.val = q.val; rw [e1]; omega

/-- What point `t` writes back is block `t` of the linear stage of the arrays as the region finds them. -/
theorem flushed0 (c : Dev nD) (t : Fin cfg0.N) :
    (dat0 (F := Ideal) V c).flushed 3 t
      = ((cfg0.win 3).blk t).view.read (Elt Ideal)
          (linVpu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off]
  simp only [View.ld_unit_zero (S := S4000x2) zero_off, View.ld_unit_zero (S := S2x64) zero_off, View.ld_unit_zero (S := S4000x1) zero_off]
  have ht : t.val < 50 := lt_of_lt_of_eq t.isLt N_0
  funext j
  obtain ⟨p, q, rfl⟩ : ∃ (p : Fin 4000) (q : Fin 64), j = ix2 p q := ⟨j 0, j 1, eq_ix2 j⟩
  show k0_pay1 (iblk0 V c 0 t) (iblk0 V c 1 t) (iblk0 V c 2 t) (ix2 p q)
    = linVpu (V c (Pipeline.arrRef spec0 0)) (V c (Pipeline.arrRef spec0 1)) (V c (Pipeline.arrRef spec0 2)) (((cfg0.win 3).blk t).view.emb (ix2 p q))
  refine (pay0_ix (iblk0 V c 0 t) (iblk0 V c 1 t) (iblk0 V c 2 t) p q).trans ?_
  rw [emb0_3 t ht p q, linVpu_ix, blk0_0 V c t ht p 0, blk0_0 V c t ht p 1, blk0_1 V c t 0 q, blk0_1 V c t 1 q, blk0_2 V c t ht p]
  rfl

end Blocks

/-- An index of the output array is in point `t`'s block iff each coordinate is in the block's range on its axis. -/
theorem mem_blk0 (t : Fin cfg0.N) (i : S200000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v18).slice (win0_3.rect t)).set ↔ _
  rw [View.set_slice_whole, Rect.mem_set_unit]
  exact Iff.rfl

/-- The blocks cover the output array: row `r` is in the block of point `r / 4000`. -/
theorem cover0 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  obtain ⟨t, ht⟩ : ∃ t : Fin cfg0.N, t.val = (i 0).val / 4000 :=
    ⟨⟨(i 0).val / 4000, by rw [show cfg0.N = 50 from N_0]; omega⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 64 ≤ (i 1).val ∧ (i 1).val < win0_3.index t (1 : Fin 2) * 64 + 64; rw [e1]; omega

section Final
variable (V : (c : Dev nD) → (b : Ref sig .tc) → Buf (Elt Ideal) ((c : Thread nD τ).loc b))

/-- After the region the output array is the linear stage of the arrays the region found. -/
theorem final0 (c : Dev nD) :
    (dat0 (F := Ideal) V c).arrAt 3 cfg0.N
      = linVpu (V c (Pipeline.arrRef spec0 0)) (V c (Pipeline.arrRef spec0 1)) (V c (Pipeline.arrRef spec0 2)) :=
  (dat0 V c).arrAt_eq_of_cover 3 _ (fun t _ => flushed0 V c t) cover0

end Final

end Cert.Bridge.Layers

end
-- ==== Proof.Layers1.lean ====
/-
  The final stage of a layer with 64 features, tiled: the stage runs over 50 grid points, point `t` computing rows
  `4000 t … 4000 t + 3999` of  out[r, c] = max (dis[r] · (agg[r, c] + hp[r, c]) + b[c]) 0  from the same rows of the
  aggregated messages `agg`, the node's own scaled features `hp` and the scale column `dis`, and the whole bias row.
  Here: the body's arithmetic at one element of a block, each window's block as rows of its array, what a point
  writes back as a block of the whole-array stage, the cover of the output by the 50 blocks, and so the output array
  after the stage as `fin` of the arrays the stage found.
-/
import proofs.«117654_j30477087932519_2_alg».proof.Proof.LayersLib

noncomputable section

open scoped BigOperators

namespace Cert.Bridge.Layers

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at one element of a block -/

/-- The body's result at row `p`, lane `q` of a block: the aggregated messages plus the node's own scaled features,
    times the row's scale, plus the bias, clamped at zero. -/
theorem pay1_ix (d : Vec Ideal S4000x1 .f32) (a h : Vec Ideal S4000x64 .f32) (b : Vec Ideal S1x64 .f32) (p : Fin 4000) (q : Fin 64) :
    k1_pay1 d a h b (ix2 p q)
      = max (d (ix2 p (0 : Fin 1)) * (a (ix2 p q) + h (ix2 p q)) + b (ix2 (0 : Fin 1) q)) 0 := by
  unfold k1_pay1
  simp only [maximumf_apply, mulf_apply, addf_apply, shapeCast_self, broadcast_apply]
  rw [bcast_col64, bcast_row64]
  exact congrArg (max _) Ideal.ofBits_zero_f32

/-! ## From blocks to the array -/

section Blocks
variable (V : (c : Dev nD) → (b : Ref sig .tc) → Buf (Elt Ideal) ((c : Thread nD τ).loc b))

/-- The block indices over the grid: at point `t` the four row-tiled windows sit at block row `t`, and the bias's
    window is the whole row at every point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated messages' block at point `t`: rows `4000 t …` of the array. -/
theorem blk1_0 (c : Dev nD) (t : Fin cfg1.N) (ht : t.val < 50) (p : Fin 4000) (q : Fin 64) :
    (iblk1 (F := Ideal) V c 0 t : Vec Ideal S4000x64 .f32) (ix2 p q)
      = (V c (Pipeline.arrRef spec1 0) : A2 200000 64) (ix2 (row t.val p.val ht p.isLt) q) := by
  obtain ⟨e0, e1, -⟩ := idx1 t
  unfold iblk1
  rw [View.read_apply]
  show V c (Pipeline.arrRef spec1 0) (((cfg1.win 0).blk t).view.emb (ix2 p q)) = _
  refine congrArg _ (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 64 + 1 * q.val = q.val; rw [e1]; omega

/-- The node's own scaled features' block at point `t`: rows `4000 t …` of the array. -/
theorem blk1_1 (c : Dev nD) (t : Fin cfg1.N) (ht : t.val < 50) (p : Fin 4000) (q : Fin 64) :
    (iblk1 (F := Ideal) V c 1 t : Vec Ideal S4000x64 .f32) (ix2 p q)
      = (V c (Pipeline.arrRef spec1 1) : A2 200000 64) (ix2 (row t.val p.val ht p.isLt) q) := by
  obtain ⟨-, -, e0, e1, -⟩ := idx1 t
  unfold iblk1
  rw [View.read_apply]
  show V c (Pipeline.arrRef spec1 1) (((cfg1.win 1).blk t).view.emb (ix2 p q)) = _
  refine congrArg _ (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 64 + 1 * q.val = q.val; rw [e1]; omega

/-- The scale column's block at point `t`: rows `4000 t …` of the column. -/
theorem blk1_2 (c : Dev nD) (t : Fin cfg1.N) (ht : t.val < 50) (p : Fin 4000) :
    (iblk1 (F := Ideal) V c 2 t : Vec Ideal S4000x1 .f32) (ix2 p (0 : Fin 1))
      = (V c (Pipeline.arrRef spec1 2) : A2 200000 1) (ix2 (row t.val p.val ht p.isLt) (0 : Fin 1)) := by
  obtain ⟨-, -, -, -, e0, e1, -⟩ := idx1 t
  unfold iblk1
  rw [View.read_apply]
  show V c (Pipeline.arrRef spec1 2) (((cfg1.win 2).blk t).view.emb (ix2 p (0 : Fin 1))) = _
  refine congrArg _ (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 1 + 1 * 0 = 0; rw [e1]

/-- The bias row's block at every point: the bias row. -/
theorem blk1_3 (c : Dev nD) (t : Fin cfg1.N) (q : Fin 64) :
    (iblk1 (F := Ideal) V c 3 t : Vec Ideal S1x64 .f32) (ix2 (0 : Fin 1) q)
      = (V c (Pipeline.arrRef spec1 3) : A2 1 64) (ix2 (0 : Fin 1) q) := by
  obtain ⟨-, -, -, -, -, -, e0, e1, -⟩ := idx1 t
  unfold iblk1
  rw [View.read_apply]
  show V c (Pipeline.arrRef spec1 3) (((cfg1.win 3).blk t).view.emb (ix2 (0 : Fin 1) q)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- Where an element of the output's block at point `t` sits in the array. -/
theorem emb1_4 (t : Fin cfg1.N) (ht : t.val < 50) (p : Fin 4000) (q : Fin 64) :
    (((cfg1.win 4).blk t).view.emb (ix2 p q) : S200000x64.Idx) = ix2 (row t.val p.val ht p.isLt) q := by
  obtain ⟨-, -, -, -, -, -, -, -, e0, e1⟩ := idx1 t
  refine funext fun a => Fin.ext ?_
  match a with
  | ⟨0, _⟩ => show win1_4.index t (0 : Fin 2) * 4000 + 1 * p.val = t.val * 4000 + p.val; rw [e0]; omega
  | ⟨1, _⟩ => show win1_4.index t (1 : Fin 2) * 64 + 1 * q.val = q.val; rw [e1]; omega

set_option maxHeartbeats 1000000 in
/-- What point `t` writes back is block `t` of the final stage of the arrays as the region finds them. -/
theorem flushed1 (c : Dev nD) (t : Fin cfg1.N) :
    (dat1 (F := Ideal) V c).flushed 4 t
      = ((cfg1.win 4).blk t).view.read (Elt Ideal)
          (fin (C := 64) (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_off]
  simp only [View.ld_unit_zero (S := S4000x1) zero_off, View.ld_unit_zero (S := S4000x64) zero_off, View.ld_unit_zero (S := S1x64) zero_off]
  have ht : t.val < 50 := lt_of_lt_of_eq t.isLt N_1
  funext j
  obtain ⟨p, q, rfl⟩ : ∃ (p : Fin 4000) (q : Fin 64), j = ix2 p q := ⟨j 0, j 1, eq_ix2 j⟩
  show k1_pay1 (iblk1 V c 2 t) (iblk1 V c 0 t) (iblk1 V c 1 t) (iblk1 V c 3 t) (ix2 p q)
    = fin (C := 64) (V c (Pipeline.arrRef spec1 0)) (V c (Pipeline.arrRef spec1 1)) (V c (Pipeline.arrRef spec1 2)) (V c (Pipeline.arrRef spec1 3)) (((cfg1.win 4).blk t).view.emb (ix2 p q))
  refine (pay1_ix (iblk1 V c 2 t) (iblk1 V c 0 t) (iblk1 V c 1 t) (iblk1 V c 3 t) p q).trans ?_
  rw [emb1_4 t ht p q, fin_ix, blk1_2 V c t ht p, blk1_0 V c t ht p q, blk1_1 V c t ht p q, blk1_3 V c t q]
  rfl

end Blocks

/-- An index of the output array is in point `t`'s block iff each coordinate is in the block's range on its axis. -/
theorem mem_blk1 (t : Fin cfg1.N) (i : S200000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v30).slice (win1_4.rect t)).set ↔ _
  rw [View.set_slice_whole, Rect.mem_set_unit]
  exact Iff.rfl

/-- The blocks cover the output array: row `r` is in the block of point `r / 4000`. -/
theorem cover1 (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, ht⟩ : ∃ t : Fin cfg1.N, t.val = (i 0).val / 4000 :=
    ⟨⟨(i 0).val / 4000, by rw [show cfg1.N = 50 from N_1]; omega⟩, rfl⟩
  obtain ⟨-, -, -, -, -, -, -, -, e0, e1⟩ := idx1 t
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; rw [e0, ht]; omega
  | ⟨1, _⟩ => show win1_4.index t (1 : Fin 2) * 64 ≤ (i 1).val ∧ (i 1).val < win1_4.index t (1 : Fin 2) * 64 + 64; rw [e1]; omega

section Final
variable (V : (c : Dev nD) → (b : Ref sig .tc) → Buf (Elt Ideal) ((c : Thread nD τ).loc b))

set_option maxHeartbeats 1000000 in
/-- After the region the output array is the final stage of the arrays the region found. -/
theorem final1 (c : Dev nD) :
    (dat1 (F := Ideal) V c).arrAt 4 cfg1.N
      = fin (C := 64) (V c (Pipeline.arrRef spec1 0)) (V c (Pipeline.arrRef spec1 1)) (V c (Pipeline.arrRef spec1 2)) (V c (Pipeline.arrRef spec1 3)) :=
  (dat1 V c).arrAt_eq_of_cover 4 _ (fun t _ => flushed1 V c t) cover1

end Final

end Cert.Bridge.Layers

end
-- ==== Proof.Layers2.lean ====
/-
  The linear stage on 64 input features, tiled: the stage runs over 50 grid points, point `t` computing rows
  `4000 t … 4000 t + 3999` of  hp[r, c] = (Σ_k h[r, k] · W[k, c]) · dis[r]  from the same rows of `h` and `dis` and the
  whole of `W`; the body narrows both operands before the product and accumulates into zero, which over the extended
  reals is the plain sum of products.  Here: the body's arithmetic at one element of a block, each window's block as
  rows of its array, what a point writes back as a block of the whole-array stage, the cover of the output by the 50
  blocks, and so the output array after the stage as `linMxu` of the arrays the stage found.
-/
import proofs.«117654_j30477087932519_2_alg».proof.Proof.LayersLib

noncomputable section

open scoped BigOperators

namespace Cert.Bridge.Layers

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at one element of a block -/

/-- The left operand's index on its kept axis is the output's row. -/
theorem lhs2_0 (j : S4000x128.Idx) (kk : dot_S4000x64_S64x128_S4000x128_1_0_0_1_n_n.contr.Idx) :
    (dot_S4000x64_S64x128_S4000x128_1_0_0_1_n_n.lhsIdx j kk 0).val = (j 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- The left operand's index on its contracted axis is the contraction's coordinate. -/
theorem lhs2_1 (j : S4000x128.Idx) (kk : dot_S4000x64_S64x128_S4000x128_1_0_0_1_n_n.contr.Idx) :
    (dot_S4000x64_S64x128_S4000x128_1_0_0_1_n_n.lhsIdx j kk 1).val = (kk ⟨0, by decide⟩).val :=
  dot_S4000x64_S64x128_S4000x128_1_0_0_1_n_n.lhsIdx_val_of_single rfl j kk
/-- The right operand's index on its contracted axis is the contraction's coordinate. -/
theorem rhs2_0 (j : S4000x128.Idx) (kk : dot_S4000x64_S64x128_S4000x128_1_0_0_1_n_n.contr.Idx) :
    (dot_S4000x64_S64x128_S4000x128_1_0_0_1_n_n.rhsIdx j kk 0).val = (kk ⟨0, by decide⟩).val :=
  dot_S4000x64_S64x128_S4000x128_1_0_0_1_n_n.rhsIdx_val_of_single rfl j kk
/-- The right operand's index on its kept axis is the output's lane. -/
theorem rhs2_1 (j : S4000x128.Idx) (kk : dot_S4000x64_S64x128_S4000x128_1_0_0_1_n_n.contr.Idx) :
    (dot_S4000x64_S64x128_S4000x128_1_0_0_1_n_n.rhsIdx j kk 1).val = (j 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The body's result at row `p`, lane `q` of a block: the row of the features times the column of the weights
    (the narrowing of the operands changes nothing over the extended reals, and the accumulator starts at zero),
    times the row's scale. -/
theorem pay2_ix (x : Vec Ideal S4000x64 .f32) (w : Vec Ideal S64x128 .f32) (d : Vec Ideal S4000x1 .f32) (p : Fin 4000) (q : Fin 128) :
    k2_pay1 x w d (ix2 p q) = (∑ k : Fin 64, x (ix2 p k) * w (ix2 k q)) * d (ix2 p (0 : Fin 1)) := by
  unfold k2_pay1
  simp only [mulf_apply, shapeCast_self]
  rw [bcast_col128]
  refine congrArg (· * d (ix2 p (0 : Fin 1))) ?_
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ => exact lhs2_0 _ _
    | ⟨1, _⟩ => exact (lhs2_1 _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (rhs2_0 _ _).trans hk
    | ⟨1, _⟩ => exact rhs2_1 _ _)
  rw [el, er]
  rfl

/-! ## From blocks to the array -/

section Blocks
variable (V : (c : Dev nD) → (b : Ref sig .tc) → Buf (Elt Ideal) ((c : Thread nD τ).loc b))

/-- The block indices over the grid: at point `t` the three row-tiled windows sit at block row `t`, and the weights'
    window is the whole small array at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The features' block at point `t`: rows `4000 t …` of the features. -/
theorem blk2_0 (c : Dev nD) (t : Fin cfg2.N) (ht : t.val < 50) (p : Fin 4000) (k : Fin 64) :
    (iblk2 (F := Ideal) V c 0 t : Vec Ideal S4000x64 .f32) (ix2 p k)
      = (V c (Pipeline.arrRef spec2 0) : A2 200000 64) (ix2 (row t.val p.val ht p.isLt) k) := by
  obtain ⟨e0, e1, -⟩ := idx2 t
  unfold iblk2
  rw [View.read_apply]
  show V c (Pipeline.arrRef spec2 0) (((cfg2.win 0).blk t).view.emb (ix2 p k)) = _
  refine congrArg _ (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 64 + 1 * k.val = k.val; rw [e1]; omega

/-- The weights' block at every point: the weights. -/
theorem blk2_1 (c : Dev nD) (t : Fin cfg2.N) (k : Fin 64) (q : Fin 128) :
    (iblk2 (F := Ideal) V c 1 t : Vec Ideal S64x128 .f32) (ix2 k q)
      = (V c (Pipeline.arrRef spec2 1) : A2 64 128) (ix2 k q) := by
  obtain ⟨-, -, e0, e1, -⟩ := idx2 t
  unfold iblk2
  rw [View.read_apply]
  show V c (Pipeline.arrRef spec2 1) (((cfg2.win 1).blk t).view.emb (ix2 k q)) = _
  refine congrArg _ (funext fun a => Fin.ext ?_)
  match a with
  | ⟨0, _⟩ => show win2_1.index t (0 : Fin 2) * 64 + 1 * k.val = k.val; rw [e0]; omega
  | ⟨1, _⟩ => show win2_1.index t (1 : Fin 2) * 128 + 1 * q.val = q.val; rw [e1]; omega

/-- The scale column's block at point `t`: rows `4000 t …` of the column. -/
theorem blk2_2 (c : Dev nD) (t : Fin cfg2.N) (ht : t.val < 50) (p : Fin 4000) :
    (iblk2 (F := Ideal) V c 2 t : Vec Ideal S4000x1 .f32) (ix2 p (0 : Fin 1))
      = (V c (Pipeline.arrRef spec2 2) : A2 200000 1) (ix2 (row t.val p.val ht p.isLt) (0 : Fin 1)) := by
  obtain ⟨-, -, -, -, e0, e1, -⟩ := idx2 t
  unfold iblk2
  rw [View.read_apply]
  show V c (Pipeline.arrRef spec2 2) (((cfg2.win 2).blk t).view.emb (ix2 p (0 : Fin 1))) = _
  refine congrArg _ (funext fun a => Fin.ext ?_)
  match a with
  | ⟨0, _⟩ => show win2_2.index t (0 : Fin 2) * 4000 + 1 * p.val = t.val * 4000 + p.val; rw [e0]; omega
  | ⟨1, _⟩ => show win2_2.index t (1 : Fin 2) * 1 + 1 * 0 = 0; rw [e1]

/-- Where an element of the output's block at point `t` sits in the array. -/
theorem emb2_3 (t : Fin cfg2.N) (ht : t.val < 50) (p : Fin 4000) (q : Fin 128) :
    (((cfg2.win 3).blk t).view.emb (ix2 p q) : S200000x128.Idx) = ix2 (row t.val p.val ht p.isLt) q := by
  obtain ⟨-, -, -, -, -, -, e0, e1⟩ := idx2 t
  refine funext fun a => Fin.ext ?_
  match a with
  | ⟨0, _⟩ => show win2_3.index t (0 : Fin 2) * 4000 + 1 * p.val = t.val * 4000 + p.val; rw [e0]; omega
  | ⟨1, _⟩ => show win2_3.index t (1 : Fin 2) * 128 + 1 * q.val = q.val; rw [e1]; omega

/-- What point `t` writes back is block `t` of the linear stage of the arrays as the region finds them. -/
theorem flushed2 (c : Dev nD) (t : Fin cfg2.N) :
    (dat2 (F := Ideal) V c).flushed 3 t
      = ((cfg2.win 3).blk t).view.read (Elt Ideal)
          (linMxu (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off]
  simp only [View.ld_unit_zero (S := S4000x64) zero_off, View.ld_unit_zero (S := S64x128) zero_off, View.ld_unit_zero (S := S4000x1) zero_off]
  have ht : t.val < 50 := lt_of_lt_of_eq t.isLt N_2
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (ix2 p q)
    = linMxu (V c (Pipeline.arrRef spec2 0)) (V c (Pipeline.arrRef spec2 1)) (V c (Pipeline.arrRef spec2 2)) (((cfg2.win 3).blk t).view.emb (ix2 p q))
  refine (pay2_ix (iblk2 V c 0 t) (iblk2 V c 1 t) (iblk2 V c 2 t) p q).trans ?_
  rw [emb2_3 t ht p q, linMxu_ix, blk2_2 V c t ht p]
  refine congrArg (· * _) (Finset.sum_congr rfl fun k _ => ?_)
  rw [blk2_0 V c t ht p k, blk2_1 V c t k q]

end Blocks

/-- An index of the output array is in point `t`'s block iff each coordinate is in the block's range on its axis. -/
theorem mem_blk2 (t : Fin cfg2.N) (i : S200000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v31).slice (win2_3.rect t)).set ↔ _
  rw [View.set_slice_whole, Rect.mem_set_unit]
  exact Iff.rfl

/-- The blocks cover the output array: row `r` is in the block of point `r / 4000`. -/
theorem cover2 (i : S200000x128.Idx) :
    ∃ t : Fin cfg2.N, (cfg2.win 3).flush t = true ∧ i ∈ ((cfg2.win 3).blk t).view.set := by
  have hi0 : (i 0).val < 200000 := (i 0).isLt
  have hi1 : (i 1).val < 128 := (i 1).isLt
  obtain ⟨t, ht⟩ : ∃ t : Fin cfg2.N, t.val = (i 0).val / 4000 :=
    ⟨⟨(i 0).val / 4000, by rw [show cfg2.N = 50 from N_2]; omega⟩, rfl⟩
  obtain ⟨-, -, -, -, -, -, e0, e1⟩ := idx2 t
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; rw [e0, ht]; omega
  | ⟨1, _⟩ => show win2_3.index t (1 : Fin 2) * 128 ≤ (i 1).val ∧ (i 1).val < win2_3.index t (1 : Fin 2) * 128 + 128; rw [e1]; omega

section Final
variable (V : (c : Dev nD) → (b : Ref sig .tc) → Buf (Elt Ideal) ((c : Thread nD τ).loc b))

/-- After the region the output array is the linear stage of the arrays the region found. -/
theorem final2 (c : Dev nD) :
    (dat2 (F := Ideal) V c).arrAt 3 cfg2.N
      = linMxu (V c (Pipeline.arrRef spec2 0)) (V c (Pipeline.arrRef spec2 1)) (V c (Pipeline.arrRef spec2 2)) :=
  (dat2 V c).arrAt_eq_of_cover 3 _ (fun t _ => flushed2 V c t) cover2

end Final

end Cert.Bridge.Layers

end
-- ==== Proof.Layers3.lean ====
/-
  The final stage of a layer with 128 features, tiled: the stage runs over 50 grid points, point `t` computing rows
  `4000 t … 4000 t + 3999` of  out[r, c] = max (dis[r] · (agg[r, c] + hp[r, c]) + b[c]) 0  from the same rows of the
  aggregated messages `agg`, the node's own scaled features `hp` and the scale column `dis`, and the whole bias row.
  Here: the body's arithmetic at one element of a block, each window's block as rows of its array, what a point
  writes back as a block of the whole-array stage, the cover of the output by the 50 blocks, and so the output array
  after the stage as `fin` of the arrays the stage found.
-/
import proofs.«117654_j30477087932519_2_alg».proof.Proof.LayersLib

noncomputable section

open scoped BigOperators

namespace Cert.Bridge.Layers

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at one element of a block -/

/-- The body's result at row `p`, lane `q` of a block: the aggregated messages plus the node's own scaled features,
    times the row's scale, plus the bias, clamped at zero. -/
theorem pay3_ix (d : Vec Ideal S4000x1 .f32) (a h : Vec Ideal S4000x128 .f32) (b : Vec Ideal S1x128 .f32) (p : Fin 4000) (q : Fin 128) :
    k3_pay1 d a h b (ix2 p q)
      = max (d (ix2 p (0 : Fin 1)) * (a (ix2 p q) + h (ix2 p q)) + b (ix2 (0 : Fin 1) q)) 0 := by
  unfold k3_pay1
  simp only [maximumf_apply, mulf_apply, addf_apply, shapeCast_self, broadcast_apply]
  rw [bcast_col128, bcast_row128]
  exact congrArg (max _) Ideal.ofBits_zero_f32

/-! ## From blocks to the array -/

section Blocks
variable (V : (c : Dev nD) → (b : Ref sig .tc) → Buf (Elt Ideal) ((c : Thread nD τ).loc b))

/-- The block indices over the grid: at point `t` the four row-tiled windows sit at block row `t`, and the bias's
    window is the whole row at every point. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated messages' block at point `t`: rows `4000 t …` of the array. -/
theorem blk3_0 (c : Dev nD) (t : Fin cfg3.N) (ht : t.val < 50) (p : Fin 4000) (q : Fin 128) :
    (iblk3 (F := Ideal) V c 0 t : Vec Ideal S4000x128 .f32) (ix2 p q)
      = (V c (Pipeline.arrRef spec3 0) : A2 200000 128) (ix2 (row t.val p.val ht p.isLt) q) := by
  obtain ⟨e0, e1, -⟩ := idx3 t
  unfold iblk3
  rw [View.read_apply]
  show V c (Pipeline.arrRef spec3 0) (((cfg3.win 0).blk t).view.emb (ix2 p q)) = _
  refine congrArg _ (funext fun a => Fin.ext ?_)
  match a with
  | ⟨0, _⟩ => show win3_0.index t (0 : Fin 2) * 4000 + 1 * p.val = t.val * 4000 + p.val; rw [e0]; omega
  | ⟨1, _⟩ => show win3_0.index t (1 : Fin 2) * 128 + 1 * q.val = q.val; rw [e1]; omega

/-- The node's own scaled features' block at point `t`: rows `4000 t …` of the array. -/
theorem blk3_1 (c : Dev nD) (t : Fin cfg3.N) (ht : t.val < 50) (p : Fin 4000) (q : Fin 128) :
    (iblk3 (F := Ideal) V c 1 t : Vec Ideal S4000x128 .f32) (ix2 p q)
      = (V c (Pipeline.arrRef spec3 1) : A2 200000 128) (ix2 (row t.val p.val ht p.isLt) q) := by
  obtain ⟨-, -, e0, e1, -⟩ := idx3 t
  unfold iblk3
  rw [View.read_apply]
  show V c (Pipeline.arrRef spec3 1) (((cfg3.win 1).blk t).view.emb (ix2 p q)) = _
  refine congrArg _ (funext fun a => Fin.ext ?_)
  match a with
  | ⟨0, _⟩ => show win3_1.index t (0 : Fin 2) * 4000 + 1 * p.val = t.val * 4000 + p.val; rw [e0]; omega
  | ⟨1, _⟩ => show win3_1.index t (1 : Fin 2) * 128 + 1 * q.val = q.val; rw [e1]; omega

/-- The scale column's block at point `t`: rows `4000 t …` of the column. -/
theorem blk3_2 (c : Dev nD) (t : Fin cfg3.N) (ht : t.val < 50) (p : Fin 4000) :
    (iblk3 (F := Ideal) V c 2 t : Vec Ideal S4000x1 .f32) (ix2 p (0 : Fin 1))
      = (V c (Pipeline.arrRef spec3 2) : A2 200000 1) (ix2 (row t.val p.val ht p.isLt) (0 : Fin 1)) := by
  obtain ⟨-, -, -, -, e0, e1, -⟩ := idx3 t
  unfold iblk3
  rw [View.read_apply]
  show V c (Pipeline.arrRef spec3 2) (((cfg3.win 2).blk t).view.emb (ix2 p (0 : Fin 1))) = _
  refine congrArg _ (funext fun a => Fin.ext ?_)
  match a with
  | ⟨0, _⟩ => show win3_2.index t (0 : Fin 2) * 4000 + 1 * p.val = t.val * 4000 + p.val; rw [e0]; omega
  | ⟨1, _⟩ => show win3_2.index t (1 : Fin 2) * 1 + 1 * 0 = 0; rw [e1]

/-- The bias row's block at every point: the bias row. -/
theorem blk3_3 (c : Dev nD) (t : Fin cfg3.N) (q : Fin 128) :
    (iblk3 (F := Ideal) V c 3 t : Vec Ideal S1x128 .f32) (ix2 (0 : Fin 1) q)
      = (V c (Pipeline.arrRef spec3 3) : A2 1 128) (ix2 (0 : Fin 1) q) := by
  obtain ⟨-, -, -, -, -, -, e0, e1, -⟩ := idx3 t
  unfold iblk3
  rw [View.read_apply]
  show V c (Pipeline.arrRef spec3 3) (((cfg3.win 3).blk t).view.emb (ix2 (0 : Fin 1) q)) = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- Where an element of the output's block at point `t` sits in the array. -/
theorem emb3_4 (t : Fin cfg3.N) (ht : t.val < 50) (p : Fin 4000) (q : Fin 128) :
    (((cfg3.win 4).blk t).view.emb (ix2 p q) : S200000x128.Idx) = ix2 (row t.val p.val ht p.isLt) q := by
  obtain ⟨-, -, -, -, -, -, -, -, e0, e1⟩ := idx3 t
  refine funext fun a => Fin.ext ?_
  match a with
  | ⟨0, _⟩ => show win3_4.index t (0 : Fin 2) * 4000 + 1 * p.val = t.val * 4000 + p.val; rw [e0]; omega
  | ⟨1, _⟩ => show win3_4.index t (1 : Fin 2) * 128 + 1 * q.val = q.val; rw [e1]; omega

set_option maxHeartbeats 1000000 in
/-- What point `t` writes back is block `t` of the final stage of the arrays as the region finds them. -/
theorem flushed3 (c : Dev nD) (t : Fin cfg3.N) :
    (dat3 (F := Ideal) V c).flushed 4 t
      = ((cfg3.win 4).blk t).view.read (Elt Ideal)
          (fin (C := 128) (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero zero_off]
  simp only [View.ld_unit_zero (S := S4000x1) zero_off, View.ld_unit_zero (S := S4000x128) zero_off, View.ld_unit_zero (S := S1x128) zero_off]
  have ht : t.val < 50 := lt_of_lt_of_eq t.isLt N_3
  funext j
  obtain ⟨p, q, rfl⟩ : ∃ (p : Fin 4000) (q : Fin 128), j = ix2 p q := ⟨j 0, j 1, eq_ix2 j⟩
  show k3_pay1 (iblk3 V c 2 t) (iblk3 V c 0 t) (iblk3 V c 1 t) (iblk3 V c 3 t) (ix2 p q)
    = fin (C := 128) (V c (Pipeline.arrRef spec3 0)) (V c (Pipeline.arrRef spec3 1)) (V c (Pipeline.arrRef spec3 2)) (V c (Pipeline.arrRef spec3 3)) (((cfg3.win 4).blk t).view.emb (ix2 p q))
  refine (pay3_ix (iblk3 V c 2 t) (iblk3 V c 0 t) (iblk3 V c 1 t) (iblk3 V c 3 t) p q).trans ?_
  rw [emb3_4 t ht p q, fin_ix, blk3_2 V c t ht p, blk3_0 V c t ht p q, blk3_1 V c t ht p q, blk3_3 V c t q]
  rfl

end Blocks

/-- An index of the output array is in point `t`'s block iff each coordinate is in the block's range on its axis. -/
theorem mem_blk3 (t : Fin cfg3.N) (i : S200000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v43).slice (win3_4.rect t)).set ↔ _
  rw [View.set_slice_whole, Rect.mem_set_unit]
  exact Iff.rfl

/-- The blocks cover the output array: row `r` is in the block of point `r / 4000`. -/
theorem cover3 (i : S200000x128.Idx) :
    ∃ t : Fin cfg3.N, (cfg3.win 4).flush t = true ∧ i ∈ ((cfg3.win 4).blk t).view.set := by
  have hi0 : (i 0).val < 200000 := (i 0).isLt
  have hi1 : (i 1).val < 128 := (i 1).isLt
  obtain ⟨t, ht⟩ : ∃ t : Fin cfg3.N, t.val = (i 0).val / 4000 :=
    ⟨⟨(i 0).val / 4000, by rw [show cfg3.N = 50 from N_3]; omega⟩, rfl⟩
  obtain ⟨-, -, -, -, -, -, -, -, e0, e1⟩ := idx3 t
  refine ⟨t, flush3_4 t, ?_⟩
  rw [mem_blk3]
  intro a
  match a with
  | ⟨0, _⟩ => show win3_4.index t (0 : Fin 2) * 4000 ≤ (i 0).val ∧ (i 0).val < win3_4.index t (0 : Fin 2) * 4000 + 4000; rw [e0, ht]; omega
  | ⟨1, _⟩ => show win3_4.index t (1 : Fin 2) * 128 ≤ (i 1).val ∧ (i 1).val < win3_4.index t (1 : Fin 2) * 128 + 128; rw [e1]; omega

section Final
variable (V : (c : Dev nD) → (b : Ref sig .tc) → Buf (Elt Ideal) ((c : Thread nD τ).loc b))

set_option maxHeartbeats 1000000 in
/-- After the region the output array is the final stage of the arrays the region found. -/
theorem final3 (c : Dev nD) :
    (dat3 (F := Ideal) V c).arrAt 4 cfg3.N
      = fin (C := 128) (V c (Pipeline.arrRef spec3 0)) (V c (Pipeline.arrRef spec3 1)) (V c (Pipeline.arrRef spec3 2)) (V c (Pipeline.arrRef spec3 3)) :=
  (dat3 V c).arrAt_eq_of_cover 4 _ (fun t _ => flushed3 V c t) cover3

end Final

end Cert.Bridge.Layers

end
-- ==== Proof.LibScatter.lean ====
/-
  General facts used by the graph-convolution layer's algebra, none of them about a particular program.

  * Distributivity on the extended reals: a factor that is finite and not negative distributes over a finite sum
    (it fails for an infinite or a negative factor, since EReal's addition is not cancellative at the infinities).
  * A scatter-add of ones onto zero counts: it is a natural number.
  * A power of (a natural number plus one) with a real exponent is a real that is not negative.
  * A wrapped index (select (x < 0) (x + n) x) of a word that is not negative as a signed integer is the word itself.
  * "Row" scatters and gathers: the dimension numbers of x.at[idx].add(u) along axis 0 of a matrix (and of a vector),
    and of x[idx] along axis 0 of a matrix (and of a vector), with index arrays of shape [E, 1]: which element an update
    lands on, and which element a gather reads (start read signed; a scatter drops what is out of range, a gather clamps).
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Bridge.LibScatter

open Idealize.ShloMosaic Idealize.ShloMosaic.ValueIdx

/-! ## Distributivity at a finite factor that is not negative -/

/-- A finite extended real that is not negative distributes over a finite sum of arbitrary extended reals. -/
theorem mul_sum_of_nonneg_of_ne_top {ι : Type} (s : Finset ι) {x : EReal} (h0 : 0 ≤ x) (ht : x ≠ ⊤) (a : ι → EReal) :
    x * ∑ j ∈ s, a j = ∑ j ∈ s, x * a j := by
  classical
  induction s using Finset.induction_on with
  | empty => simp
  | insert j s hj ih =>
    rw [Finset.sum_insert hj, Finset.sum_insert hj, EReal.left_distrib_of_nonneg_of_ne_top h0 ht, ih]

/-- The layer's re-association: with c finite and not negative,
    c · ((0 + Σ_j m_j · d_j) + m · c) = (0 + Σ_j m_j · (d_j · c)) + m · (c · c). -/
theorem reassoc {ι : Type} (s : Finset ι) {c : EReal} (h0 : 0 ≤ c) (ht : c ≠ ⊤) (m d : ι → EReal) (m0 : EReal) :
    c * (((0 : EReal) + ∑ j ∈ s, m j * d j) + m0 * c) = ((0 : EReal) + ∑ j ∈ s, m j * (d j * c)) + m0 * (c * c) := by
  rw [zero_add, zero_add, EReal.left_distrib_of_nonneg_of_ne_top h0 ht, mul_sum_of_nonneg_of_ne_top s h0 ht]
  congr 1
  · refine Finset.sum_congr rfl fun j _ => ?_
    rw [mul_comm c, mul_assoc]
  · rw [mul_comm c, mul_assoc]

/-! ## A count is a natural number; its power is a real that is not negative -/

/-- Zero plus a sum of ones is the number of terms. -/
theorem zero_add_sum_one {ι : Type} (s : Finset ι) : (0 : EReal) + ∑ _j ∈ s, (1 : EReal) = (s.card : EReal) := by
  rw [zero_add, Finset.sum_const, nsmul_one]

/-- The power of (a natural number plus one) with a real exponent is not negative and is finite. -/
theorem pow_natCast_add_one (n : ℕ) (y : ℝ) :
    0 ≤ Ideal.pow ((n : EReal) + 1) (y : EReal) ∧ Ideal.pow ((n : EReal) + 1) (y : EReal) ≠ ⊤ := by
  have e : ((n : EReal) + 1) = (((n : ℝ) + 1 : ℝ) : EReal) := by
    rw [EReal.coe_add, EReal.coe_one]; rfl
  rw [e, Ideal.pow_coe_coe]
  exact ⟨EReal.coe_nonneg.2 (Real.rpow_nonneg (by positivity) y), EReal.coe_ne_top _⟩

/-- The f32 pattern 0xBF000000 is a real number (minus one half). -/
theorem ofBits_neg_half_f32 : Ideal.ofBits .f32 0xBF000000#32 = (((-(1 : ℝ)) / 2 : ℝ) : EReal) := by
  simp [Ideal.ofBits, Ideal.ieee, -EReal.coe_mul, -EReal.coe_neg]; norm_num

/-! ## A wrapped index -/

/-- The wrapped form select (x < 0) a x of a word x that is not negative as a signed integer is x itself. -/
theorem wrap_of_nonneg (x a : BitVec 32) (h : 0 ≤ x.toInt) :
    Scalar.select (IntOp.cmpi .slt x 0#32) a x = x := by
  have hs : x.slt 0#32 = false := by
    rw [BitVec.slt]; simp; omega
  unfold Scalar.select IntOp.cmpi
  simp [hs]

/-! ## Row scatters and gathers -/

section Dims
variable {N E C w : Nat}

/-- A start index read signed off a word and clamped into [0, N − 1]. -/
def clampIdx (N : Nat) (hN : 0 < N) {w : Nat} (x : BitVec w) : Fin N := ⟨min x.toInt.toNat (N - 1), by omega⟩

/-- A word whose signed value is the in-range r clamps to r. -/
theorem clampIdx_of_toInt (hN : 0 < N) (x : BitVec w) (r : Fin N) (h : x.toInt = (r.val : Int)) : clampIdx N hN x = r := by
  refine Fin.ext ?_
  show min x.toInt.toNat (N - 1) = r.val
  have := r.isLt
  rw [h]; simp; omega

/-- The dimension numbers of the accumulation of rows: operand [N, C], indices [E, 1], updates [E, C];
    update row e is added to operand row idx[e, 0]. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the scattered axis the start of update (e, c) is the signed value of idx[e, 0]. -/
theorem rowScatter_start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the scattered axis the window coordinate is zero. -/
theorem rowScatter_window0 (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg (by simp [Shape.kept])]

/-- An update that lands on operand element i has, as the signed value of its row's index, i's row. -/
theorem rowScatter_resultIdx?_some (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N) (c' : Fin C)
    (h : (rowScatterDims N E C wf).resultIdx? (ix2 e c) idx = some (ix2 r c')) :
    (idx (ix2 e (0 : Fin 1))).toInt = (r.val : Int) := by
  unfold ScatterDims.resultIdx? at h
  split at h
  · rename_i hb
    have h0 := hb 0
    rw [rowScatter_start0, rowScatter_window0] at h0
    have hv := congrArg Fin.val (congrFun (Option.some.inj h) 0)
    simp only [rowScatter_start0, rowScatter_window0] at hv
    have hv' : ((idx (ix2 e (0 : Fin 1))).toInt + ((0 : Nat) : Int)).toNat = r.val := hv
    omega
  · exact absurd h (by simp)

end Dims

section Dims2
variable {N E C w : Nat}

/-- The dimension numbers of taking rows: operand [N, C], start indices [E, 1], result [E, C];
    result row e is operand row idx[e, 0] (clamped). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Taking rows, read at (e, c): the operand at (clamped idx[e, 0], c). -/
theorem rowGather_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampIdx N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    have hs : (rowGatherDims N E C wf).start (ix2 e c) idx 1 = 0 := by
      unfold GatherDims.start
      rw [dif_neg (by simp)]
    rw [hs, GatherDims.batchCoord_eq_zero _ _ _ List.not_mem_nil]
    have ho : (rowGatherDims N E C wf).offCoord (ix2 e c) 1 = c.val := by
      have hk : (rowGatherDims N E C wf).sKept = [1] := by
        first
          | rfl
          | (simp [Shape.kept, List.finRange]; done)
          | (simp [Shape.kept]; done)
          | (trace_state; fail "hk")
      have hi : List.idxOf (1 : Fin 2) (rowGatherDims N E C wf).sKept = 0 := by rw [hk]; rfl
      unfold GatherDims.offCoord
      rw [dif_pos (by rw [hk]; exact List.mem_singleton.mpr rfl)]
      simp only [hi]
      first
        | rfl
        | (trace_state; fail "ho")
    rw [ho]; omega

/-- The dimension numbers of taking elements of a vector: operand [N], start indices [E, 1], result [E];
    result element e is operand element idx[e, 0] (clamped). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Taking elements of a vector, read at e: the operand at the clamped idx[e, 0]. -/
theorem vecGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampIdx N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Dims2

/-! ## The re-association of a graph-convolution layer's normalisation -/

section Layer
variable {N E C : Nat}

/-- THE LAYER'S RE-ASSOCIATION. With dis finite and not negative at every node, the zero array z, and the two update
    arrays read as
      updK[e, c] = hp[g e, c]            where hp[r, c] = xw[r, c] · dis[r]   (scaled before the gather),
      updR[e, c] = xw[g e, c] · (dis[g' e] · dis[gd e])                       (scaled per edge),
    g, g', gd the clamped start indices of nsrc, nsrc' (the same array) and ndst (dst wrapped: equal to dst wherever dst is
    not negative), scaling the accumulated rows once more by dis[r] gives the per-edge normalisation plus the
    self-loop term:
      dis[r] · ((z + Σ_{e → r} updK[e, c]) + hp[r, c]) = (z + Σ_{e → r} updR[e, c]) + xw[r, c] · (dis[r] · dis[r]).
    Every update that lands on row r has dst[e] = r exactly (a scatter drops what is out of range), so gd e = r. -/
theorem gcn_reassoc (hN : 0 < N)
    (wf : ScatterDims.WF ⟨2, ![N, C]⟩ ⟨2, ![E, 1]⟩ ⟨2, ![E, C]⟩ [1] [0] [0] 1)
    (z : (⟨2, ![N, C]⟩ : Shape).Idx → EReal) (hz : ∀ i, z i = 0)
    (dst nsrc nsrc' ndst : IVec ⟨2, ![E, 1]⟩ 32)
    (hsrc : nsrc' = nsrc)
    (hwrap : ∀ e : Fin E, 0 ≤ (dst (ix2 e (0 : Fin 1))).toInt → ndst (ix2 e (0 : Fin 1)) = dst (ix2 e (0 : Fin 1)))
    (dis : (⟨1, ![N]⟩ : Shape).Idx → EReal) (hdis : ∀ r : Fin N, 0 ≤ dis (ix1 r) ∧ dis (ix1 r) ≠ ⊤)
    (xw hp : (⟨2, ![N, C]⟩ : Shape).Idx → EReal)
    (hhp : ∀ (r : Fin N) (c : Fin C), hp (ix2 r c) = xw (ix2 r c) * dis (ix1 r))
    (updK updR : (⟨2, ![E, C]⟩ : Shape).Idx → EReal)
    (hK : ∀ (e : Fin E) (c : Fin C), updK (ix2 e c) = hp (ix2 (clampIdx N hN (nsrc (ix2 e (0 : Fin 1)))) c))
    (hR : ∀ (e : Fin E) (c : Fin C), updR (ix2 e c) = xw (ix2 (clampIdx N hN (nsrc (ix2 e (0 : Fin 1)))) c)
      * (dis (ix1 (clampIdx N hN (nsrc' (ix2 e (0 : Fin 1))))) * dis (ix1 (clampIdx N hN (ndst (ix2 e (0 : Fin 1)))))))
    (r : Fin N) (c : Fin C) :
    dis (ix1 r) * (Ideal.hostScatterAdd (rowScatterDims N E C wf) z dst updK (ix2 r c) + hp (ix2 r c))
      = Ideal.hostScatterAdd (rowScatterDims N E C wf) z dst updR (ix2 r c)
        + xw (ix2 r c) * (dis (ix1 r) * dis (ix1 r)) := by
  unfold Ideal.hostScatterAdd
  rw [hz, hhp]
  generalize hS : Finset.univ.filter (fun j => (rowScatterDims N E C wf).resultIdx? j dst = some (ix2 r c)) = S
  let m : Fin E → Fin C → EReal := fun e c' => xw (ix2 (clampIdx N hN (nsrc (ix2 e (0 : Fin 1)))) c')
  let d : Fin E → EReal := fun e => dis (ix1 (clampIdx N hN (nsrc (ix2 e (0 : Fin 1)))))
  have e1 : ∑ j ∈ S, updK j = ∑ j ∈ S, m (j 0) (j 1) * d (j 0) := by
    refine Finset.sum_congr rfl fun j _ => ?_
    obtain ⟨e, c', rfl⟩ : ∃ (e : Fin E) (c' : Fin C), j = ix2 e c' := ⟨j 0, j 1, eq_ix2 j⟩
    rw [hK, hhp]
    rfl
  have e2 : ∑ j ∈ S, updR j = ∑ j ∈ S, m (j 0) (j 1) * (d (j 0) * dis (ix1 r)) := by
    refine Finset.sum_congr rfl fun j hj => ?_
    obtain ⟨e, c', rfl⟩ : ∃ (e : Fin E) (c' : Fin C), j = ix2 e c' := ⟨j 0, j 1, eq_ix2 j⟩
    rw [← hS] at hj
    have hres := (Finset.mem_filter.1 hj).2
    have ht := rowScatter_resultIdx?_some wf dst e c' r c hres
    have hnn : 0 ≤ (dst (ix2 e (0 : Fin 1))).toInt := by rw [ht]; exact Int.natCast_nonneg _
    rw [hR, hsrc, hwrap e hnn, clampIdx_of_toInt hN _ r ht]
    rfl
  rw [e1, e2]
  exact reassoc S (hdis r).1 (hdis r).2 (fun j => m (j 0) (j 1)) (fun j => d (j 0)) (xw (ix2 r c))

end Layer

end Cert.Bridge.LibScatter

end
-- ==== Proof.LayerCommon.lean ====
/-
  What the two graph-convolution layers share: the normalisation vector carried as a column [N, 1], a bias carried as a
  row [1, C], each read at an index, and the dimension numbers of taking elements of the normalisation vector along the
  edges.
-/
import proofs.«117654_j30477087932519_2_alg».proof.Proof.Gen.KernelIdeal.Launch
import proofs.«117654_j30477087932519_2_alg».proof.Proof.Gen.ReferenceIdeal.Read
import proofs.«117654_j30477087932519_2_alg».proof.Proof.Spec
import proofs.«117654_j30477087932519_2_alg».proof.Proof.LibScatter
import Idealize.ShloMosaic.Lib.Pipeline.Value
import Idealize.ShloMosaic.Lib.IdealHost

noncomputable section

open scoped BigOperators

namespace Cert.Bridge.LayerAlg

open Idealize.ShloMosaic Idealize.ShloMosaic.ValueIdx Cert.Bridge Cert.Bridge.LibScatter
open Cert.ReferenceIdeal Cert.ReferenceIdeal.Read

/-! ## The column and the rows the dense stages receive -/

/-- The normalisation carried as a column [N, 1]. -/
abbrev col (dis : A1 200000) : A2 200000 1 :=
  broadcastInDim Cert.KernelIdeal.S200000x1 ![0] Cert.KernelIdeal.Facts₀.bcast_S200000_S200000x1_0 dis
/-- A bias of 64 features carried as a row [1, 64]. -/
abbrev row64 (b : A1 64) : A2 1 64 := shapeCast _ b Cert.KernelIdeal.Facts₀.shapeCasts_S64_S1x64
/-- A bias of 128 features carried as a row [1, 128]. -/
abbrev row128 (b : A1 128) : A2 1 128 := shapeCast _ b Cert.KernelIdeal.Facts₀.shapeCasts_S128_S1x128

/-- The column reads the vector. -/
theorem col_ix (dis : A1 200000) (r : Fin 200000) : col dis (ix2 r (0 : Fin 1)) = dis (ix1 r) :=
  broadcastInDim_apply ![0] Cert.KernelIdeal.Facts₀.bcast_S200000_S200000x1_0 dis (ix2 r (0 : Fin 1)) (ix1 r) (fun a => match a with
    | ⟨0, _⟩ => by show r.val = if (200000 : Nat) = 1 then 0 else r.val; rw [if_neg (by decide)])
/-- The row of 64 reads the vector. -/
theorem row64_ix (b : A1 64) (c : Fin 64) : row64 b (ix2 (0 : Fin 1) c) = b (ix1 c) :=
  shapeCast_apply b Cert.KernelIdeal.Facts₀.shapeCasts_S64_S1x64 (ix2 (0 : Fin 1) c) (ix1 c)
    (by rw [Shape.rowMajor_val_two, Shape.rowMajor_val_one]; show c.val = 0 * 64 + c.val; omega)
/-- The row of 128 reads the vector. -/
theorem row128_ix (b : A1 128) (c : Fin 128) : row128 b (ix2 (0 : Fin 1) c) = b (ix1 c) :=
  shapeCast_apply b Cert.KernelIdeal.Facts₀.shapeCasts_S128_S1x128 (ix2 (0 : Fin 1) c) (ix1 c)
    (by rw [Shape.rowMajor_val_two, Shape.rowMajor_val_one]; show c.val = 0 * 128 + c.val; omega)

/-- The conditions on the dimension numbers of taking elements of the normalisation vector, at the literal shapes. -/
theorem wfG1 : GatherDims.WF ⟨1, ![200000]⟩ ⟨2, ![600000, 1]⟩ ⟨1, ![600000]⟩ [] [0] [] [0] [] 1 ![1] :=
  Cert.ReferenceIdeal.Facts₀.gather_S200000_S600000x1_S600000_n_0_n_n_0_1_1_wf
/-- Taking elements of the normalisation vector is the general one. -/
theorem gaR1_eq : Cert.ReferenceIdeal.gather_S200000_S600000x1_S600000_n_0_n_n_0_1_1
    = vecGatherDims 200000 600000 wfG1 := rfl

end Cert.Bridge.LayerAlg

end
-- ==== Proof.LayerAlg1.lean ====
/-
  Graph-convolution layer 1 (two input features, 64 output features): the re-associated normalisation equals the
  per-edge normalisation.

  The reference computes, at node r and feature c,
      max (((0 + Σ_{e → r} (a·W)[g e, c] · (dis[g' e] · dis[gd e])) + (a·W)[r, c] · (dis[r] · dis[r])) + b[c]) 0,
  the sum over the update rows e whose destination dst[e] is r (an accumulation drops a row whose destination is out of
  range), g e and g' e the clamped wrapped source of edge e, gd e its clamped wrapped destination; a·W is written out as a₀·W₀ + a₁·W₁. The other side
  scales the transformed features before they are taken along the edges and once more after they are accumulated:
      max (dis[r] · ((0 + Σ_{e → r} hp[g e, c]) + hp[r, c]) + b[c]) 0,   hp[r, c] = (a·W)[r, c] · dis[r].
  They agree because dis[r] = (count + 1)^(-1/2) is a real number that is not negative (so it distributes over the sum
  on the extended reals, whatever the features are), and because every row that lands on r has dst[e] = r exactly: in
  range, hence not negative, hence equal to its wrapped form, hence gd e = r.
-/
import proofs.«117654_j30477087932519_2_alg».proof.Proof.LayerCommon

noncomputable section

open scoped BigOperators

namespace Cert.Bridge.LayerAlg

open Idealize.ShloMosaic Idealize.ShloMosaic.ValueIdx Cert.Bridge Cert.Bridge.LibScatter
open Cert.ReferenceIdeal Cert.ReferenceIdeal.Read

/-! ## Layer 1 (two input features, 64 output features) -/

section Layer1

/-- The conditions on the dimension numbers, stated at the literal shapes. -/
theorem wfS64 : ScatterDims.WF ⟨2, ![200000, 64]⟩ ⟨2, ![600000, 1]⟩ ⟨2, ![600000, 64]⟩ [1] [0] [0] 1 :=
  Cert.KernelIdeal.Facts₀.scatter_S200000x64_S600000x1_S600000x64_1_0_0_1_wf
theorem wfG64 : GatherDims.WF ⟨2, ![200000, 64]⟩ ⟨2, ![600000, 1]⟩ ⟨2, ![600000, 64]⟩ [1] [0] [] [0] [] 1 ![1, 64] :=
  Cert.KernelIdeal.Facts₀.gather_S200000x64_S600000x1_S600000x64_1_0_n_n_0_1_164_wf

/-- The accumulation of rows of 64 features, on both sides, is the general one. -/
theorem scK64_eq : Cert.KernelIdeal.scatter_S200000x64_S600000x1_S600000x64_1_0_0_1
    = rowScatterDims 200000 600000 64 wfS64 := rfl
theorem scR64_eq : Cert.ReferenceIdeal.scatter_S200000x64_S600000x1_S600000x64_1_0_0_1
    = rowScatterDims 200000 600000 64 wfS64 := rfl
/-- Taking rows of 64 features, on both sides, is the general one. -/
theorem gaK64_eq : Cert.KernelIdeal.gather_S200000x64_S600000x1_S600000x64_1_0_n_n_0_1_164
    = rowGatherDims 200000 600000 64 wfG64 := rfl
theorem gaR64_eq : Cert.ReferenceIdeal.gather_S200000x64_S600000x1_S600000x64_1_0_n_n_0_1_164
    = rowGatherDims 200000 600000 64 wfG64 := rfl

/-- The indices the reference's layout stages compose to. -/
theorem i47_48 (r : Fin 200000) (c : Fin 64) : idx_main_v47 (idx_main_v48 (ix2 r c)) = ix1 r :=
  funext fun a => Fin.ext (by match a with | ⟨0, _⟩ => rfl)
theorem i51_52 (r : Fin 200000) (c : Fin 64) : idx_main_v51 (idx_main_v52 (ix2 r c)) = ix1 c :=
  funext fun a => Fin.ext (by match a with | ⟨0, _⟩ => rfl)
theorem i40_41 (e : Fin 600000) (c : Fin 64) : idx_main_v40 (idx_main_v41 (ix2 e c)) = ix1 e :=
  funext fun a => Fin.ext (by match a with | ⟨0, _⟩ => rfl)
theorem i37 (e : Fin 600000) : idx_main_v37 (ix2 e (0 : Fin 1)) = ix1 e :=
  funext fun a => Fin.ext (by match a with | ⟨0, _⟩ => rfl)
theorem i44 (e : Fin 600000) : idx_main_v44 (ix2 e (0 : Fin 1)) = ix1 e :=
  funext fun a => Fin.ext (by match a with | ⟨0, _⟩ => rfl)

/-- The reference's layer-1 output at (r, c), down to the accumulation, the product and the normalisation. -/
theorem ref54_ix (x0 : A2 200000 2) (x2 : A2 2 64) (x3 : A1 64) (E : IVec S2x600000 32) (r : Fin 200000) (c : Fin 64) :
    val_main_v54 (F := Ideal) x0 x2 x3 E (ix2 r c)
      = max ((val_main_v45 (F := Ideal) x0 x2 E (ix2 r c)
          + val_main_v4 (F := Ideal) x0 x2 (ix2 r c) * (val_main_v17 (F := Ideal) E (ix1 r) * val_main_v17 (F := Ideal) E (ix1 r)))
          + x3 (ix1 c)) 0 := by
  rw [val_main_v54_apply, val_main_v53_apply, val_main_v50_apply, val_main_v49_apply, val_main_v48_apply,
    val_main_v47_apply, val_main_v46_apply, val_main_v52_apply, val_main_v51_apply, val_main_call0_v0_apply,
    val_main_call0_cst_apply, i47_48, i51_52]
  simp only [Ideal.maximumf_def, Ideal.addf_def, Ideal.mulf_def, Ideal.ofBits_def, Ideal.ofBits_zero_f32]

/-- The reference's per-edge messages at (e, c). -/
theorem ref42_ix (x0 : A2 200000 2) (x2 : A2 2 64) (E : IVec S2x600000 32) (e : Fin 600000) (c : Fin 64) :
    val_main_v42 (F := Ideal) x0 x2 E (ix2 e c)
      = val_main_v4 (F := Ideal) x0 x2 (ix2 (clampIdx 200000 (by decide) (val_main_v23 (F := Ideal) E (ix2 e (0 : Fin 1)))) c)
        * (val_main_v17 (F := Ideal) E (ix1 (clampIdx 200000 (by decide) (val_main_v30 (F := Ideal) E (ix2 e (0 : Fin 1)))))
          * val_main_v17 (F := Ideal) E (ix1 (clampIdx 200000 (by decide) (val_main_v37 (F := Ideal) E (ix2 e (0 : Fin 1)))))) := by
  rw [val_main_v42_apply, val_main_v41_apply, val_main_v40_apply, val_main_v39_apply, i40_41]
  unfold val_main_v24 val_main_v31 val_main_v38
  rw [gaR64_eq, gaR1_eq, rowGather_apply (by decide), vecGather_apply (by decide), vecGather_apply (by decide)]
  rfl

/-- A destination that is not negative is its own wrapped form. -/
theorem ref37_wrap (E : IVec S2x600000 32) (e : Fin 600000)
    (h : 0 ≤ (val_main_v44 (F := Ideal) E (ix2 e (0 : Fin 1))).toInt) :
    val_main_v37 (F := Ideal) E (ix2 e (0 : Fin 1)) = val_main_v44 (F := Ideal) E (ix2 e (0 : Fin 1)) := by
  rw [val_main_v44_apply, i44] at h ⊢
  rw [val_main_v37_apply, val_main_v36_apply, val_main_v33_apply, val_main_v32_apply, val_main_c_8_apply, i37]
  exact wrap_of_nonneg _ _ h

/-- The two wrapped copies of the sources are one array. -/
theorem ref30_eq (E : IVec S2x600000 32) : val_main_v30 (F := Ideal) E = val_main_v23 (F := Ideal) E := by
  unfold val_main_v30 val_main_v29 val_main_v26 val_main_v28 val_main_v25 val_main_v27 val_main_c_6 val_main_c_7
    val_main_v23 val_main_v22 val_main_v19 val_main_v21 val_main_v18 val_main_v20 val_main_c_4 val_main_c_5
  rfl

/-- The normalisation (count + 1)^(-1/2) is a real number that is not negative, at every node. -/
theorem dis17_fin (E : IVec S2x600000 32) (r : Fin 200000) :
    0 ≤ val_main_v17 (F := Ideal) E (ix1 r) ∧ val_main_v17 (F := Ideal) E (ix1 r) ≠ ⊤ := by
  have h12 : ∀ j, val_main_v12 (F := Ideal) j = 1 := fun j => by
    rw [val_main_v12_apply, val_main_cst_1_apply, Ideal.ofBits_def, Ideal.ofBits_one_f32]
  have h13 : ∃ n : ℕ, val_main_v13 (F := Ideal) E (ix1 r) = (n : EReal) := by
    unfold val_main_v13 Host.scatterAdd
    rw [Ideal.hostScatterAdd_def]
    unfold Ideal.hostScatterAdd
    rw [val_main_v5_apply, val_main_cst_apply, Ideal.ofBits_def, Ideal.ofBits_zero_f32]
    simp only [h12]
    exact ⟨_, zero_add_sum_one _⟩
  obtain ⟨n, hn⟩ := h13
  rw [val_main_v17_apply, val_main_v15_apply, val_main_v14_apply, val_main_cst_2_apply, val_main_v16_apply,
    val_main_cst_3_apply, hn]
  simp only [Ideal.hostPowf_def, Ideal.addf_def, Ideal.ofBits_def, Ideal.ofBits_one_f32, ofBits_neg_half_f32]
  exact pow_natCast_add_one _ _

/-- The accumulator's initial array is zero. -/
theorem z43 (i : S200000x64.Idx) : val_main_v43 (F := Ideal) i = 0 := by
  rw [val_main_v43_apply, val_main_cst_10_apply, Ideal.ofBits_def, Ideal.ofBits_zero_f32]

/-- The product of the two input features with the weights, written out. -/
theorem xw4_ix (x0 : A2 200000 2) (x2 : A2 2 64) (r : Fin 200000) (c : Fin 64) :
    val_main_v4 (F := Ideal) x0 x2 (ix2 r c)
      = x0 (ix2 r (0 : Fin 2)) * x2 (ix2 (0 : Fin 2) c) + x0 (ix2 r (1 : Fin 2)) * x2 (ix2 (1 : Fin 2) c) := by
  rw [val_main_v4_apply, Fin.sum_univ_two]
  have l0 : lidx_main_v4 (ix2 r c) (0 : Fin 2) = ix2 r (0 : Fin 2) :=
    funext fun a => Fin.ext (by match a with | ⟨0, _⟩ => rfl | ⟨1, _⟩ => rfl)
  have l1 : lidx_main_v4 (ix2 r c) (1 : Fin 2) = ix2 r (1 : Fin 2) :=
    funext fun a => Fin.ext (by match a with | ⟨0, _⟩ => rfl | ⟨1, _⟩ => rfl)
  have r0 : ridx_main_v4 (ix2 r c) (0 : Fin 2) = ix2 (0 : Fin 2) c :=
    funext fun a => Fin.ext (by match a with | ⟨0, _⟩ => rfl | ⟨1, _⟩ => rfl)
  have r1 : ridx_main_v4 (ix2 r c) (1 : Fin 2) = ix2 (1 : Fin 2) c :=
    funext fun a => Fin.ext (by match a with | ⟨0, _⟩ => rfl | ⟨1, _⟩ => rfl)
  rw [l0, l1, r0, r1]

/-- LAYER 1: scaling before the rows are taken and after they are accumulated is the reference's per-edge scaling. -/
theorem layer1 (x : A2 200000 2) (w : A2 2 64) (b : A1 64) (E : IVec S2x600000 32) (dis : A1 200000)
    (nsrc dst : IVec S600000x1 32) (z : A2 200000 64)
    (hdis : dis = val_main_v17 (F := Ideal) E) (hnsrc : nsrc = val_main_v23 (F := Ideal) E)
    (hdst : dst = val_main_v44 (F := Ideal) E) (hz : z = val_main_v43 (F := Ideal)) :
    Cert.Bridge.fin (Host.scatterAdd (F := Ideal) (φ := .f32) Cert.KernelIdeal.scatter_S200000x64_S600000x1_S600000x64_1_0_0_1 z dst
        (Host.gather Cert.KernelIdeal.gather_S200000x64_S600000x1_S600000x64_1_0_n_n_0_1_164 (linVpu x w (col dis)) nsrc))
      (linVpu x w (col dis)) (col dis) (row64 b)
    = val_main_v54 (F := Ideal) x w b E := by
  funext i
  obtain ⟨r, c, rfl⟩ : ∃ (r : Fin 200000) (c : Fin 64), i = ix2 r c := ⟨i 0, i 1, eq_ix2 i⟩
  rw [fin_ix, ref54_ix]
  unfold finAt val_main_v45 Host.scatterAdd
  rw [Ideal.hostScatterAdd_def, Ideal.hostScatterAdd_def, col_ix, row64_ix, scK64_eq, scR64_eq]
  have hhp : ∀ (r : Fin 200000) (c : Fin 64),
      linVpu x w (col dis) (ix2 r c) = val_main_v4 (F := Ideal) x w (ix2 r c) * dis (ix1 r) := fun r c => by
    rw [linVpu_ix, xw4_ix]; unfold linVpuAt; rw [col_ix]
  have key := gcn_reassoc (N := 200000) (E := 600000) (C := 64) (by decide)
    wfS64 z (fun i => by rw [hz]; exact z43 i)
    dst nsrc (val_main_v30 (F := Ideal) E) (val_main_v37 (F := Ideal) E)
    (by rw [ref30_eq, hnsrc]) (fun e h => by rw [hdst] at h ⊢; exact ref37_wrap E e h)
    dis (fun r => by rw [hdis]; exact dis17_fin E r)
    (val_main_v4 (F := Ideal) x w) (linVpu x w (col dis)) hhp
    (Host.gather Cert.KernelIdeal.gather_S200000x64_S600000x1_S600000x64_1_0_n_n_0_1_164 (linVpu x w (col dis)) nsrc)
    (val_main_v42 (F := Ideal) x w E)
    (fun e c => by rw [gaK64_eq]; exact rowGather_apply (by decide) _ _ _ e c)
    (fun e c => by rw [ref42_ix, hdis, hnsrc])
    r c
  rw [← hdis, ← hdst, ← hz, key]

end Layer1

end Cert.Bridge.LayerAlg

end
-- ==== Proof.LayerAlg2.lean ====
/-
  Graph-convolution layer 2 (64 input features, 128 output features): the re-associated normalisation equals the
  per-edge normalisation.

  The reference computes, at node r and feature c,
      max (((0 + Σ_{e → r} (a·W)[g e, c] · (dis[g' e] · dis[gd e])) + (a·W)[r, c] · (dis[r] · dis[r])) + b[c]) 0,
  the sum over the update rows e whose destination dst[e] is r (an accumulation drops a row whose destination is out of
  range), g e and g' e the clamped wrapped source of edge e, gd e its clamped wrapped destination; a·W is the sum over the 64 features on both sides. The other side
  scales the transformed features before they are taken along the edges and once more after they are accumulated:
      max (dis[r] · ((0 + Σ_{e → r} hp[g e, c]) + hp[r, c]) + b[c]) 0,   hp[r, c] = (a·W)[r, c] · dis[r].
  They agree because dis[r] = (count + 1)^(-1/2) is a real number that is not negative (so it distributes over the sum
  on the extended reals, whatever the features are), and because every row that lands on r has dst[e] = r exactly: in
  range, hence not negative, hence equal to its wrapped form, hence gd e = r.
-/
import proofs.«117654_j30477087932519_2_alg».proof.Proof.LayerCommon

noncomputable section

open scoped BigOperators

namespace Cert.Bridge.LayerAlg

open Idealize.ShloMosaic Idealize.ShloMosaic.ValueIdx Cert.Bridge Cert.Bridge.LibScatter
open Cert.ReferenceIdeal Cert.ReferenceIdeal.Read

/-! ## Layer 2 (64 input features, 128 output features) -/

section Layer2

/-- The conditions on the dimension numbers, stated at the literal shapes. -/
theorem wfS128 : ScatterDims.WF ⟨2, ![200000, 128]⟩ ⟨2, ![600000, 1]⟩ ⟨2, ![600000, 128]⟩ [1] [0] [0] 1 :=
  Cert.KernelIdeal.Facts₀.scatter_S200000x128_S600000x1_S600000x128_1_0_0_1_wf
theorem wfG128 : GatherDims.WF ⟨2, ![200000, 128]⟩ ⟨2, ![600000, 1]⟩ ⟨2, ![600000, 128]⟩ [1] [0] [] [0] [] 1 ![1, 128] :=
  Cert.KernelIdeal.Facts₀.gather_S200000x128_S600000x1_S600000x128_1_0_n_n_0_1_1128_wf

/-- The accumulation of rows of 128 features, on both sides, is the general one. -/
theorem scK128_eq : Cert.KernelIdeal.scatter_S200000x128_S600000x1_S600000x128_1_0_0_1
    = rowScatterDims 200000 600000 128 wfS128 := rfl
theorem scR128_eq : Cert.ReferenceIdeal.scatter_S200000x128_S600000x1_S600000x128_1_0_0_1
    = rowScatterDims 200000 600000 128 wfS128 := rfl
/-- Taking rows of 128 features, on both sides, is the general one. -/
theorem gaK128_eq : Cert.KernelIdeal.gather_S200000x128_S600000x1_S600000x128_1_0_n_n_0_1_1128
    = rowGatherDims 200000 600000 128 wfG128 := rfl
theorem gaR128_eq : Cert.ReferenceIdeal.gather_S200000x128_S600000x1_S600000x128_1_0_n_n_0_1_1128
    = rowGatherDims 200000 600000 128 wfG128 := rfl

/-- The indices the reference's layout stages compose to. -/
theorem i98_99 (r : Fin 200000) (c : Fin 128) : idx_main_v98 (idx_main_v99 (ix2 r c)) = ix1 r :=
  funext fun a => Fin.ext (by match a with | ⟨0, _⟩ => rfl)
theorem i102_103 (r : Fin 200000) (c : Fin 128) : idx_main_v102 (idx_main_v103 (ix2 r c)) = ix1 c :=
  funext fun a => Fin.ext (by match a with | ⟨0, _⟩ => rfl)
theorem i91_92 (e : Fin 600000) (c : Fin 128) : idx_main_v91 (idx_main_v92 (ix2 e c)) = ix1 e :=
  funext fun a => Fin.ext (by match a with | ⟨0, _⟩ => rfl)
theorem i88 (e : Fin 600000) : idx_main_v88 (ix2 e (0 : Fin 1)) = ix1 e :=
  funext fun a => Fin.ext (by match a with | ⟨0, _⟩ => rfl)
theorem i95 (e : Fin 600000) : idx_main_v95 (ix2 e (0 : Fin 1)) = ix1 e :=
  funext fun a => Fin.ext (by match a with | ⟨0, _⟩ => rfl)

/-- The reference's layer-2 output at (r, c), down to the accumulation, the product and the normalisation. -/
theorem ref105_ix (x0 : A2 200000 2) (x2 : A2 2 64) (x3 : A1 64) (x4 : A2 64 128) (x5 : A1 128) (E : IVec S2x600000 32)
    (r : Fin 200000) (c : Fin 128) :
    val_main_v105 (F := Ideal) x0 x2 x3 x4 x5 E (ix2 r c)
      = max ((val_main_v96 (F := Ideal) x0 x2 x3 x4 E (ix2 r c)
          + val_main_v55 (F := Ideal) x0 x2 x3 x4 E (ix2 r c) * (val_main_v68 (F := Ideal) E (ix1 r) * val_main_v68 (F := Ideal) E (ix1 r)))
          + x5 (ix1 c)) 0 := by
  rw [val_main_v105_apply, val_main_v104_apply, val_main_v101_apply, val_main_v100_apply, val_main_v99_apply,
    val_main_v98_apply, val_main_v97_apply, val_main_v103_apply, val_main_v102_apply, val_main_call1_v0_apply,
    val_main_call1_cst_apply, i98_99, i102_103]
  simp only [Ideal.maximumf_def, Ideal.addf_def, Ideal.mulf_def, Ideal.ofBits_def, Ideal.ofBits_zero_f32]

/-- The reference's per-edge messages at (e, c). -/
theorem ref93_ix (x0 : A2 200000 2) (x2 : A2 2 64) (x3 : A1 64) (x4 : A2 64 128) (E : IVec S2x600000 32) (e : Fin 600000)
    (c : Fin 128) :
    val_main_v93 (F := Ideal) x0 x2 x3 x4 E (ix2 e c)
      = val_main_v55 (F := Ideal) x0 x2 x3 x4 E (ix2 (clampIdx 200000 (by decide) (val_main_v74 (F := Ideal) E (ix2 e (0 : Fin 1)))) c)
        * (val_main_v68 (F := Ideal) E (ix1 (clampIdx 200000 (by decide) (val_main_v81 (F := Ideal) E (ix2 e (0 : Fin 1)))))
          * val_main_v68 (F := Ideal) E (ix1 (clampIdx 200000 (by decide) (val_main_v88 (F := Ideal) E (ix2 e (0 : Fin 1)))))) := by
  rw [val_main_v93_apply, val_main_v92_apply, val_main_v91_apply, val_main_v90_apply, i91_92]
  unfold val_main_v75 val_main_v82 val_main_v89
  rw [gaR128_eq, gaR1_eq, rowGather_apply (by decide), vecGather_apply (by decide), vecGather_apply (by decide)]
  rfl

/-- A destination that is not negative is its own wrapped form. -/
theorem ref88_wrap (E : IVec S2x600000 32) (e : Fin 600000)
    (h : 0 ≤ (val_main_v95 (F := Ideal) E (ix2 e (0 : Fin 1))).toInt) :
    val_main_v88 (F := Ideal) E (ix2 e (0 : Fin 1)) = val_main_v95 (F := Ideal) E (ix2 e (0 : Fin 1)) := by
  rw [val_main_v95_apply, i95] at h ⊢
  rw [val_main_v88_apply, val_main_v87_apply, val_main_v84_apply, val_main_v83_apply, val_main_c_21_apply, i88]
  exact wrap_of_nonneg _ _ h

/-- The two wrapped copies of the sources are one array. -/
theorem ref81_eq (E : IVec S2x600000 32) : val_main_v81 (F := Ideal) E = val_main_v74 (F := Ideal) E := by
  unfold val_main_v81 val_main_v80 val_main_v77 val_main_v79 val_main_v76 val_main_v78 val_main_c_19 val_main_c_20
    val_main_v74 val_main_v73 val_main_v70 val_main_v72 val_main_v69 val_main_v71 val_main_c_17 val_main_c_18
  rfl

/-- The normalisation (count + 1)^(-1/2) is a real number that is not negative, at every node. -/
theorem dis68_fin (E : IVec S2x600000 32) (r : Fin 200000) :
    0 ≤ val_main_v68 (F := Ideal) E (ix1 r) ∧ val_main_v68 (F := Ideal) E (ix1 r) ≠ ⊤ := by
  have h12 : ∀ j, val_main_v63 (F := Ideal) j = 1 := fun j => by
    rw [val_main_v63_apply, val_main_cst_14_apply, Ideal.ofBits_def, Ideal.ofBits_one_f32]
  have h13 : ∃ n : ℕ, val_main_v64 (F := Ideal) E (ix1 r) = (n : EReal) := by
    unfold val_main_v64 Host.scatterAdd
    rw [Ideal.hostScatterAdd_def]
    unfold Ideal.hostScatterAdd
    rw [val_main_v56_apply, val_main_cst_11_apply, Ideal.ofBits_def, Ideal.ofBits_zero_f32]
    simp only [h12]
    exact ⟨_, zero_add_sum_one _⟩
  obtain ⟨n, hn⟩ := h13
  rw [val_main_v68_apply, val_main_v66_apply, val_main_v65_apply, val_main_cst_15_apply, val_main_v67_apply,
    val_main_cst_16_apply, hn]
  simp only [Ideal.hostPowf_def, Ideal.addf_def, Ideal.ofBits_def, Ideal.ofBits_one_f32, ofBits_neg_half_f32]
  exact pow_natCast_add_one _ _

/-- The accumulator's initial array is zero. -/
theorem z94 (i : S200000x128.Idx) : val_main_v94 (F := Ideal) i = 0 := by
  rw [val_main_v94_apply, val_main_cst_23_apply, Ideal.ofBits_def, Ideal.ofBits_zero_f32]

/-- The product of layer 1's 64 features with the weights, as the sum over the features. -/
theorem xw55_ix (x0 : A2 200000 2) (x2 : A2 2 64) (x3 : A1 64) (x4 : A2 64 128) (E : IVec S2x600000 32) (r : Fin 200000)
    (c : Fin 128) :
    val_main_v55 (F := Ideal) x0 x2 x3 x4 E (ix2 r c)
      = ∑ k : Fin 64, val_main_v54 (F := Ideal) x0 x2 x3 E (ix2 r k) * x4 (ix2 k c) := by
  rw [val_main_v55_apply]
  refine Finset.sum_congr rfl fun k _ => ?_
  have l : lidx_main_v55 (ix2 r c) k = ix2 r k :=
    funext fun a => Fin.ext (by match a with | ⟨0, _⟩ => rfl | ⟨1, _⟩ => rfl)
  have rr : ridx_main_v55 (ix2 r c) k = ix2 k c :=
    funext fun a => Fin.ext (by match a with | ⟨0, _⟩ => rfl | ⟨1, _⟩ => rfl)
  rw [l, rr]

/-- LAYER 2: scaling before the rows are taken and after they are accumulated is the reference's per-edge scaling. -/
theorem layer2 (x0 : A2 200000 2) (x2 : A2 2 64) (x3 : A1 64) (w : A2 64 128) (b : A1 128) (E : IVec S2x600000 32)
    (h : A2 200000 64) (hh : h = val_main_v54 (F := Ideal) x0 x2 x3 E) (dis : A1 200000)
    (nsrc dst : IVec S600000x1 32) (z : A2 200000 128)
    (hdis : dis = val_main_v68 (F := Ideal) E) (hnsrc : nsrc = val_main_v74 (F := Ideal) E)
    (hdst : dst = val_main_v95 (F := Ideal) E) (hz : z = val_main_v94 (F := Ideal)) :
    Cert.Bridge.fin (Host.scatterAdd (F := Ideal) (φ := .f32) Cert.KernelIdeal.scatter_S200000x128_S600000x1_S600000x128_1_0_0_1 z dst
        (Host.gather Cert.KernelIdeal.gather_S200000x128_S600000x1_S600000x128_1_0_n_n_0_1_1128 (linMxu h w (col dis)) nsrc))
      (linMxu h w (col dis)) (col dis) (row128 b)
    = val_main_v105 (F := Ideal) x0 x2 x3 w b E := by
  funext i
  obtain ⟨r, c, rfl⟩ : ∃ (r : Fin 200000) (c : Fin 128), i = ix2 r c := ⟨i 0, i 1, eq_ix2 i⟩
  rw [fin_ix, ref105_ix]
  unfold finAt val_main_v96 Host.scatterAdd
  rw [Ideal.hostScatterAdd_def, Ideal.hostScatterAdd_def, col_ix, row128_ix, scK128_eq, scR128_eq]
  have hhp : ∀ (r : Fin 200000) (c : Fin 128),
      linMxu h w (col dis) (ix2 r c) = val_main_v55 (F := Ideal) x0 x2 x3 w E (ix2 r c) * dis (ix1 r) := fun r c => by
    rw [linMxu_ix, xw55_ix]; unfold linMxuAt; rw [col_ix, hh]
  have key := gcn_reassoc (N := 200000) (E := 600000) (C := 128) (by decide)
    wfS128 z (fun i => by rw [hz]; exact z94 i)
    dst nsrc (val_main_v81 (F := Ideal) E) (val_main_v88 (F := Ideal) E)
    (by rw [ref81_eq, hnsrc]) (fun e h => by rw [hdst] at h ⊢; exact ref88_wrap E e h)
    dis (fun r => by rw [hdis]; exact dis68_fin E r)
    (val_main_v55 (F := Ideal) x0 x2 x3 w E) (linMxu h w (col dis)) hhp
    (Host.gather Cert.KernelIdeal.gather_S200000x128_S600000x1_S600000x128_1_0_n_n_0_1_1128 (linMxu h w (col dis)) nsrc)
    (val_main_v93 (F := Ideal) x0 x2 x3 w E)
    (fun e c => by rw [gaK128_eq]; exact rowGather_apply (by decide) _ _ _ e c)
    (fun e c => by rw [ref93_ix, hdis, hnsrc])
    r c
  rw [← hdis, ← hdst, ← hz, key]

end Layer2

end Cert.Bridge.LayerAlg

end
-- ==== Proof.FeatMlp.lean ====
/-
  The feature branch of the network: a two-layer perceptron with a frozen batch normalisation between the layers.

  For a graph `g` with feature row `feat[g, ·]` the hidden unit `k` is
    `h[g, k] = max (((Σ_j feat[g, j] · W1[j, k] + b1[k]) − rm[k]) · rsqrt (rv[k] + ε) · γ[k] + β[k]) 0`
  (the first linear layer, the normalisation by the running mean `rm` and variance `rv` with scale `γ` and shift `β`,
  the clamp at zero), and the output is the second linear layer
    `xf[g, c] = Σ_k h[g, k] · W2[k, c] + b2[c]`.
  The vectors `b1, γ, β, rm, rv, b2` are carried as rows `[1, n]`. `ε` is one 32-bit float literal, kept as its word;
  `rsqrt` is the one reciprocal square root of the extended reals. Over the extended reals a change of float format is
  the identity and a matrix product into a zero accumulator is the plain sum of products, so the dense kernel that
  computes this in one step, and the chain of whole-array host operations that computes it in the reference, are both
  this function, index by index; no algebraic law is needed beyond reading each operation at an index.
-/
import proofs.«117654_j30477087932519_2_alg».proof.Proof.Gen.KernelIdeal.Frame
import proofs.«117654_j30477087932519_2_alg».proof.Proof.Gen.ReferenceIdeal.Read
import proofs.«117654_j30477087932519_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.FeatMlp

open Idealize.ShloMosaic Idealize.ShloMosaic.ValueIdx
open Cert.KernelIdeal Cert.KernelIdeal.Gen

/-! ## The function -/

/-- Hidden unit `k` of graph `g`: first linear layer, normalisation, clamp at zero. -/
def hidAt (x0 : A2 512 8) (x1 : A2 8 256) (x2 x3 x4 x5 x6 : A2 1 256) (g : Fin 512) (k : Fin 256) : EReal :=
  max ((((∑ j : Fin 8, x0 (ix2 g j) * x1 (ix2 j k)) + x2 (ix2 (0 : Fin 1) k)) - x5 (ix2 (0 : Fin 1) k))
        * Ideal.rsqrt (x6 (ix2 (0 : Fin 1) k) + Ideal.ofBits .f32 0x3727C5AC#32)
        * x3 (ix2 (0 : Fin 1) k) + x4 (ix2 (0 : Fin 1) k)) 0

/-- Output feature `c` of graph `g`: the second linear layer over the hidden units. -/
def XFAt (x0 : A2 512 8) (x1 : A2 8 256) (x2 x3 x4 x5 x6 : A2 1 256) (x7 : A2 256 128) (x8 : A2 1 128)
    (g : Fin 512) (c : Fin 128) : EReal :=
  (∑ k : Fin 256, hidAt x0 x1 x2 x3 x4 x5 x6 g k * x7 (ix2 k c)) + x8 (ix2 (0 : Fin 1) c)

/-- The perceptron as a whole array; the arguments are the features, `W1`, and the rows `b1`, `γ`, `β`, `rm`, `rv`,
    then `W2` and the row `b2`. -/
def XF (x0 : A2 512 8) (x1 : A2 8 256) (x2 x3 x4 x5 x6 : A2 1 256) (x7 : A2 256 128) (x8 : A2 1 128) : A2 512 128 :=
  fun i => XFAt x0 x1 x2 x3 x4 x5 x6 x7 x8 (i 0) (i 1)

theorem XF_ix (x0 : A2 512 8) (x1 : A2 8 256) (x2 x3 x4 x5 x6 : A2 1 256) (x7 : A2 256 128) (x8 : A2 1 128)
    (g : Fin 512) (c : Fin 128) : XF x0 x1 x2 x3 x4 x5 x6 x7 x8 (ix2 g c) = XFAt x0 x1 x2 x3 x4 x5 x6 x7 x8 g c := rfl

/-! ## The kernel's body -/

theorem hz2 : (![0, 0] : Fin 2 → Nat) = fun _ => 0 := funext fun a => by fin_cases a <;> rfl

/-- A vector reciprocal square root at an index. -/
theorem rsqrt_apply {s : Shape} {φ : FTy} (a : FVec Ideal s φ) (i : s.Idx) : rsqrt a i = Ideal.rsqrt (a i) := rfl

/-! The operand indices of the two matrix products: at output index `(r, c)` and contraction coordinate `k` the left
    operand is read at `(r, k)` and the right at `(k, c)`. -/

theorem mm1_lhs0 (i : S512x256.Idx) (q : dot_S512x8_S8x256_S512x256_1_0_0_1_n_n.contr.Idx) : (dot_S512x8_S8x256_S512x256_1_0_0_1_n_n.lhsIdx i q 0).val = (i 0).val := by
  unfold DotDims.lhsIdx
  rw [dif_neg (show ¬(0 : Fin S512x8.rank) ∈ dot_S512x8_S8x256_S512x256_1_0_0_1_n_n.lhsBatch by decide), dif_pos (show (0 : Fin S512x8.rank) ∈ dot_S512x8_S8x256_S512x256_1_0_0_1_n_n.lhsNonContracting by decide)]
  rfl
theorem mm1_lhs1 (i : S512x256.Idx) (q : dot_S512x8_S8x256_S512x256_1_0_0_1_n_n.contr.Idx) : (dot_S512x8_S8x256_S512x256_1_0_0_1_n_n.lhsIdx i q 1).val = (q ⟨0, by decide⟩).val :=
  dot_S512x8_S8x256_S512x256_1_0_0_1_n_n.lhsIdx_val_of_single rfl i q
theorem mm1_rhs0 (i : S512x256.Idx) (q : dot_S512x8_S8x256_S512x256_1_0_0_1_n_n.contr.Idx) : (dot_S512x8_S8x256_S512x256_1_0_0_1_n_n.rhsIdx i q 0).val = (q ⟨0, by decide⟩).val :=
  dot_S512x8_S8x256_S512x256_1_0_0_1_n_n.rhsIdx_val_of_single rfl i q
theorem mm1_rhs1 (i : S512x256.Idx) (q : dot_S512x8_S8x256_S512x256_1_0_0_1_n_n.contr.Idx) : (dot_S512x8_S8x256_S512x256_1_0_0_1_n_n.rhsIdx i q 1).val = (i 1).val := by
  unfold DotDims.rhsIdx
  rw [dif_neg (show ¬(1 : Fin S8x256.rank) ∈ dot_S512x8_S8x256_S512x256_1_0_0_1_n_n.rhsBatch by decide), dif_pos (show (1 : Fin S8x256.rank) ∈ dot_S512x8_S8x256_S512x256_1_0_0_1_n_n.rhsNonContracting by decide)]
  rfl
theorem mm2_lhs0 (i : S512x128.Idx) (q : dot_S512x256_S256x128_S512x128_1_0_0_1_n_n.contr.Idx) : (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem mm2_lhs1 (i : S512x128.Idx) (q : dot_S512x256_S256x128_S512x128_1_0_0_1_n_n.contr.Idx) : (dot_S512x256_S256x128_S512x128_1_0_0_1_n_n.lhsIdx i q 1).val = (q ⟨0, by decide⟩).val :=
  dot_S512x256_S256x128_S512x128_1_0_0_1_n_n.lhsIdx_val_of_single rfl i q
theorem mm2_rhs0 (i : S512x128.Idx) (q : dot_S512x256_S256x128_S512x128_1_0_0_1_n_n.contr.Idx) : (dot_S512x256_S256x128_S512x128_1_0_0_1_n_n.rhsIdx i q 0).val = (q ⟨0, by decide⟩).val :=
  dot_S512x256_S256x128_S512x128_1_0_0_1_n_n.rhsIdx_val_of_single rfl i q
theorem mm2_rhs1 (i : S512x128.Idx) (q : dot_S512x256_S256x128_S512x128_1_0_0_1_n_n.contr.Idx) : (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The first matrix product at an index: row `g` of the left operand against column `k` of the right. -/
theorem mm1_at (a : FVec Ideal S512x8 .bf16) (b : FVec Ideal S8x256 .bf16) (g : Fin 512) (k : Fin 256) :
    matmul dot_S512x8_S8x256_S512x256_1_0_0_1_n_n none a b (constant S512x256 .f32 0x00000000#32) (ix2 g k)
      = ∑ j : Fin 8, a (ix2 g j) * b (ix2 j k) := by
  simp only [matmul]
  rw [Ideal.matmul_constant_zero_apply, ← Equiv.sum_comp (contrEquiv1 dot_S512x8_S8x256_S512x256_1_0_0_1_n_n 8 rfl rfl).symm]
  refine Finset.sum_congr rfl fun j _ => ?_
  have hk := contrEquiv1_symm_val dot_S512x8_S8x256_S512x256_1_0_0_1_n_n 8 rfl rfl j
  have el : dot_S512x8_S8x256_S512x256_1_0_0_1_n_n.lhsIdx (ix2 g k) ((contrEquiv1 dot_S512x8_S8x256_S512x256_1_0_0_1_n_n 8 rfl rfl).symm j) = ix2 g j :=
    funext fun a => Fin.ext (by
      match a with
      | ⟨0, _⟩ => exact mm1_lhs0 _ _
      | ⟨1, _⟩ => exact (mm1_lhs1 _ _).trans hk)
  have er : dot_S512x8_S8x256_S512x256_1_0_0_1_n_n.rhsIdx (ix2 g k) ((contrEquiv1 dot_S512x8_S8x256_S512x256_1_0_0_1_n_n 8 rfl rfl).symm j) = ix2 j k :=
    funext fun a => Fin.ext (by
      match a with
      | ⟨0, _⟩ => exact (mm1_rhs0 _ _).trans hk
      | ⟨1, _⟩ => exact mm1_rhs1 _ _)
  rw [el, er]

/-- The second matrix product at an index. -/
theorem mm2_at (a : FVec Ideal S512x256 .bf16) (b : FVec Ideal S256x128 .bf16) (g : Fin 512) (c : Fin 128) :
    matmul dot_S512x256_S256x128_S512x128_1_0_0_1_n_n none a b (constant S512x128 .f32 0x00000000#32) (ix2 g c)
      = ∑ k : Fin 256, a (ix2 g k) * b (ix2 k c) := by
  simp only [matmul]
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 g c) ((contrEquiv1 dot_S512x256_S256x128_S512x128_1_0_0_1_n_n 256 rfl rfl).symm k) = ix2 g k :=
    funext fun a => Fin.ext (by
      match a with
      | ⟨0, _⟩ => exact mm2_lhs0 _ _
      | ⟨1, _⟩ => exact (mm2_lhs1 _ _).trans hk)
  have er : dot_S512x256_S256x128_S512x128_1_0_0_1_n_n.rhsIdx (ix2 g c) ((contrEquiv1 dot_S512x256_S256x128_S512x128_1_0_0_1_n_n 256 rfl rfl).symm k) = ix2 k c :=
    funext fun a => Fin.ext (by
      match a with
      | ⟨0, _⟩ => exact (mm2_rhs0 _ _).trans hk
      | ⟨1, _⟩ => exact mm2_rhs1 _ _)
  rw [el, er]

/-- The output bias row, broadcast over the graphs, at an index. -/
theorem pay3_at (v34 : A2 1 128) (g : Fin 512) (c : Fin 128) :
    k4_pay3 (F := Ideal) v34 (ix2 g c) = v34 (ix2 (0 : Fin 1) c) := by
  unfold k4_pay3
  rw [broadcastTo_1b_ab_apply, shapeCast_self]

/-- The second product over the clamped, normalised first layer, at an index. -/
theorem pay2_at (v0 : A2 512 8) (v2 : A2 8 256) (v5 v9 v13 v20 v24 : A2 1 256) (v31 : A2 256 128) (g : Fin 512) (c : Fin 128) :
    k4_pay2 (F := Ideal) v0 v2 v5 v9 v13 v20 v24 v31 (ix2 g c)
      = ∑ k : Fin 256, hidAt v0 v2 v5 v20 v24 v9 v13 g k * v31 (ix2 k c) := by
  unfold k4_pay2
  rw [mm2_at]
  refine Finset.sum_congr rfl fun k _ => ?_
  simp only [truncf_apply, maximumf_apply, addf_apply, mulf_apply, subf_apply, broadcast_apply, rsqrt_apply, mm1_at,
    broadcastTo_1b_ab_apply, shapeCast_self, Ideal.ofBits_def, Ideal.ofBits_zero_f32]
  rfl

/-- The body's one store holds the perceptron of its loaded blocks. -/
theorem out4_eq (x0 : A2 512 8) (x1 : A2 8 256) (x2 x3 x4 x5 x6 : A2 1 256) (x7 : A2 256 128) (x8 : A2 1 128) :
    out4_9 (F := Ideal) x0 x1 x2 x3 x4 x5 x6 x7 x8 = XF x0 x1 x2 x3 x4 x5 x6 x7 x8 := by
  unfold out4_9
  rw [View.canon_unit_zero hz2]
  simp only [View.ld_unit_zero (S := S512x8) hz2, View.ld_unit_zero (S := S8x256) hz2, View.ld_unit_zero (S := S1x256) hz2,
    View.ld_unit_zero (S := S256x128) hz2, View.ld_unit_zero (S := S1x128) hz2]
  funext i
  obtain ⟨g, c, rfl⟩ : ∃ (g : Fin 512) (c : Fin 128), i = ix2 g c := ⟨i 0, i 1, eq_ix2 i⟩
  rw [XF_ix]
  unfold k4_pay1
  rw [addf_apply, pay2_at, pay3_at]
  rfl

/-! ## The region's output array

  The grid has one point and every window's block is its whole array (block index zero on both axes), so each input
  block is the array the region finds, and the one write-back fills the output array. -/

section
open Idealize.ShloMosaic.TcCoe Idealize.SL.Sem
open Idealize.ShloMosaic.Pipeline (Dat Cfg Window)

variable (V : (c : Dev nD) → (b : Ref sig .tc) → Buf (Elt Ideal) ((c : Thread nD τ).loc b))

/-! Each input window's block, read off its array at the one grid point, is the whole array: an element's coordinate
    in the array is the block index (zero) times the block's size plus its coordinate in the block. -/

theorem iblk4_0 (c : Dev nD) (t : Fin cfg4.N) :
    (iblk4 (F := Ideal) V c 0 t : A2 512 8) = (V c (Pipeline.arrRef spec4 0) : A2 512 8) := by
  unfold iblk4
  funext y
  show (V c (Pipeline.arrRef spec4 0) : A2 512 8) (((cfg4.win 0).blk t).view.emb y) = (V c (Pipeline.arrRef spec4 0) : A2 512 8) y
  refine congrArg (V c (Pipeline.arrRef spec4 0) : A2 512 8) ?_
  funext a; apply Fin.ext
  match a with
  | ⟨0, _⟩ => show win4_0.index t (0 : Fin 2) * 512 + 1 * (y 0).val = (y 0).val; show 0 * 512 + 1 * (y 0).val = (y 0).val; omega
  | ⟨1, _⟩ => show win4_0.index t (1 : Fin 2) * 8 + 1 * (y 1).val = (y 1).val; show 0 * 8 + 1 * (y 1).val = (y 1).val; omega

theorem iblk4_1 (c : Dev nD) (t : Fin cfg4.N) :
    (iblk4 (F := Ideal) V c 1 t : A2 8 256) = (V c (Pipeline.arrRef spec4 1) : A2 8 256) := by
  unfold iblk4
  funext y
  show (V c (Pipeline.arrRef spec4 1) : A2 8 256) (((cfg4.win 1).blk t).view.emb y) = (V c (Pipeline.arrRef spec4 1) : A2 8 256) y
  refine congrArg (V c (Pipeline.arrRef spec4 1) : A2 8 256) ?_
  funext a; apply Fin.ext
  match a with
  | ⟨0, _⟩ => show win4_1.index t (0 : Fin 2) * 8 + 1 * (y 0).val = (y 0).val; show 0 * 8 + 1 * (y 0).val = (y 0).val; omega
  | ⟨1, _⟩ => show win4_1.index t (1 : Fin 2) * 256 + 1 * (y 1).val = (y 1).val; show 0 * 256 + 1 * (y 1).val = (y 1).val; omega

theorem iblk4_2 (c : Dev nD) (t : Fin cfg4.N) :
    (iblk4 (F := Ideal) V c 2 t : A2 1 256) = (V c (Pipeline.arrRef spec4 2) : A2 1 256) := by
  unfold iblk4
  funext y
  show (V c (Pipeline.arrRef spec4 2) : A2 1 256) (((cfg4.win 2).blk t).view.emb y) = (V c (Pipeline.arrRef spec4 2) : A2 1 256) y
  refine congrArg (V c (Pipeline.arrRef spec4 2) : A2 1 256) ?_
  funext a; apply Fin.ext
  match a with
  | ⟨0, _⟩ => show win4_2.index t (0 : Fin 2) * 1 + 1 * (y 0).val = (y 0).val; show 0 * 1 + 1 * (y 0).val = (y 0).val; omega
  | ⟨1, _⟩ => show win4_2.index t (1 : Fin 2) * 256 + 1 * (y 1).val = (y 1).val; show 0 * 256 + 1 * (y 1).val = (y 1).val; omega

theorem iblk4_3 (c : Dev nD) (t : Fin cfg4.N) :
    (iblk4 (F := Ideal) V c 3 t : A2 1 256) = (V c (Pipeline.arrRef spec4 3) : A2 1 256) := by
  unfold iblk4
  funext y
  show (V c (Pipeline.arrRef spec4 3) : A2 1 256) (((cfg4.win 3).blk t).view.emb y) = (V c (Pipeline.arrRef spec4 3) : A2 1 256) y
  refine congrArg (V c (Pipeline.arrRef spec4 3) : A2 1 256) ?_
  funext a; apply Fin.ext
  match a with
  | ⟨0, _⟩ => show win4_3.index t (0 : Fin 2) * 1 + 1 * (y 0).val = (y 0).val; show 0 * 1 + 1 * (y 0).val = (y 0).val; omega
  | ⟨1, _⟩ => show win4_3.index t (1 : Fin 2) * 256 + 1 * (y 1).val = (y 1).val; show 0 * 256 + 1 * (y 1).val = (y 1).val; omega

theorem iblk4_4 (c : Dev nD) (t : Fin cfg4.N) :
    (iblk4 (F := Ideal) V c 4 t : A2 1 256) = (V c (Pipeline.arrRef spec4 4) : A2 1 256) := by
  unfold iblk4
  funext y
  show (V c (Pipeline.arrRef spec4 4) : A2 1 256) (((cfg4.win 4).blk t).view.emb y) = (V c (Pipeline.arrRef spec4 4) : A2 1 256) y
  refine congrArg (V c (Pipeline.arrRef spec4 4) : A2 1 256) ?_
  funext a; apply Fin.ext
  match a with
  | ⟨0, _⟩ => show win4_4.index t (0 : Fin 2) * 1 + 1 * (y 0).val = (y 0).val; show 0 * 1 + 1 * (y 0).val = (y 0).val; omega
  | ⟨1, _⟩ => show win4_4.index t (1 : Fin 2) * 256 + 1 * (y 1).val = (y 1).val; show 0 * 256 + 1 * (y 1).val = (y 1).val; omega

theorem iblk4_5 (c : Dev nD) (t : Fin cfg4.N) :
    (iblk4 (F := Ideal) V c 5 t : A2 1 256) = (V c (Pipeline.arrRef spec4 5) : A2 1 256) := by
  unfold iblk4
  funext y
  show (V c (Pipeline.arrRef spec4 5) : A2 1 256) (((cfg4.win 5).blk t).view.emb y) = (V c (Pipeline.arrRef spec4 5) : A2 1 256) y
  refine congrArg (V c (Pipeline.arrRef spec4 5) : A2 1 256) ?_
  funext a; apply Fin.ext
  match a with
  | ⟨0, _⟩ => show win4_5.index t (0 : Fin 2) * 1 + 1 * (y 0).val = (y 0).val; show 0 * 1 + 1 * (y 0).val = (y 0).val; omega
  | ⟨1, _⟩ => show win4_5.index t (1 : Fin 2) * 256 + 1 * (y 1).val = (y 1).val; show 0 * 256 + 1 * (y 1).val = (y 1).val; omega

theorem iblk4_6 (c : Dev nD) (t : Fin cfg4.N) :
    (iblk4 (F := Ideal) V c 6 t : A2 1 256) = (V c (Pipeline.arrRef spec4 6) : A2 1 256) := by
  unfold iblk4
  funext y
  show (V c (Pipeline.arrRef spec4 6) : A2 1 256) (((cfg4.win 6).blk t).view.emb y) = (V c (Pipeline.arrRef spec4 6) : A2 1 256) y
  refine congrArg (V c (Pipeline.arrRef spec4 6) : A2 1 256) ?_
  funext a; apply Fin.ext
  match a with
  | ⟨0, _⟩ => show win4_6.index t (0 : Fin 2) * 1 + 1 * (y 0).val = (y 0).val; show 0 * 1 + 1 * (y 0).val = (y 0).val; omega
  | ⟨1, _⟩ => show win4_6.index t (1 : Fin 2) * 256 + 1 * (y 1).val = (y 1).val; show 0 * 256 + 1 * (y 1).val = (y 1).val; omega

theorem iblk4_7 (c : Dev nD) (t : Fin cfg4.N) :
    (iblk4 (F := Ideal) V c 7 t : A2 256 128) = (V c (Pipeline.arrRef spec4 7) : A2 256 128) := by
  unfold iblk4
  funext y
  show (V c (Pipeline.arrRef spec4 7) : A2 256 128) (((cfg4.win 7).blk t).view.emb y) = (V c (Pipeline.arrRef spec4 7) : A2 256 128) y
  refine congrArg (V c (Pipeline.arrRef spec4 7) : A2 256 128) ?_
  funext a; apply Fin.ext
  match a with
  | ⟨0, _⟩ => show win4_7.index t (0 : Fin 2) * 256 + 1 * (y 0).val = (y 0).val; show 0 * 256 + 1 * (y 0).val = (y 0).val; omega
  | ⟨1, _⟩ => show win4_7.index t (1 : Fin 2) * 128 + 1 * (y 1).val = (y 1).val; show 0 * 128 + 1 * (y 1).val = (y 1).val; omega

theorem iblk4_8 (c : Dev nD) (t : Fin cfg4.N) :
    (iblk4 (F := Ideal) V c 8 t : A2 1 128) = (V c (Pipeline.arrRef spec4 8) : A2 1 128) := by
  unfold iblk4
  funext y
  show (V c (Pipeline.arrRef spec4 8) : A2 1 128) (((cfg4.win 8).blk t).view.emb y) = (V c (Pipeline.arrRef spec4 8) : A2 1 128) y
  refine congrArg (V c (Pipeline.arrRef spec4 8) : A2 1 128) ?_
  funext a; apply Fin.ext
  match a with
  | ⟨0, _⟩ => show win4_8.index t (0 : Fin 2) * 1 + 1 * (y 0).val = (y 0).val; show 0 * 1 + 1 * (y 0).val = (y 0).val; omega
  | ⟨1, _⟩ => show win4_8.index t (1 : Fin 2) * 128 + 1 * (y 1).val = (y 1).val; show 0 * 128 + 1 * (y 1).val = (y 1).val; omega

/-- The output window's block, cut from a whole-array function, is that function read through the block. -/
theorem cut_eq_read (X : A2 512 128) (t : Fin cfg4.N) :
    (cfg4.win 9).cut (grid4.coords t) X = ((cfg4.win 9).blk t).view.read (Elt Ideal) X := by
  funext j
  show X ((cfg4.win 9).xinj (grid4.coords t) j) = X (((cfg4.win 9).blk t).view.emb j)
  refine congrArg X ?_
  funext a; apply Fin.ext
  match a with
  | ⟨0, _⟩ => show (j 0).val = win4_9.index t (0 : Fin 2) * 512 + 1 * (j 0).val; show (j 0).val = 0 * 512 + 1 * (j 0).val; omega
  | ⟨1, _⟩ => show (j 1).val = win4_9.index t (1 : Fin 2) * 128 + 1 * (j 1).val; show (j 1).val = 0 * 128 + 1 * (j 1).val; omega

/-- An index of the output array is in a point's block iff each coordinate is in the block's range on its axis. -/
theorem mem_blk9 (t : Fin cfg4.N) (i : S512x128.Idx) :
    i ∈ ((cfg4.win 9).blk t).view.set ↔ ∀ a : Fin 2, win4_9.index t a * S512x128.size a ≤ (i a).val ∧ (i a).val < win4_9.index t a * S512x128.size a + S512x128.size a := by
  show i ∈ ((View.whole main_v63).slice (win4_9.rect t)).set ↔ _
  rw [View.set_slice_whole, Rect.mem_set_unit]
  exact Iff.rfl

/-- The output array after the region, from the arrays the input blocks are: the one write-back covers the array. -/
theorem final4_of (c : Dev nD) (a0 : A2 512 8) (a1 : A2 8 256) (a2 a3 a4 a5 a6 : A2 1 256) (a7 : A2 256 128) (a8 : A2 1 128)
    (h0 : ∀ t, (iblk4 (F := Ideal) V c 0 t : A2 512 8) = a0)
    (h1 : ∀ t, (iblk4 (F := Ideal) V c 1 t : A2 8 256) = a1)
    (h2 : ∀ t, (iblk4 (F := Ideal) V c 2 t : A2 1 256) = a2)
    (h3 : ∀ t, (iblk4 (F := Ideal) V c 3 t : A2 1 256) = a3)
    (h4 : ∀ t, (iblk4 (F := Ideal) V c 4 t : A2 1 256) = a4)
    (h5 : ∀ t, (iblk4 (F := Ideal) V c 5 t : A2 1 256) = a5)
    (h6 : ∀ t, (iblk4 (F := Ideal) V c 6 t : A2 1 256) = a6)
    (h7 : ∀ t, (iblk4 (F := Ideal) V c 7 t : A2 256 128) = a7)
    (h8 : ∀ t, (iblk4 (F := Ideal) V c 8 t : A2 1 128) = a8) :
    (dat4 (F := Ideal) V c).arrAt 9 cfg4.N = XF a0 a1 a2 a3 a4 a5 a6 a7 a8 := by
  refine (dat4 (F := Ideal) V c).arrAt_eq_of_cover 9 _ (fun t _ => ?_) (fun i => ⟨t4_0, flush4_9 t4_0, ?_⟩)
  · unfold Dat.flushed
    rw [after4_9, h0, h1, h2, h3, h4, h5, h6, h7, h8, out4_eq]
    exact cut_eq_read _ t
  · rw [mem_blk9]
    intro a
    match a with
    | ⟨0, _⟩ => show 0 * 512 ≤ (i 0).val ∧ (i 0).val < 0 * 512 + 512; have h : (i 0).val < 512 := (i 0).isLt; omega
    | ⟨1, _⟩ => show 0 * 128 ≤ (i 1).val ∧ (i 1).val < 0 * 128 + 128; have h : (i 1).val < 128 := (i 1).isLt; omega

/-- The output array after the region is the perceptron of the arrays the region finds. -/
theorem final4 (c : Dev nD) :
    (dat4 (F := Ideal) V c).arrAt 9 cfg4.N
      = XF (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) (V c (Pipeline.arrRef spec4 7)) (V c (Pipeline.arrRef spec4 8)) :=
  final4_of V c _ _ _ _ _ _ _ _ _ (iblk4_0 V c) (iblk4_1 V c) (iblk4_2 V c) (iblk4_3 V c) (iblk4_4 V c) (iblk4_5 V c)
    (iblk4_6 V c) (iblk4_7 V c) (iblk4_8 V c)

end

/-! ## The reference's host chain -/

section Reference
open Cert.ReferenceIdeal.Read

/-- A vector as a one-row matrix (`[256] → [1, 256]`), as the kernel program's host side reshapes it. -/
def row256 (x : A1 256) : A2 1 256 := shapeCast S1x256 x shapeCasts_S256_S1x256
/-- A vector as a one-row matrix (`[128] → [1, 128]`). -/
def row128 (x : A1 128) : A2 1 128 := shapeCast S1x128 x shapeCasts_S128_S1x128

theorem row256_at (x : A1 256) (k : Fin 256) : row256 x (ix2 (0 : Fin 1) k) = x (ix1 k) :=
  shapeCast_a_1a_apply x _ 0 k
theorem row128_at (x : A1 128) (c : Fin 128) : row128 x (ix2 (0 : Fin 1) c) = x (ix1 c) :=
  shapeCast_a_1a_apply x _ 0 c

/-- The reference's hidden layer at an index. -/
theorem ref_hid (x1 : A2 512 8) (x6 : A2 8 256) (x7 x8 x9 x10 x11 : A1 256) (g : Fin 512) (k : Fin 256) :
    val_main_v137 (F := Ideal) x1 x6 x7 x8 x9 x10 x11 (ix2 g k)
      = hidAt x1 x6 (row256 x7) (row256 x8) (row256 x9) (row256 x10) (row256 x11) g k := by
  have el : ∀ j : Fin 8, lidx_main_v118 (ix2 g k) j = ix2 g j := fun j => funext fun a => by
    match a with | ⟨0, _⟩ => rfl | ⟨1, _⟩ => rfl
  have er : ∀ j : Fin 8, ridx_main_v118 (ix2 g k) j = ix2 j k := fun j => funext fun a => by
    match a with | ⟨0, _⟩ => rfl | ⟨1, _⟩ => rfl
  have e7 : idx_main_v119 (idx_main_v120 (ix2 g k)) = ix1 k := funext fun a => by match a with | ⟨0, _⟩ => rfl
  have e10 : idx_main_v122 (idx_main_v123 (ix2 g k)) = ix1 k := funext fun a => by match a with | ⟨0, _⟩ => rfl
  have e11 : idx_main_v128 (idx_main_v129 (ix2 g k)) = ix1 k := funext fun a => by match a with | ⟨0, _⟩ => rfl
  have e8 : idx_main_v131 (idx_main_v132 (ix2 g k)) = ix1 k := funext fun a => by match a with | ⟨0, _⟩ => rfl
  have e9 : idx_main_v134 (idx_main_v135 (ix2 g k)) = ix1 k := funext fun a => by match a with | ⟨0, _⟩ => rfl
  rw [val_main_v137_apply, val_main_v136_apply, val_main_v133_apply, val_main_v130_apply, val_main_v124_apply,
    val_main_v121_apply, val_main_v118_apply, val_main_v120_apply, val_main_v119_apply, val_main_v123_apply,
    val_main_v122_apply, val_main_v129_apply, val_main_v128_apply, val_main_v127_apply, val_main_v126_apply,
    val_main_v125_apply, val_main_cst_28_apply, val_main_v132_apply, val_main_v131_apply, val_main_v135_apply,
    val_main_v134_apply, val_main_call2_v0_apply, val_main_call2_cst_apply]
  simp only [el, er, e7, e10, e11, e8, e9, Ideal.addf_def, Ideal.subf_def, Ideal.mulf_def, Ideal.maximumf_def,
    Ideal.hostUnary_rsqrt_def, Ideal.ofBits_def, Ideal.ofBits_zero_f32]
  unfold hidAt
  rw [row256_at, row256_at, row256_at, row256_at, row256_at]

/-- The reference's chain of host operations computes the perceptron, the vectors entering as rows. -/
theorem ref_xf (x1 : A2 512 8) (x6 : A2 8 256) (x7 x8 x9 x10 x11 : A1 256) (x12 : A2 256 128) (x13 : A1 128) :
    val_main_v141 (F := Ideal) x1 x6 x7 x8 x9 x10 x11 x12 x13
      = XF x1 x6 (row256 x7) (row256 x8) (row256 x9) (row256 x10) (row256 x11) x12 (row128 x13) := by
  funext i
  obtain ⟨g, c, rfl⟩ : ∃ (g : Fin 512) (c : Fin 128), i = ix2 g c := ⟨i 0, i 1, eq_ix2 i⟩
  have el : ∀ k : Fin 256, lidx_main_v138 (ix2 g c) k = ix2 g k := fun k => funext fun a => by
    match a with | ⟨0, _⟩ => rfl | ⟨1, _⟩ => rfl
  have er : ∀ k : Fin 256, ridx_main_v138 (ix2 g c) k = ix2 k c := fun k => funext fun a => by
    match a with | ⟨0, _⟩ => rfl | ⟨1, _⟩ => rfl
  have e13 : idx_main_v139 (idx_main_v140 (ix2 g c)) = ix1 c := funext fun a => by match a with | ⟨0, _⟩ => rfl
  rw [XF_ix, val_main_v141_apply, val_main_v138_apply, val_main_v140_apply, val_main_v139_apply]
  simp only [el, er, e13, ref_hid, Ideal.addf_def]
  unfold XFAt
  rw [row128_at]

end Reference

end Cert.Bridge.FeatMlp

end
-- ==== Proof.FusionSpec.lean ====
/-
  The fusion head of the graph network, as ONE function of whole arrays over the extended reals.

  Inputs: the per-graph feature sums `ps [512,128]`, the per-graph node counts `cnt [512,1]`, the per-graph
  side features `xf [512,128]`, and the weights of three dense layers with two normalisations between them.
    * the pooled mean:      `pooled[r,k] = ps[r,k] / max(cnt[r,0], 1)`;
    * the first layer acts on the row `[pooled[r,·], xf[r,·]]` of length 256 through `W1 [256,192]`; written with
      the sum over 256 cut at 128:
        `lin1[r,c] = Σ_{k<128} pooled[r,k]·W1[k,c] + Σ_{k<128} xf[r,k]·W1[128+k,c] + b1[c]`;
    * a normalisation with running statistics followed by the clamp at zero:
        `bnrelu h [c] = max ((h[c] − rm[c]) · rsqrt(rv[c] + ε) · γ[c] + β[c]) 0`;
    * a dense layer on a row `a`:  `lin a W b [c] = Σ_k a[k]·W[k,c] + b[c]`;
    * the result:  `OUT[r,0] = logistic (lin (bnrelu (lin (bnrelu lin1[r,·]) W2 b2)) W3 b3 [0])`.
  Vectors of parameters are carried as rows `[1,C]`. The constants ε, 1 and 0 are kept as the f32 words the two
  programs carry. Sums and products are the extended reals' own; the only law used between the two arrangements of
  the first layer is that a sum over 256 terms is the sum of its two halves (`sum_split`).
-/
import proofs.«117654_j30477087932519_2_alg».proof.Proof.Spec
import Idealize.ShloMosaic.PureOps.Ideal
import Idealize.ShloMosaic.Lib.ValueIdx

noncomputable section

open scoped BigOperators

namespace Cert.Bridge.Fusion

open Idealize.ShloMosaic Idealize.ShloMosaic.ValueIdx Cert.Bridge

/-- The normalisation's ε, as the f32 word both programs carry. -/
def eps : EReal := Ideal.ofBits .f32 0x3727C5AC#32
/-- 1.0 as the f32 word both programs carry: the floor under the counts. -/
def one : EReal := Ideal.ofBits .f32 0x3F800000#32
/-- 0.0 as the f32 word both programs carry: the clamp. -/
def zero : EReal := Ideal.ofBits .f32 0x00000000#32

/-- The word of 1.0 is the extended real 1. -/
theorem ofBits_one : Ideal.ofBits .f32 0x3F800000#32 = 1 := by
  simp [Ideal.ofBits, Ideal.ieee, -EReal.coe_mul]; norm_num

/-- Row `k` of the upper half of a 256-row matrix. -/
def lo (k : Fin 128) : Fin 256 := ⟨k.val, by omega⟩
/-- Row `128 + k` of a 256-row matrix: row `k` of its lower half. -/
def hi (k : Fin 128) : Fin 256 := ⟨128 + k.val, by omega⟩

/-- A sum over 256 terms is the sum over the first 128 plus the sum over the last 128. -/
theorem sum_split (f : Fin 256 → EReal) :
    ∑ k : Fin 256, f k = ∑ k : Fin 128, f (lo k) + ∑ k : Fin 128, f (hi k) :=
  Fin.sum_univ_add (M := EReal) (a := 128) (b := 128) f

/-- The pooled mean of graph `r`, feature `k`: the sum over the graph's nodes divided by their number, at least 1. -/
def pooled (ps : A2 512 128) (cnt : A2 512 1) (r : Fin 512) (k : Fin 128) : EReal :=
  Ideal.div (ps (ix2 r k)) (max (cnt (ix2 r (0 : Fin 1))) one)

/-- The first dense layer on the row `[pooled[r,·], xf[r,·]]`, the sum over its 256 entries cut at 128. -/
def lin1 (ps : A2 512 128) (cnt : A2 512 1) (xf : A2 512 128) (W1 : A2 256 192) (b1 : A2 1 192)
    (r : Fin 512) (c : Fin 192) : EReal :=
  (∑ k : Fin 128, pooled ps cnt r k * W1 (ix2 (lo k) c)) + (∑ k : Fin 128, xf (ix2 r k) * W1 (ix2 (hi k) c))
    + b1 (ix2 (0 : Fin 1) c)

/-- The normalisation with running statistics, then the clamp at zero, on a row `h`. -/
def bnrelu {C : Nat} (h : Fin C → EReal) (g be rm rv : A2 1 C) (c : Fin C) : EReal :=
  max ((h c - rm (ix2 (0 : Fin 1) c)) * Ideal.rsqrt (rv (ix2 (0 : Fin 1) c) + eps) * g (ix2 (0 : Fin 1) c)
    + be (ix2 (0 : Fin 1) c)) zero

/-- A dense layer on a row `a`. -/
def lin {K C : Nat} (a : Fin K → EReal) (W : A2 K C) (b : A2 1 C) (c : Fin C) : EReal :=
  (∑ k : Fin K, a k * W (ix2 k c)) + b (ix2 (0 : Fin 1) c)

/-- The first hidden row of graph `r`. -/
def hid1 (ps : A2 512 128) (cnt : A2 512 1) (xf : A2 512 128) (W1 : A2 256 192) (b1 g1 be1 rm1 rv1 : A2 1 192)
    (r : Fin 512) : Fin 192 → EReal :=
  bnrelu (lin1 ps cnt xf W1 b1 r) g1 be1 rm1 rv1

/-- The second hidden row of graph `r`. -/
def hid2 (ps : A2 512 128) (cnt : A2 512 1) (xf : A2 512 128) (W1 : A2 256 192) (b1 g1 be1 rm1 rv1 : A2 1 192)
    (W2 : A2 192 128) (b2 g2 be2 rm2 rv2 : A2 1 128) (r : Fin 512) : Fin 128 → EReal :=
  bnrelu (lin (hid1 ps cnt xf W1 b1 g1 be1 rm1 rv1 r) W2 b2) g2 be2 rm2 rv2

/-- The head's result, graph by graph: the arguments in the order the dense stage receives them. -/
def OUT (x0 : A2 512 128) (x1 : A2 512 1) (x2 : A2 512 128) (x3 : A2 256 192) (x4 x5 x6 x7 x8 : A2 1 192)
    (x9 : A2 192 128) (x10 x11 x12 x13 x14 : A2 1 128) (x15 : A2 128 1) (x16 : A2 1 1) : A2 512 1 :=
  fun i => Ideal.logistic (lin (hid2 x0 x1 x2 x3 x4 x5 x6 x7 x8 x9 x10 x11 x12 x13 x14 (i 0)) x15 x16 (0 : Fin 1))

theorem OUT_ix (x0 : A2 512 128) (x1 : A2 512 1) (x2 : A2 512 128) (x3 : A2 256 192) (x4 x5 x6 x7 x8 : A2 1 192)
    (x9 : A2 192 128) (x10 x11 x12 x13 x14 : A2 1 128) (x15 : A2 128 1) (x16 : A2 1 1) (r : Fin 512) (z : Fin 1) :
    OUT x0 x1 x2 x3 x4 x5 x6 x7 x8 x9 x10 x11 x12 x13 x14 x15 x16 (ix2 r z)
      = Ideal.logistic (lin (hid2 x0 x1 x2 x3 x4 x5 x6 x7 x8 x9 x10 x11 x12 x13 x14 r) x15 x16 (0 : Fin 1)) := rfl

end Cert.Bridge.Fusion

end
-- ==== Proof.FusionPay.lean ====
/-
  The dense stage's arithmetic, read at an index. The stage computes, from whole blocks, three values in turn:
  the first layer normalised and scaled (before its shift β1 is added), the third layer's products summed, and the
  logistic of that sum plus the last bias. Each is read here at a row `r` and a column: a product into a zero
  accumulator is the sum over the contracted axis of the products of the entries; a row `[1,C]` broadcast over the
  rows reads its entry at the column, a column `[R,1]` broadcast over the columns reads its entry at the row; the
  two halves of `W1` are its rows `k` and `128 + k`; changes of float format are the identity.
-/
import proofs.«117654_j30477087932519_2_alg».proof.Proof.Gen.KernelIdeal.Frame
import proofs.«117654_j30477087932519_2_alg».proof.Proof.FusionSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge.Fusion

open Idealize.ShloMosaic Idealize.ShloMosaic.ValueIdx Idealize.ShloMosaic.TcCoe Idealize.SL.Sem Cert.Bridge
open Cert.KernelIdeal Cert.KernelIdeal.Gen

/-! ## The three products at an index -/

theorem mmA_l0 (i : S512x192.Idx) (q : dot_S512x128_S128x192_S512x192_1_0_0_1_n_n.contr.Idx) :
    (dot_S512x128_S128x192_S512x192_1_0_0_1_n_n.lhsIdx i q 0).val = (i 0).val := by
  unfold DotDims.lhsIdx
  rw [dif_neg (show ¬(0 : Fin S512x128.rank) ∈ dot_S512x128_S128x192_S512x192_1_0_0_1_n_n.lhsBatch by decide), dif_pos (show (0 : Fin S512x128.rank) ∈ dot_S512x128_S128x192_S512x192_1_0_0_1_n_n.lhsNonContracting by decide)]
  rfl
theorem mmA_l1 (i : S512x192.Idx) (q : dot_S512x128_S128x192_S512x192_1_0_0_1_n_n.contr.Idx) :
    (dot_S512x128_S128x192_S512x192_1_0_0_1_n_n.lhsIdx i q 1).val = (q ⟨0, by decide⟩).val :=
  dot_S512x128_S128x192_S512x192_1_0_0_1_n_n.lhsIdx_val_of_single rfl i q
theorem mmA_r0 (i : S512x192.Idx) (q : dot_S512x128_S128x192_S512x192_1_0_0_1_n_n.contr.Idx) :
    (dot_S512x128_S128x192_S512x192_1_0_0_1_n_n.rhsIdx i q 0).val = (q ⟨0, by decide⟩).val :=
  dot_S512x128_S128x192_S512x192_1_0_0_1_n_n.rhsIdx_val_of_single rfl i q
theorem mmA_r1 (i : S512x192.Idx) (q : dot_S512x128_S128x192_S512x192_1_0_0_1_n_n.contr.Idx) :
    (dot_S512x128_S128x192_S512x192_1_0_0_1_n_n.rhsIdx i q 1).val = (i 1).val := by
  unfold DotDims.rhsIdx
  rw [dif_neg (show ¬(1 : Fin S128x192.rank) ∈ dot_S512x128_S128x192_S512x192_1_0_0_1_n_n.rhsBatch by decide), dif_pos (show (1 : Fin S128x192.rank) ∈ dot_S512x128_S128x192_S512x192_1_0_0_1_n_n.rhsNonContracting by decide)]
  rfl
/-- The [512,128] × [128,192] product into a zero accumulator, at row `r`, column `c`: the sum over the 128 products. -/
theorem mmA {φ₁ φ₂ : FTy} (l : FVec Ideal S512x128 φ₁) (w : FVec Ideal S128x192 φ₂) (r : Fin 512) (c : Fin 192) :
    matmul dot_S512x128_S128x192_S512x192_1_0_0_1_n_n none l w (constant (F := Ideal) S512x192 .f32 0x00000000#32) (ix2 r c)
      = ∑ k : Fin 128, l (ix2 r k) * w (ix2 k c) := by
  simp only [matmul]
  rw [Ideal.matmul_constant_zero_apply, ← Equiv.sum_comp (contrEquiv1 dot_S512x128_S128x192_S512x192_1_0_0_1_n_n 128 rfl rfl).symm]
  refine Finset.sum_congr rfl fun k _ => ?_
  have hk := contrEquiv1_symm_val dot_S512x128_S128x192_S512x192_1_0_0_1_n_n 128 rfl rfl k
  have el : dot_S512x128_S128x192_S512x192_1_0_0_1_n_n.lhsIdx (ix2 r c) ((contrEquiv1 dot_S512x128_S128x192_S512x192_1_0_0_1_n_n 128 rfl rfl).symm k) = ix2 r k := funext fun a => Fin.ext (by
    match a with
    | ⟨0, _⟩ => exact mmA_l0 _ _
    | ⟨1, _⟩ => exact (mmA_l1 _ _).trans hk)
  have er : dot_S512x128_S128x192_S512x192_1_0_0_1_n_n.rhsIdx (ix2 r c) ((contrEquiv1 dot_S512x128_S128x192_S512x192_1_0_0_1_n_n 128 rfl rfl).symm k) = ix2 k c := funext fun a => Fin.ext (by
    match a with
    | ⟨0, _⟩ => exact (mmA_r0 _ _).trans hk
    | ⟨1, _⟩ => exact mmA_r1 _ _)
  rw [el, er]

theorem mmB_l0 (i : S512x128.Idx) (q : dot_S512x192_S192x128_S512x128_1_0_0_1_n_n.contr.Idx) :
    (dot_S512x192_S192x128_S512x128_1_0_0_1_n_n.lhsIdx i q 0).val = (i 0).val := by
  unfold DotDims.lhsIdx
  rw [dif_neg (show ¬(0 : Fin S512x192.rank) ∈ dot_S512x192_S192x128_S512x128_1_0_0_1_n_n.lhsBatch by decide), dif_pos (show (0 : Fin S512x192.rank) ∈ dot_S512x192_S192x128_S512x128_1_0_0_1_n_n.lhsNonContracting by decide)]
  rfl
theorem mmB_l1 (i : S512x128.Idx) (q : dot_S512x192_S192x128_S512x128_1_0_0_1_n_n.contr.Idx) :
    (dot_S512x192_S192x128_S512x128_1_0_0_1_n_n.lhsIdx i q 1).val = (q ⟨0, by decide⟩).val :=
  dot_S512x192_S192x128_S512x128_1_0_0_1_n_n.lhsIdx_val_of_single rfl i q
theorem mmB_r0 (i : S512x128.Idx) (q : dot_S512x192_S192x128_S512x128_1_0_0_1_n_n.contr.Idx) :
    (dot_S512x192_S192x128_S512x128_1_0_0_1_n_n.rhsIdx i q 0).val = (q ⟨0, by decide⟩).val :=
  dot_S512x192_S192x128_S512x128_1_0_0_1_n_n.rhsIdx_val_of_single rfl i q
theorem mmB_r1 (i : S512x128.Idx) (q : dot_S512x192_S192x128_S512x128_1_0_0_1_n_n.contr.Idx) :
    (dot_S512x192_S192x128_S512x128_1_0_0_1_n_n.rhsIdx i q 1).val = (i 1).val := by
  unfold DotDims.rhsIdx
  rw [dif_neg (show ¬(1 : Fin S192x128.rank) ∈ dot_S512x192_S192x128_S512x128_1_0_0_1_n_n.rhsBatch by decide), dif_pos (show (1 : Fin S192x128.rank) ∈ dot_S512x192_S192x128_S512x128_1_0_0_1_n_n.rhsNonContracting by decide)]
  rfl
/-- The [512,192] × [192,128] product into a zero accumulator, at row `r`, column `c`: the sum over the 192 products. -/
theorem mmB {φ₁ φ₂ : FTy} (l : FVec Ideal S512x192 φ₁) (w : FVec Ideal S192x128 φ₂) (r : Fin 512) (c : Fin 128) :
    matmul dot_S512x192_S192x128_S512x128_1_0_0_1_n_n none l w (constant (F := Ideal) S512x128 .f32 0x00000000#32) (ix2 r c)
      = ∑ k : Fin 192, l (ix2 r k) * w (ix2 k c) := by
  simp only [matmul]
  rw [Ideal.matmul_constant_zero_apply, ← Equiv.sum_comp (contrEquiv1 dot_S512x192_S192x128_S512x128_1_0_0_1_n_n 192 rfl rfl).symm]
  refine Finset.sum_congr rfl fun k _ => ?_
  have hk := contrEquiv1_symm_val dot_S512x192_S192x128_S512x128_1_0_0_1_n_n 192 rfl rfl k
  have el : dot_S512x192_S192x128_S512x128_1_0_0_1_n_n.lhsIdx (ix2 r c) ((contrEquiv1 dot_S512x192_S192x128_S512x128_1_0_0_1_n_n 192 rfl rfl).symm k) = ix2 r k := funext fun a => Fin.ext (by
    match a with
    | ⟨0, _⟩ => exact mmB_l0 _ _
    | ⟨1, _⟩ => exact (mmB_l1 _ _).trans hk)
  have er : dot_S512x192_S192x128_S512x128_1_0_0_1_n_n.rhsIdx (ix2 r c) ((contrEquiv1 dot_S512x192_S192x128_S512x128_1_0_0_1_n_n 192 rfl rfl).symm k) = ix2 k c := funext fun a => Fin.ext (by
    match a with
    | ⟨0, _⟩ => exact (mmB_r0 _ _).trans hk
    | ⟨1, _⟩ => exact mmB_r1 _ _)
  rw [el, er]

theorem mmC_l0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem mmC_l1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem mmC_r0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem mmC_r1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl
/-- The [512,128] × [128,1] product into a zero accumulator, at row `r`, column `c`: the sum over the 128 products. -/
theorem mmC {φ₁ φ₂ : FTy} (l : FVec Ideal S512x128 φ₁) (w : FVec Ideal S128x1 φ₂) (r : Fin 512) (c : Fin 1) :
    matmul dot_S512x128_S128x1_S512x1_1_0_0_1_n_n none l w (constant (F := Ideal) S512x1 .f32 0x00000000#32) (ix2 r c)
      = ∑ k : Fin 128, l (ix2 r k) * w (ix2 k c) := by
  simp only [matmul]
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 r c) ((contrEquiv1 dot_S512x128_S128x1_S512x1_1_0_0_1_n_n 128 rfl rfl).symm k) = ix2 r k := funext fun a => Fin.ext (by
    match a with
    | ⟨0, _⟩ => exact mmC_l0 _ _
    | ⟨1, _⟩ => exact (mmC_l1 _ _).trans hk)
  have er : dot_S512x128_S128x1_S512x1_1_0_0_1_n_n.rhsIdx (ix2 r c) ((contrEquiv1 dot_S512x128_S128x1_S512x1_1_0_0_1_n_n 128 rfl rfl).symm k) = ix2 k c := funext fun a => Fin.ext (by
    match a with
    | ⟨0, _⟩ => exact (mmC_r0 _ _).trans hk
    | ⟨1, _⟩ => exact mmC_r1 _ _)
  rw [el, er]

/-! ## Layout at an index -/

/-- A column `[a,1]` broadcast over `b` columns reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The upper half of a 256-row matrix reads row `k`. -/
theorem slice_lo {α : Type} (X : (⟨2, ![256, 192]⟩ : Shape).Idx → α)
    (h : (⟨2, ![256, 192]⟩ : Shape).Slices ![0, 0] ⟨2, ![128, 192]⟩) (k : Fin 128) (c : Fin 192) :
    extractStridedSlice ⟨2, ![128, 192]⟩ ![0, 0] X h (ix2 k c) = X (ix2 (lo k) c) :=
  slice2_axis0_apply 0 X h k c (lo k) (Nat.zero_add _).symm

/-- The lower half of a 256-row matrix reads row `128 + k`. -/
theorem slice_hi {α : Type} (X : (⟨2, ![256, 192]⟩ : Shape).Idx → α)
    (h : (⟨2, ![256, 192]⟩ : Shape).Slices ![128, 0] ⟨2, ![128, 192]⟩) (k : Fin 128) (c : Fin 192) :
    extractStridedSlice ⟨2, ![128, 192]⟩ ![128, 0] X h (ix2 k c) = X (ix2 (hi k) c) :=
  slice2_axis0_apply 128 X h k c (hi k) rfl

/-- The reciprocal square root of a vector at an index. -/
theorem rsqrt_apply {s : Shape} {φ : FTy} (a : FVec Ideal s φ) (i : s.Idx) : rsqrt a i = Ideal.rsqrt (a i) := rfl
/-- The logistic of a vector at an index. -/
theorem logistic_apply {s : Shape} {φ : FTy} (a : FVec Ideal s φ) (i : s.Idx) : logistic a i = Ideal.logistic (a i) := rfl

/-! ## The payloads at an index -/

/-- The first value at `(r, c)`: the first layer, centred and scaled. -/
theorem pay2_at (v0 : A2 512 128) (v2 : A2 512 1) (v8 : A2 512 128) (v10 : A2 256 192) (v19 v23 v27 v34 : A2 1 192)
    (r : Fin 512) (c : Fin 192) :
    k5_pay2 (F := Ideal) v0 v2 v8 v10 v19 v23 v27 v34 (ix2 r c)
      = (lin1 v0 v2 v8 v10 v19 r c - v23 (ix2 (0 : Fin 1) c)) * Ideal.rsqrt (v27 (ix2 (0 : Fin 1) c) + eps)
          * v34 (ix2 (0 : Fin 1) c) := by
  unfold k5_pay2
  simp only [mulf_apply, addf_apply, subf_apply, divf_apply, maximumf_apply, truncf_apply, broadcast_apply, rsqrt_apply,
    shapeCast_self, broadcastTo_1b_ab_apply, broadcastTo_a1_ab_apply, mmA, slice_lo, slice_hi]
  rfl

/-- The second value at `(r, z)`: from the first value `v37` and the shift `v38`, the first hidden row, the second
    layer normalised and clamped, and the third layer's products summed. -/
theorem pay3_at (v37 : A2 512 192) (v38 : A2 1 192) (v45 : A2 192 128) (v48 v52 v56 v63 v67 : A2 1 128) (v74 : A2 128 1)
    (r : Fin 512) (z : Fin 1) :
    k5_pay3 (F := Ideal) v37 v38 v45 v48 v52 v56 v63 v67 v74 (ix2 r z)
      = ∑ k : Fin 128, bnrelu (lin (fun k' : Fin 192 => max (v37 (ix2 r k') + v38 (ix2 (0 : Fin 1) k')) zero) v45 v48)
          v63 v67 v52 v56 k * v74 (ix2 k z) := by
  unfold k5_pay3
  simp only [mulf_apply, addf_apply, subf_apply, maximumf_apply, truncf_apply, broadcast_apply, rsqrt_apply,
    shapeCast_self, broadcastTo_1b_ab_apply, mmB, mmC]
  rfl

/-- The third value at `(r, z)`: the logistic of the second value plus the last bias. -/
theorem pay1_at (v76 : A2 512 1) (v77 : A2 1 1) (r : Fin 512) (z : Fin 1) :
    k5_pay1 (F := Ideal) v76 v77 (ix2 r z) = Ideal.logistic (v76 (ix2 r z) + v77 (ix2 (0 : Fin 1) z)) := by
  unfold k5_pay1
  simp only [addf_apply, logistic_apply, shapeCast_self, broadcastTo_1b_ab_apply]

/-! ## The stage's result from whole blocks -/

theorem hz5 : (![0, 0] : Fin 2 → Nat) = fun _ => 0 := funext fun a => by fin_cases a <;> rfl

/-- What the dense stage leaves in its output buffer, from whole input blocks, is the head's function of them. -/
theorem out5_eq (x0 : A2 512 128) (x1 : A2 512 1) (x2 : A2 512 128) (x3 : A2 256 192) (x4 x5 x6 x7 x8 : A2 1 192)
    (x9 : A2 192 128) (x10 x11 x12 x13 x14 : A2 1 128) (x15 : A2 128 1) (x16 : A2 1 1) :
    Cert.KernelIdeal.Gen.out5_17 (F := Ideal) x0 x1 x2 x3 x4 x5 x6 x7 x8 x9 x10 x11 x12 x13 x14 x15 x16
      = OUT x0 x1 x2 x3 x4 x5 x6 x7 x8 x9 x10 x11 x12 x13 x14 x15 x16 := by
  unfold out5_17
  rw [View.canon_unit_zero hz5]
  simp only [View.ld_unit_zero (S := S512x128) hz5, View.ld_unit_zero (S := S512x1) hz5, View.ld_unit_zero (S := S256x192) hz5,
    View.ld_unit_zero (S := S1x192) hz5, View.ld_unit_zero (S := S192x128) hz5, View.ld_unit_zero (S := S1x128) hz5,
    View.ld_unit_zero (S := S128x1) hz5, View.ld_unit_zero (S := S1x1) hz5]
  funext i
  obtain ⟨r, z, rfl⟩ : ∃ (r : Fin 512) (z : Fin 1), i = ix2 r z := ⟨i 0, i 1, eq_ix2 i⟩
  obtain rfl : z = 0 := Subsingleton.elim _ _
  rw [pay1_at, pay3_at]
  simp only [pay2_at]
  rfl

end Cert.Bridge.Fusion

end
-- ==== Proof.FusionKernel.lean ====
/-
  From the dense stage's one grid point to the output array. The stage runs at ONE grid point, and every window's
  block there is its whole array: each window's block index is zero on both axes (decided over the one point), so an
  element of a block sits at the same coordinates in the array. Hence each input block read off its array IS the
  array, what the point writes back is the head's function of the arrays read through the output's whole-array
  block, that block covers every index, and the output array ends holding the head's function of the input arrays
  as the stage finds them.
-/
import proofs.«117654_j30477087932519_2_alg».proof.Proof.Gen.KernelIdeal.Frame
import proofs.«117654_j30477087932519_2_alg».proof.Proof.FusionSpec
import proofs.«117654_j30477087932519_2_alg».proof.Proof.FusionPay
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge.Fusion

open Idealize.ShloMosaic Idealize.ShloMosaic.ValueIdx Idealize.ShloMosaic.TcCoe Idealize.SL.Sem Cert.Bridge
open Cert.KernelIdeal Cert.KernelIdeal.Gen
open Idealize.ShloMosaic.Pipeline (Dat)

variable (V : (c : Dev nD) → (b : Ref sig .tc) → Buf (Elt Ideal) ((c : Thread nD τ).loc b))

/-! ## Every window's block index at the one grid point is zero -/
theorem idx5_0 : ∀ t : Fin cfg5.N, win5_0.index t (0 : Fin 2) = 0 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)
theorem idx5_10 : ∀ t : Fin cfg5.N, win5_10.index t (0 : Fin 2) = 0 ∧ win5_10.index t (1 : Fin 2) = 0 :=
  (by decide +kernel : ∀ t : Fin grid5.N, _)
theorem idx5_11 : ∀ t : Fin cfg5.N, win5_11.index t (0 : Fin 2) = 0 ∧ win5_11.index t (1 : Fin 2) = 0 :=
  (by decide +kernel : ∀ t : Fin grid5.N, _)
theorem idx5_12 : ∀ t : Fin cfg5.N, win5_12.index t (0 : Fin 2) = 0 ∧ win5_12.index t (1 : Fin 2) = 0 :=
  (by decide +kernel : ∀ t : Fin grid5.N, _)
theorem idx5_13 : ∀ t : Fin cfg5.N, win5_13.index t (0 : Fin 2) = 0 ∧ win5_13.index t (1 : Fin 2) = 0 :=
  (by decide +kernel : ∀ t : Fin grid5.N, _)
theorem idx5_14 : ∀ t : Fin cfg5.N, win5_14.index t (0 : Fin 2) = 0 ∧ win5_14.index t (1 : Fin 2) = 0 :=
  (by decide +kernel : ∀ t : Fin grid5.N, _)
theorem idx5_15 : ∀ t : Fin cfg5.N, win5_15.index t (0 : Fin 2) = 0 ∧ win5_15.index t (1 : Fin 2) = 0 :=
  (by decide +kernel : ∀ t : Fin grid5.N, _)
theorem idx5_16 : ∀ t : Fin cfg5.N, win5_16.index t (0 : Fin 2) = 0 ∧ win5_16.index t (1 : Fin 2) = 0 :=
  (by decide +kernel : ∀ t : Fin grid5.N, _)
theorem idx5_17 : ∀ t : Fin cfg5.N, win5_17.index t (0 : Fin 2) = 0 ∧ win5_17.index t (1 : Fin 2) = 0 :=
  (by decide +kernel : ∀ t : Fin grid5.N, _)

/-! ## So each input window's block, read off its array, is the array -/

theorem iblk5_0_eq (c : Dev nD) (t : Fin cfg5.N) : iblk5 V c 0 t = V c (Pipeline.arrRef spec5 0) := by
  funext y
  show V c (Pipeline.arrRef spec5 0) (((cfg5.win 0).blk t).view.emb y) = V c (Pipeline.arrRef spec5 0) y
  obtain ⟨e0, e1⟩ := idx5_0 t
  refine congrArg _ (funext fun a => Fin.ext ?_)
  match a with
  | ⟨0, _⟩ => show win5_0.index t (0 : Fin 2) * 512 + 1 * (y 0).val = (y 0).val; omega
  | ⟨1, _⟩ => show win5_0.index t (1 : Fin 2) * 128 + 1 * (y 1).val = (y 1).val; omega

theorem iblk5_1_eq (c : Dev nD) (t : Fin cfg5.N) : iblk5 V c 1 t = V c (Pipeline.arrRef spec5 1) := by
  funext y
  show V c (Pipeline.arrRef spec5 1) (((cfg5.win 1).blk t).view.emb y) = V c (Pipeline.arrRef spec5 1) y
  obtain ⟨e0, e1⟩ := idx5_1 t
  refine congrArg _ (funext fun a => Fin.ext ?_)
  match a with
  | ⟨0, _⟩ => show win5_1.index t (0 : Fin 2) * 512 + 1 * (y 0).val = (y 0).val; omega
  | ⟨1, _⟩ => show win5_1.index t (1 : Fin 2) * 1 + 1 * (y 1).val = (y 1).val; omega

theorem iblk5_2_eq (c : Dev nD) (t : Fin cfg5.N) : iblk5 V c 2 t = V c (Pipeline.arrRef spec5 2) := by
  funext y
  show V c (Pipeline.arrRef spec5 2) (((cfg5.win 2).blk t).view.emb y) = V c (Pipeline.arrRef spec5 2) y
  obtain ⟨e0, e1⟩ := idx5_2 t
  refine congrArg _ (funext fun a => Fin.ext ?_)
  match a with
  | ⟨0, _⟩ => show win5_2.index t (0 : Fin 2) * 512 + 1 * (y 0).val = (y 0).val; omega
  | ⟨1, _⟩ => show win5_2.index t (1 : Fin 2) * 128 + 1 * (y 1).val = (y 1).val; omega

theorem iblk5_3_eq (c : Dev nD) (t : Fin cfg5.N) : iblk5 V c 3 t = V c (Pipeline.arrRef spec5 3) := by
  funext y
  show V c (Pipeline.arrRef spec5 3) (((cfg5.win 3).blk t).view.emb y) = V c (Pipeline.arrRef spec5 3) y
  obtain ⟨e0, e1⟩ := idx5_3 t
  refine congrArg _ (funext fun a => Fin.ext ?_)
  match a with
  | ⟨0, _⟩ => show win5_3.index t (0 : Fin 2) * 256 + 1 * (y 0).val = (y 0).val; omega
  | ⟨1, _⟩ => show win5_3.index t (1 : Fin 2) * 192 + 1 * (y 1).val = (y 1).val; omega

theorem iblk5_4_eq (c : Dev nD) (t : Fin cfg5.N) : iblk5 V c 4 t = V c (Pipeline.arrRef spec5 4) := by
  funext y
  show V c (Pipeline.arrRef spec5 4) (((cfg5.win 4).blk t).view.emb y) = V c (Pipeline.arrRef spec5 4) y
  obtain ⟨e0, e1⟩ := idx5_4 t
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 192 + 1 * (y 1).val = (y 1).val; omega

theorem iblk5_5_eq (c : Dev nD) (t : Fin cfg5.N) : iblk5 V c 5 t = V c (Pipeline.arrRef spec5 5) := by
  funext y
  show V c (Pipeline.arrRef spec5 5) (((cfg5.win 5).blk t).view.emb y) = V c (Pipeline.arrRef spec5 5) y
  obtain ⟨e0, e1⟩ := idx5_5 t
  refine congrArg _ (funext fun a => Fin.ext ?_)
  match a with
  | ⟨0, _⟩ => show win5_5.index t (0 : Fin 2) * 1 + 1 * (y 0).val = (y 0).val; omega
  | ⟨1, _⟩ => show win5_5.index t (1 : Fin 2) * 192 + 1 * (y 1).val = (y 1).val; omega

theorem iblk5_6_eq (c : Dev nD) (t : Fin cfg5.N) : iblk5 V c 6 t = V c (Pipeline.arrRef spec5 6) := by
  funext y
  show V c (Pipeline.arrRef spec5 6) (((cfg5.win 6).blk t).view.emb y) = V c (Pipeline.arrRef spec5 6) y
  obtain ⟨e0, e1⟩ := idx5_6 t
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 192 + 1 * (y 1).val = (y 1).val; omega

theorem iblk5_7_eq (c : Dev nD) (t : Fin cfg5.N) : iblk5 V c 7 t = V c (Pipeline.arrRef spec5 7) := by
  funext y
  show V c (Pipeline.arrRef spec5 7) (((cfg5.win 7).blk t).view.emb y) = V c (Pipeline.arrRef spec5 7) y
  obtain ⟨e0, e1⟩ := idx5_7 t
  refine congrArg _ (funext fun a => Fin.ext ?_)
  match a with
  | ⟨0, _⟩ => show win5_7.index t (0 : Fin 2) * 1 + 1 * (y 0).val = (y 0).val; omega
  | ⟨1, _⟩ => show win5_7.index t (1 : Fin 2) * 192 + 1 * (y 1).val = (y 1).val; omega

theorem iblk5_8_eq (c : Dev nD) (t : Fin cfg5.N) : iblk5 V c 8 t = V c (Pipeline.arrRef spec5 8) := by
  funext y
  show V c (Pipeline.arrRef spec5 8) (((cfg5.win 8).blk t).view.emb y) = V c (Pipeline.arrRef spec5 8) y
  obtain ⟨e0, e1⟩ := idx5_8 t
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 192 + 1 * (y 1).val = (y 1).val; omega

theorem iblk5_9_eq (c : Dev nD) (t : Fin cfg5.N) : iblk5 V c 9 t = V c (Pipeline.arrRef spec5 9) := by
  funext y
  show V c (Pipeline.arrRef spec5 9) (((cfg5.win 9).blk t).view.emb y) = V c (Pipeline.arrRef spec5 9) y
  obtain ⟨e0, e1⟩ := idx5_9 t
  refine congrArg _ (funext fun a => Fin.ext ?_)
  match a with
  | ⟨0, _⟩ => show win5_9.index t (0 : Fin 2) * 192 + 1 * (y 0).val = (y 0).val; omega
  | ⟨1, _⟩ => show win5_9.index t (1 : Fin 2) * 128 + 1 * (y 1).val = (y 1).val; omega

theorem iblk5_10_eq (c : Dev nD) (t : Fin cfg5.N) : iblk5 V c 10 t = V c (Pipeline.arrRef spec5 10) := by
  funext y
  show V c (Pipeline.arrRef spec5 10) (((cfg5.win 10).blk t).view.emb y) = V c (Pipeline.arrRef spec5 10) y
  obtain ⟨e0, e1⟩ := idx5_10 t
  refine congrArg _ (funext fun a => Fin.ext ?_)
  match a with
  | ⟨0, _⟩ => show win5_10.index t (0 : Fin 2) * 1 + 1 * (y 0).val = (y 0).val; omega
  | ⟨1, _⟩ => show win5_10.index t (1 : Fin 2) * 128 + 1 * (y 1).val = (y 1).val; omega

theorem iblk5_11_eq (c : Dev nD) (t : Fin cfg5.N) : iblk5 V c 11 t = V c (Pipeline.arrRef spec5 11) := by
  funext y
  show V c (Pipeline.arrRef spec5 11) (((cfg5.win 11).blk t).view.emb y) = V c (Pipeline.arrRef spec5 11) y
  obtain ⟨e0, e1⟩ := idx5_11 t
  refine congrArg _ (funext fun a => Fin.ext ?_)
  match a with
  | ⟨0, _⟩ => show win5_11.index t (0 : Fin 2) * 1 + 1 * (y 0).val = (y 0).val; omega
  | ⟨1, _⟩ => show win5_11.index t (1 : Fin 2) * 128 + 1 * (y 1).val = (y 1).val; omega

theorem iblk5_12_eq (c : Dev nD) (t : Fin cfg5.N) : iblk5 V c 12 t = V c (Pipeline.arrRef spec5 12) := by
  funext y
  show V c (Pipeline.arrRef spec5 12) (((cfg5.win 12).blk t).view.emb y) = V c (Pipeline.arrRef spec5 12) y
  obtain ⟨e0, e1⟩ := idx5_12 t
  refine congrArg _ (funext fun a => Fin.ext ?_)
  match a with
  | ⟨0, _⟩ => show win5_12.index t (0 : Fin 2) * 1 + 1 * (y 0).val = (y 0).val; omega
  | ⟨1, _⟩ => show win5_12.index t (1 : Fin 2) * 128 + 1 * (y 1).val = (y 1).val; omega

theorem iblk5_13_eq (c : Dev nD) (t : Fin cfg5.N) : iblk5 V c 13 t = V c (Pipeline.arrRef spec5 13) := by
  funext y
  show V c (Pipeline.arrRef spec5 13) (((cfg5.win 13).blk t).view.emb y) = V c (Pipeline.arrRef spec5 13) y
  obtain ⟨e0, e1⟩ := idx5_13 t
  refine congrArg _ (funext fun a => Fin.ext ?_)
  match a with
  | ⟨0, _⟩ => show win5_13.index t (0 : Fin 2) * 1 + 1 * (y 0).val = (y 0).val; omega
  | ⟨1, _⟩ => show win5_13.index t (1 : Fin 2) * 128 + 1 * (y 1).val = (y 1).val; omega

theorem iblk5_14_eq (c : Dev nD) (t : Fin cfg5.N) : iblk5 V c 14 t = V c (Pipeline.arrRef spec5 14) := by
  funext y
  show V c (Pipeline.arrRef spec5 14) (((cfg5.win 14).blk t).view.emb y) = V c (Pipeline.arrRef spec5 14) y
  obtain ⟨e0, e1⟩ := idx5_14 t
  refine congrArg _ (funext fun a => Fin.ext ?_)
  match a with
  | ⟨0, _⟩ => show win5_14.index t (0 : Fin 2) * 1 + 1 * (y 0).val = (y 0).val; omega
  | ⟨1, _⟩ => show win5_14.index t (1 : Fin 2) * 128 + 1 * (y 1).val = (y 1).val; omega

theorem iblk5_15_eq (c : Dev nD) (t : Fin cfg5.N) : iblk5 V c 15 t = V c (Pipeline.arrRef spec5 15) := by
  funext y
  show V c (Pipeline.arrRef spec5 15) (((cfg5.win 15).blk t).view.emb y) = V c (Pipeline.arrRef spec5 15) y
  obtain ⟨e0, e1⟩ := idx5_15 t
  refine congrArg _ (funext fun a => Fin.ext ?_)
  match a with
  | ⟨0, _⟩ => show win5_15.index t (0 : Fin 2) * 128 + 1 * (y 0).val = (y 0).val; omega
  | ⟨1, _⟩ => show win5_15.index t (1 : Fin 2) * 1 + 1 * (y 1).val = (y 1).val; omega

theorem iblk5_16_eq (c : Dev nD) (t : Fin cfg5.N) : iblk5 V c 16 t = V c (Pipeline.arrRef spec5 16) := by
  funext y
  show V c (Pipeline.arrRef spec5 16) (((cfg5.win 16).blk t).view.emb y) = V c (Pipeline.arrRef spec5 16) y
  obtain ⟨e0, e1⟩ := idx5_16 t
  refine congrArg _ (funext fun a => Fin.ext ?_)
  match a with
  | ⟨0, _⟩ => show win5_16.index t (0 : Fin 2) * 1 + 1 * (y 0).val = (y 0).val; omega
  | ⟨1, _⟩ => show win5_16.index t (1 : Fin 2) * 1 + 1 * (y 1).val = (y 1).val; omega

/-! ## What the point writes back, the cover, and the output array -/

/-- The stage's result depends on its input blocks only through their contents. -/
theorem out5_congr {a0 b0 : A2 512 128} {a1 b1 : A2 512 1} {a2 b2 : A2 512 128} {a3 b3 : A2 256 192} {a4 b4 : A2 1 192} {a5 b5 : A2 1 192} {a6 b6 : A2 1 192} {a7 b7 : A2 1 192} {a8 b8 : A2 1 192} {a9 b9 : A2 192 128} {a10 b10 : A2 1 128} {a11 b11 : A2 1 128} {a12 b12 : A2 1 128} {a13 b13 : A2 1 128} {a14 b14 : A2 1 128} {a15 b15 : A2 128 1} {a16 b16 : A2 1 1}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    out5_17 (F := Ideal) a0 a1 a2 a3 a4 a5 a6 a7 a8 a9 a10 a11 a12 a13 a14 a15 a16 = out5_17 (F := Ideal) b0 b1 b2 b3 b4 b5 b6 b7 b8 b9 b10 b11 b12 b13 b14 b15 b16 := by
  subst h0 h1 h2 h3 h4 h5 h6 h7 h8 h9 h10 h11 h12 h13 h14 h15 h16
  rfl

/-- The head's function of the seventeen input arrays as the stage finds them. -/
def headOf (c : Dev nD) : A2 512 1 :=
  OUT (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) (V c (Pipeline.arrRef spec5 14)) (V c (Pipeline.arrRef spec5 15)) (V c (Pipeline.arrRef spec5 16))

set_option maxHeartbeats 1000000 in
/-- What the body leaves in the output's buffer at the one point is the head's function of the input arrays. -/
theorem after5_17_whole (c : Dev nD) (t : Fin cfg5.N) : (dat5 V c).after 17 t = headOf V c :=
  ((after5_17 V c t).trans
    (out5_congr (iblk5_0_eq V c t) (iblk5_1_eq V c t) (iblk5_2_eq V c t) (iblk5_3_eq V c t) (iblk5_4_eq V c t) (iblk5_5_eq V c t) (iblk5_6_eq V c t) (iblk5_7_eq V c t) (iblk5_8_eq V c t) (iblk5_9_eq V c t) (iblk5_10_eq V c t) (iblk5_11_eq V c t) (iblk5_12_eq V c t) (iblk5_13_eq V c t) (iblk5_14_eq V c t) (iblk5_15_eq V c t) (iblk5_16_eq V c t))).trans
    (out5_eq (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) (V c (Pipeline.arrRef spec5 14)) (V c (Pipeline.arrRef spec5 15)) (V c (Pipeline.arrRef spec5 16)))

/-- The output window's block at the one point is the whole array: a whole-array value cut to the block is the value
    read through the block. -/
theorem cut5_eq (t : Fin cfg5.N) (G : A2 512 1) :
    (cfg5.win 17).cut (grid5.coords t) G = ((cfg5.win 17).blk t).view.read (Elt Ideal) G := by
  funext j
  show G j = G (((cfg5.win 17).blk t).view.emb j)
  obtain ⟨e0, e1⟩ := idx5_17 t
  refine congrArg G (funext fun a => Fin.ext ?_)
  match a with
  | ⟨0, _⟩ => show (j 0).val = win5_17.index t (0 : Fin 2) * 512 + 1 * (j 0).val; omega
  | ⟨1, _⟩ => show (j 1).val = win5_17.index t (1 : Fin 2) * 1 + 1 * (j 1).val; omega

/-- What the one point writes back is the head's function of the arrays, read through the output's block. -/
theorem flushed5_eq (c : Dev nD) (t : Fin cfg5.N) :
    (dat5 V c).flushed 17 t = ((cfg5.win 17).blk t).view.read (Elt Ideal) (headOf V c) := by
  show (cfg5.win 17).cut (grid5.coords t) ((dat5 V c).after 17 t) = _
  exact (congrArg ((cfg5.win 17).cut (grid5.coords t)) (after5_17_whole V c t)).trans (cut5_eq t (headOf V c))

/-- An index of the output array is in the point's block iff each coordinate is in the block's range on its axis. -/
theorem mem_blk5 (t : Fin cfg5.N) (i : S512x1.Idx) :
    i ∈ ((cfg5.win 17).blk t).view.set ↔ ∀ a : Fin 2, win5_17.index t a * S512x1.size a ≤ (i a).val ∧ (i a).val < win5_17.index t a * S512x1.size a + S512x1.size a := by
  show i ∈ ((View.whole main_v75).slice (win5_17.rect t)).set ↔ _
  rw [View.set_slice_whole, Rect.mem_set_unit]
  exact Iff.rfl

/-- The one point's block covers the output array. -/
theorem cover5 (i : S512x1.Idx) : ∃ t : Fin cfg5.N, (cfg5.win 17).flush t = true ∧ i ∈ ((cfg5.win 17).blk t).view.set := by
  refine ⟨t5_0, flush5_17 t5_0, ?_⟩
  rw [mem_blk5]
  obtain ⟨e0, e1⟩ := idx5_17 t5_0
  intro a
  match a with
  | ⟨0, _⟩ =>
    have h0 : (i 0).val < 512 := (i 0).isLt
    show win5_17.index t5_0 (0 : Fin 2) * 512 ≤ (i 0).val ∧ (i 0).val < win5_17.index t5_0 (0 : Fin 2) * 512 + 512
    omega
  | ⟨1, _⟩ =>
    have h1 : (i 1).val < 1 := (i 1).isLt
    show win5_17.index t5_0 (1 : Fin 2) * 1 ≤ (i 1).val ∧ (i 1).val < win5_17.index t5_0 (1 : Fin 2) * 1 + 1
    omega

/-- The output array after the dense stage, named. -/
theorem final5_head (c : Dev nD) : (dat5 V c).arrAt 17 cfg5.N = headOf V c :=
  (dat5 V c).arrAt_eq_of_cover 17 (headOf V c) (fun t _ => flushed5_eq V c t) cover5

/-- THE OUTPUT ARRAY after the dense stage: the head's function of the seventeen input arrays as the stage finds them. -/
theorem final5 (c : Dev nD) :
    (Cert.KernelIdeal.Gen.dat5 (F := Ideal) V c).arrAt 17 Cert.KernelIdeal.cfg5.N
      = OUT (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) (V c (Pipeline.arrRef spec5 14)) (V c (Pipeline.arrRef spec5 15)) (V c (Pipeline.arrRef spec5 16)) :=
  final5_head V c

end Cert.Bridge.Fusion

end
-- ==== Proof.FusionRef.lean ====
/-
  The reference's host chain for the fusion head, read at an index, is the head's function of the pooled sums, the
  counts, the side features and the head's parameters.

  The reference divides the per-graph sums by the counts floored at 1, joins the quotient and the side features along
  the feature axis into rows of length 256, and applies the first dense layer as ONE product with `W1 [256,192]`:
  a row of the joined array reads the quotient on its first 128 entries and the side features on its last 128, so the
  sum over 256 is the sum of the two halves (`sum_split`: commutativity and associativity of the extended reals'
  sum only). Parameter vectors reach the reference's arithmetic through broadcasts `[C] → [1,C] → [512,C]`, which read
  the vector at the column; the same vector reshaped `[C] → [1,C]` reads it at the column too. The reference spells the
  logistic as `1 / (1 + exp (−x))` with the f32 word of 1.0, which is the extended real 1.
-/
import proofs.«117654_j30477087932519_2_alg».proof.Proof.Gen.ReferenceIdeal.Read
import proofs.«117654_j30477087932519_2_alg».proof.Proof.Gen.KernelIdeal
import proofs.«117654_j30477087932519_2_alg».proof.Proof.FusionSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge.Fusion

open Idealize.ShloMosaic Idealize.ShloMosaic.ValueIdx Idealize.SL.Sem Cert.Bridge
open Cert.ReferenceIdeal Cert.ReferenceIdeal.Read

/-! ## The kernel program's host layouts of a vector, at an index -/

/-- The counts as a column `[512] → [512,1]` read the count of the row. -/
theorem col_at (cnt : A1 512) (r : Fin 512) (z : Fin 1) : (broadcastInDim Cert.KernelIdeal.S512x1 ![0] Cert.KernelIdeal.Gen.bcast_S512_S512x1_0 cnt) (ix2 r z) = cnt (ix1 r) :=
  broadcastInDim_apply _ _ cnt (ix2 r z) (ix1 r) (fun a => match a with
    | ⟨0, _⟩ => by show r.val = if (512 : Nat) = 1 then 0 else r.val; rw [if_neg (by decide)])
/-- A vector as a row `[192] → [1,192]` reads the vector at the column. -/
theorem row192_at (x : A1 192) (c : Fin 192) : (shapeCast Cert.KernelIdeal.S1x192 x Cert.KernelIdeal.Gen.shapeCasts_S192_S1x192) (ix2 (0 : Fin 1) c) = x (ix1 c) :=
  shapeCast_a_1a_apply x _ 0 c
/-- A vector as a row `[128] → [1,128]` reads the vector at the column. -/
theorem row128_at (x : A1 128) (c : Fin 128) : (shapeCast Cert.KernelIdeal.S1x128 x Cert.KernelIdeal.Gen.shapeCasts_S128_S1x128) (ix2 (0 : Fin 1) c) = x (ix1 c) :=
  shapeCast_a_1a_apply x _ 0 c
/-- A one-entry vector as `[1] → [1,1]` reads its entry. -/
theorem row1_at (x : A1 1) : (shapeCast Cert.KernelIdeal.S1x1 x Cert.KernelIdeal.Gen.shapeCasts_S1_S1x1) (ix2 (0 : Fin 1) (0 : Fin 1)) = x (ix1 (0 : Fin 1)) :=
  shapeCast_a_1a_apply x _ 0 0

/-! ## The reference's broadcast parameter vectors, at an index -/

theorem b1_at (x15 : (⟨S192, .f32⟩ : BufTy).Contents (Elt Ideal)) (r : Fin 512) (c : Fin 192) :
    Read.val_main_v145 (F := Ideal) x15 (ix2 r c) = x15 (ix1 c) := by
  rw [Read.val_main_v145_apply, Read.val_main_v144_apply]
  exact congrArg x15 (funext fun a => Fin.ext (by match a with | ⟨0, _⟩ => rfl))

theorem rm1_at (x18 : (⟨S192, .f32⟩ : BufTy).Contents (Elt Ideal)) (r : Fin 512) (c : Fin 192) :
    Read.val_main_v148 (F := Ideal) x18 (ix2 r c) = x18 (ix1 c) := by
  rw [Read.val_main_v148_apply, Read.val_main_v147_apply]
  exact congrArg x18 (funext fun a => Fin.ext (by match a with | ⟨0, _⟩ => rfl))

theorem g1_at (x16 : (⟨S192, .f32⟩ : BufTy).Contents (Elt Ideal)) (r : Fin 512) (c : Fin 192) :
    Read.val_main_v157 (F := Ideal) x16 (ix2 r c) = x16 (ix1 c) := by
  rw [Read.val_main_v157_apply, Read.val_main_v156_apply]
  exact congrArg x16 (funext fun a => Fin.ext (by match a with | ⟨0, _⟩ => rfl))

theorem be1_at (x17 : (⟨S192, .f32⟩ : BufTy).Contents (Elt Ideal)) (r : Fin 512) (c : Fin 192) :
    Read.val_main_v160 (F := Ideal) x17 (ix2 r c) = x17 (ix1 c) := by
  rw [Read.val_main_v160_apply, Read.val_main_v159_apply]
  exact congrArg x17 (funext fun a => Fin.ext (by match a with | ⟨0, _⟩ => rfl))

theorem b2_at (x21 : (⟨S128, .f32⟩ : BufTy).Contents (Elt Ideal)) (r : Fin 512) (c : Fin 128) :
    Read.val_main_v165 (F := Ideal) x21 (ix2 r c) = x21 (ix1 c) := by
  rw [Read.val_main_v165_apply, Read.val_main_v164_apply]
  exact congrArg x21 (funext fun a => Fin.ext (by match a with | ⟨0, _⟩ => rfl))

theorem rm2_at (x24 : (⟨S128, .f32⟩ : BufTy).Contents (Elt Ideal)) (r : Fin 512) (c : Fin 128) :
    Read.val_main_v168 (F := Ideal) x24 (ix2 r c) = x24 (ix1 c) := by
  rw [Read.val_main_v168_apply, Read.val_main_v167_apply]
  exact congrArg x24 (funext fun a => Fin.ext (by match a with | ⟨0, _⟩ => rfl))

theorem g2_at (x22 : (⟨S128, .f32⟩ : BufTy).Contents (Elt Ideal)) (r : Fin 512) (c : Fin 128) :
    Read.val_main_v177 (F := Ideal) x22 (ix2 r c) = x22 (ix1 c) := by
  rw [Read.val_main_v177_apply, Read.val_main_v176_apply]
  exact congrArg x22 (funext fun a => Fin.ext (by match a with | ⟨0, _⟩ => rfl))

theorem be2_at (x23 : (⟨S128, .f32⟩ : BufTy).Contents (Elt Ideal)) (r : Fin 512) (c : Fin 128) :
    Read.val_main_v180 (F := Ideal) x23 (ix2 r c) = x23 (ix1 c) := by
  rw [Read.val_main_v180_apply, Read.val_main_v179_apply]
  exact congrArg x23 (funext fun a => Fin.ext (by match a with | ⟨0, _⟩ => rfl))

theorem rs1_at (x19 : (⟨S192, .f32⟩ : BufTy).Contents (Elt Ideal)) (r : Fin 512) (c : Fin 192) :
    Read.val_main_v154 (F := Ideal) x19 (ix2 r c) = Ideal.rsqrt (x19 (ix1 c) + eps) := by
  rw [Read.val_main_v154_apply, Read.val_main_v153_apply, Read.val_main_v152_apply, Read.val_main_v151_apply,
    Read.val_main_v150_apply, Read.val_main_cst_29_apply]
  exact congrArg (fun j => Ideal.rsqrt (x19 j + eps)) (funext fun a => Fin.ext (by match a with | ⟨0, _⟩ => rfl))

theorem rs2_at (x25 : (⟨S128, .f32⟩ : BufTy).Contents (Elt Ideal)) (r : Fin 512) (c : Fin 128) :
    Read.val_main_v174 (F := Ideal) x25 (ix2 r c) = Ideal.rsqrt (x25 (ix1 c) + eps) := by
  rw [Read.val_main_v174_apply, Read.val_main_v173_apply, Read.val_main_v172_apply, Read.val_main_v171_apply,
    Read.val_main_v170_apply, Read.val_main_cst_30_apply]
  exact congrArg (fun j => Ideal.rsqrt (x25 j + eps)) (funext fun a => Fin.ext (by match a with | ⟨0, _⟩ => rfl))

theorem b3_at (x27 : (⟨S1, .f32⟩ : BufTy).Contents (Elt Ideal)) (r : Fin 512) :
    Read.val_main_v185 (F := Ideal) x27 (ix2 r (0 : Fin 1)) = x27 (ix1 (0 : Fin 1)) := by
  rw [Read.val_main_v185_apply, Read.val_main_v184_apply]
  exact congrArg x27 (funext fun a => Fin.ext (by match a with | ⟨0, _⟩ => rfl))

/-- The clamp's zero, at an index of either hidden layer. -/
theorem relu3_at (i : S512x192.Idx) : Read.val_main_call3_v0 (F := Ideal) i = zero := by
  rw [Read.val_main_call3_v0_apply, Read.val_main_call3_cst_apply]; rfl
theorem relu4_at (i : S512x128.Idx) : Read.val_main_call4_v0 (F := Ideal) i = zero := by
  rw [Read.val_main_call4_v0_apply, Read.val_main_call4_cst_apply]; rfl

/-! ## The pooled mean and the joined rows -/

/-- The reference's quotient at `(r, k)` is the pooled mean of its per-graph sums and counts. -/
theorem ref_pooled (x0 : (⟨S200000x2, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x28 : (⟨S2x600000, .i32⟩ : BufTy).Contents (Elt Ideal)) (x29 : (⟨S200000, .i32⟩ : BufTy).Contents (Elt Ideal)) (r : Fin 512) (k : Fin 128) :
    (Read.val_main_v117 (F := Ideal) x0 x2 x3 x4 x5 x28 x29) (ix2 r k) = pooled (Read.val_main_v112 (F := Ideal) x0 x2 x3 x4 x5 x28 x29) (broadcastInDim Cert.KernelIdeal.S512x1 ![0] Cert.KernelIdeal.Gen.bcast_S512_S512x1_0 (Read.val_main_v109 (F := Ideal) x29)) r k := by
  rw [Read.val_main_v117_apply, Read.val_main_v116_apply, Read.val_main_v115_apply, Read.val_main_v114_apply,
    Read.val_main_v113_apply, Read.val_main_cst_27_apply]
  unfold pooled
  rw [col_at]
  have e : idx_main_v115 (idx_main_v116 (ix2 r k)) = ix1 r := funext fun a => Fin.ext (by match a with | ⟨0, _⟩ => rfl)
  rw [e]
  rfl

/-- A joined row reads the quotient on its first 128 entries … -/
theorem ref_cat_lo (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x28 : (⟨S2x600000, .i32⟩ : BufTy).Contents (Elt Ideal)) (x29 : (⟨S200000, .i32⟩ : BufTy).Contents (Elt Ideal)) (r : Fin 512) (k : Fin 128) :
    (Read.val_main_v142 (F := Ideal) x0 x1 x2 x3 x4 x5 x6 x7 x8 x9 x10 x11 x12 x13 x28 x29) (ix2 r (lo k)) = (Read.val_main_v117 (F := Ideal) x0 x2 x3 x4 x5 x28 x29) (ix2 r k) := by
  unfold Read.val_main_v142
  exact concatenate_pair_apply_left (t := S512x256) (s₁ := S512x128) (s₂ := S512x128) (1 : Fin 2) _ _ _ (ix2 r (lo k)) rfl (ix2 r k)
    (fun b => match b with | ⟨0, _⟩ => rfl | ⟨1, _⟩ => rfl)

/-- … and the side features on its last 128. -/
theorem ref_cat_hi (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x28 : (⟨S2x600000, .i32⟩ : BufTy).Contents (Elt Ideal)) (x29 : (⟨S200000, .i32⟩ : BufTy).Contents (Elt Ideal)) (r : Fin 512) (k : Fin 128) :
    (Read.val_main_v142 (F := Ideal) x0 x1 x2 x3 x4 x5 x6 x7 x8 x9 x10 x11 x12 x13 x28 x29) (ix2 r (hi k)) = (Read.val_main_v141 (F := Ideal) x1 x6 x7 x8 x9 x10 x11 x12 x13) (ix2 r k) := by
  unfold Read.val_main_v142
  exact concatenate_pair_apply_right (t := S512x256) (s₁ := S512x128) (s₂ := S512x128) (1 : Fin 2) _ _ _ (ix2 r (hi k)) rfl rfl (ix2 r k)
    (fun b => match b with | ⟨0, _⟩ => fun _ => rfl | ⟨1, _⟩ => fun hne => absurd rfl hne)
    (by show k.val + 128 = 128 + k.val; omega)

/-! ## The three dense layers at an index -/

/-- The one product with `W1` over the joined row is the sum of the two halves' products. -/
theorem ref_143 (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x28 : (⟨S2x600000, .i32⟩ : BufTy).Contents (Elt Ideal)) (x29 : (⟨S200000, .i32⟩ : BufTy).Contents (Elt Ideal)) (r : Fin 512) (c : Fin 192) :
    (Read.val_main_v143 (F := Ideal) x0 x1 x2 x3 x4 x5 x6 x7 x8 x9 x10 x11 x12 x13 x14 x28 x29) (ix2 r c)
      = (∑ k : Fin 128, (Read.val_main_v117 (F := Ideal) x0 x2 x3 x4 x5 x28 x29) (ix2 r k) * x14 (ix2 (lo k) c))
        + (∑ k : Fin 128, (Read.val_main_v141 (F := Ideal) x1 x6 x7 x8 x9 x10 x11 x12 x13) (ix2 r k) * x14 (ix2 (hi k) c)) := by
  rw [Read.val_main_v143_apply, sum_split]
  refine congrArg₂ (· + ·) ?_ ?_
  · refine Finset.sum_congr rfl fun k _ => ?_
    have e1 : lidx_main_v143 (ix2 r c) (lo k) = ix2 r (lo k) := funext fun a => Fin.ext (by match a with | ⟨0, _⟩ => rfl | ⟨1, _⟩ => rfl)
    have e2 : ridx_main_v143 (ix2 r c) (lo k) = ix2 (lo k) c := funext fun a => Fin.ext (by match a with | ⟨0, _⟩ => rfl | ⟨1, _⟩ => rfl)
    rw [e1, e2, ref_cat_lo]
  · refine Finset.sum_congr rfl fun k _ => ?_
    have e1 : lidx_main_v143 (ix2 r c) (hi k) = ix2 r (hi k) := funext fun a => Fin.ext (by match a with | ⟨0, _⟩ => rfl | ⟨1, _⟩ => rfl)
    have e2 : ridx_main_v143 (ix2 r c) (hi k) = ix2 (hi k) c := funext fun a => Fin.ext (by match a with | ⟨0, _⟩ => rfl | ⟨1, _⟩ => rfl)
    rw [e1, e2, ref_cat_hi]

/-- The reference's first hidden layer at `(r, c)`. -/
theorem ref_hid1 (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x15 : (⟨S192, .f32⟩ : BufTy).Contents (Elt Ideal)) (x16 : (⟨S192, .f32⟩ : BufTy).Contents (Elt Ideal)) (x17 : (⟨S192, .f32⟩ : BufTy).Contents (Elt Ideal)) (x18 : (⟨S192, .f32⟩ : BufTy).Contents (Elt Ideal)) (x19 : (⟨S192, .f32⟩ : BufTy).Contents (Elt Ideal)) (x28 : (⟨S2x600000, .i32⟩ : BufTy).Contents (Elt Ideal)) (x29 : (⟨S200000, .i32⟩ : BufTy).Contents (Elt Ideal)) (r : Fin 512) (c : Fin 192) :
    (Read.val_main_v162 (F := Ideal) x0 x1 x2 x3 x4 x5 x6 x7 x8 x9 x10 x11 x12 x13 x14 x15 x16 x17 x18 x19 x28 x29) (ix2 r c)
      = hid1 (Read.val_main_v112 (F := Ideal) x0 x2 x3 x4 x5 x28 x29) (broadcastInDim Cert.KernelIdeal.S512x1 ![0] Cert.KernelIdeal.Gen.bcast_S512_S512x1_0 (Read.val_main_v109 (F := Ideal) x29)) (Read.val_main_v141 (F := Ideal) x1 x6 x7 x8 x9 x10 x11 x12 x13) x14 (shapeCast Cert.KernelIdeal.S1x192 x15 Cert.KernelIdeal.Gen.shapeCasts_S192_S1x192) (shapeCast Cert.KernelIdeal.S1x192 x16 Cert.KernelIdeal.Gen.shapeCasts_S192_S1x192) (shapeCast Cert.KernelIdeal.S1x192 x17 Cert.KernelIdeal.Gen.shapeCasts_S192_S1x192) (shapeCast Cert.KernelIdeal.S1x192 x18 Cert.KernelIdeal.Gen.shapeCasts_S192_S1x192) (shapeCast Cert.KernelIdeal.S1x192 x19 Cert.KernelIdeal.Gen.shapeCasts_S192_S1x192) r c := by
  rw [Read.val_main_v162_apply, Read.val_main_v161_apply, Read.val_main_v158_apply, Read.val_main_v155_apply,
    Read.val_main_v149_apply, Read.val_main_v146_apply, ref_143, b1_at, rm1_at, rs1_at, g1_at, be1_at, relu3_at]
  simp only [ref_pooled]
  unfold hid1 bnrelu lin1
  simp only [row192_at]
  rfl

/-- The second layer's product at `(r, c)`. -/
theorem ref_163 (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x15 : (⟨S192, .f32⟩ : BufTy).Contents (Elt Ideal)) (x16 : (⟨S192, .f32⟩ : BufTy).Contents (Elt Ideal)) (x17 : (⟨S192, .f32⟩ : BufTy).Contents (Elt Ideal)) (x18 : (⟨S192, .f32⟩ : BufTy).Contents (Elt Ideal)) (x19 : (⟨S192, .f32⟩ : BufTy).Contents (Elt Ideal)) (x20 : (⟨S192x128, .f32⟩ : BufTy).Contents (Elt Ideal)) (x28 : (⟨S2x600000, .i32⟩ : BufTy).Contents (Elt Ideal)) (x29 : (⟨S200000, .i32⟩ : BufTy).Contents (Elt Ideal)) (r : Fin 512) (c : Fin 128) :
    (Read.val_main_v163 (F := Ideal) x0 x1 x2 x3 x4 x5 x6 x7 x8 x9 x10 x11 x12 x13 x14 x15 x16 x17 x18 x19 x20 x28 x29) (ix2 r c) = ∑ k : Fin 192, (Read.val_main_v162 (F := Ideal) x0 x1 x2 x3 x4 x5 x6 x7 x8 x9 x10 x11 x12 x13 x14 x15 x16 x17 x18 x19 x28 x29) (ix2 r k) * x20 (ix2 k c) := by
  rw [Read.val_main_v163_apply]
  refine Finset.sum_congr rfl fun k _ => ?_
  have e1 : lidx_main_v163 (ix2 r c) k = ix2 r k := funext fun a => Fin.ext (by match a with | ⟨0, _⟩ => rfl | ⟨1, _⟩ => rfl)
  have e2 : ridx_main_v163 (ix2 r c) k = ix2 k c := funext fun a => Fin.ext (by match a with | ⟨0, _⟩ => rfl | ⟨1, _⟩ => rfl)
  rw [e1, e2]

/-- The reference's second hidden layer at `(r, c)`. -/
theorem ref_hid2 (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x15 : (⟨S192, .f32⟩ : BufTy).Contents (Elt Ideal)) (x16 : (⟨S192, .f32⟩ : BufTy).Contents (Elt Ideal)) (x17 : (⟨S192, .f32⟩ : BufTy).Contents (Elt Ideal)) (x18 : (⟨S192, .f32⟩ : BufTy).Contents (Elt Ideal)) (x19 : (⟨S192, .f32⟩ : BufTy).Contents (Elt Ideal)) (x20 : (⟨S192x128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128, .f32⟩ : BufTy).Contents (Elt Ideal)) (x28 : (⟨S2x600000, .i32⟩ : BufTy).Contents (Elt Ideal)) (x29 : (⟨S200000, .i32⟩ : BufTy).Contents (Elt Ideal)) (r : Fin 512) (c : Fin 128) :
    (Read.val_main_v182 (F := Ideal) x0 x1 x2 x3 x4 x5 x6 x7 x8 x9 x10 x11 x12 x13 x14 x15 x16 x17 x18 x19 x20 x21 x22 x23 x24 x25 x28 x29) (ix2 r c)
      = hid2 (Read.val_main_v112 (F := Ideal) x0 x2 x3 x4 x5 x28 x29) (broadcastInDim Cert.KernelIdeal.S512x1 ![0] Cert.KernelIdeal.Gen.bcast_S512_S512x1_0 (Read.val_main_v109 (F := Ideal) x29)) (Read.val_main_v141 (F := Ideal) x1 x6 x7 x8 x9 x10 x11 x12 x13) x14 (shapeCast Cert.KernelIdeal.S1x192 x15 Cert.KernelIdeal.Gen.shapeCasts_S192_S1x192) (shapeCast Cert.KernelIdeal.S1x192 x16 Cert.KernelIdeal.Gen.shapeCasts_S192_S1x192) (shapeCast Cert.KernelIdeal.S1x192 x17 Cert.KernelIdeal.Gen.shapeCasts_S192_S1x192) (shapeCast Cert.KernelIdeal.S1x192 x18 Cert.KernelIdeal.Gen.shapeCasts_S192_S1x192) (shapeCast Cert.KernelIdeal.S1x192 x19 Cert.KernelIdeal.Gen.shapeCasts_S192_S1x192)
          x20 (shapeCast Cert.KernelIdeal.S1x128 x21 Cert.KernelIdeal.Gen.shapeCasts_S128_S1x128) (shapeCast Cert.KernelIdeal.S1x128 x22 Cert.KernelIdeal.Gen.shapeCasts_S128_S1x128) (shapeCast Cert.KernelIdeal.S1x128 x23 Cert.KernelIdeal.Gen.shapeCasts_S128_S1x128) (shapeCast Cert.KernelIdeal.S1x128 x24 Cert.KernelIdeal.Gen.shapeCasts_S128_S1x128) (shapeCast Cert.KernelIdeal.S1x128 x25 Cert.KernelIdeal.Gen.shapeCasts_S128_S1x128) r c := by
  rw [Read.val_main_v182_apply, Read.val_main_v181_apply, Read.val_main_v178_apply, Read.val_main_v175_apply,
    Read.val_main_v169_apply, Read.val_main_v166_apply, ref_163, b2_at, rm2_at, rs2_at, g2_at, be2_at, relu4_at]
  simp only [ref_hid1]
  unfold hid2 bnrelu lin
  simp only [row128_at]
  rfl

/-- The third layer's product at `(r, 0)`. -/
theorem ref_183 (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x15 : (⟨S192, .f32⟩ : BufTy).Contents (Elt Ideal)) (x16 : (⟨S192, .f32⟩ : BufTy).Contents (Elt Ideal)) (x17 : (⟨S192, .f32⟩ : BufTy).Contents (Elt Ideal)) (x18 : (⟨S192, .f32⟩ : BufTy).Contents (Elt Ideal)) (x19 : (⟨S192, .f32⟩ : BufTy).Contents (Elt Ideal)) (x20 : (⟨S192x128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128, .f32⟩ : BufTy).Contents (Elt Ideal)) (x26 : (⟨S128x1, .f32⟩ : BufTy).Contents (Elt Ideal)) (x28 : (⟨S2x600000, .i32⟩ : BufTy).Contents (Elt Ideal)) (x29 : (⟨S200000, .i32⟩ : BufTy).Contents (Elt Ideal)) (r : Fin 512) :
    (Read.val_main_v183 (F := Ideal) x0 x1 x2 x3 x4 x5 x6 x7 x8 x9 x10 x11 x12 x13 x14 x15 x16 x17 x18 x19 x20 x21 x22 x23 x24 x25 x26 x28 x29) (ix2 r (0 : Fin 1)) = ∑ k : Fin 128, (Read.val_main_v182 (F := Ideal) x0 x1 x2 x3 x4 x5 x6 x7 x8 x9 x10 x11 x12 x13 x14 x15 x16 x17 x18 x19 x20 x21 x22 x23 x24 x25 x28 x29) (ix2 r k) * x26 (ix2 k (0 : Fin 1)) := by
  rw [Read.val_main_v183_apply]
  refine Finset.sum_congr rfl fun k _ => ?_
  have e1 : lidx_main_v183 (ix2 r (0 : Fin 1)) k = ix2 r k := funext fun a => Fin.ext (by match a with | ⟨0, _⟩ => rfl | ⟨1, _⟩ => rfl)
  have e2 : ridx_main_v183 (ix2 r (0 : Fin 1)) k = ix2 k (0 : Fin 1) := funext fun a => Fin.ext (by match a with | ⟨0, _⟩ => rfl | ⟨1, _⟩ => rfl)
  rw [e1, e2]

/-! ## The reference's head is the head's function -/

/-- THE REFERENCE'S HEAD: from the per-graph sums `ps`, the counts `cnt` and the side features `xf` it computes,
    the reference's result before its last reshape is the head's function of them, the counts as a column and each
    parameter vector as a row, laid out as the kernel program's host operations lay them out. -/
theorem ref_fusion (x0 : (⟨S200000x2, .f32⟩ : BufTy).Contents (Elt Ideal)) (x1 : (⟨S512x8, .f32⟩ : BufTy).Contents (Elt Ideal)) (x2 : (⟨S2x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S8x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S256x192, .f32⟩ : BufTy).Contents (Elt Ideal)) (x15 : (⟨S192, .f32⟩ : BufTy).Contents (Elt Ideal)) (x16 : (⟨S192, .f32⟩ : BufTy).Contents (Elt Ideal)) (x17 : (⟨S192, .f32⟩ : BufTy).Contents (Elt Ideal)) (x18 : (⟨S192, .f32⟩ : BufTy).Contents (Elt Ideal)) (x19 : (⟨S192, .f32⟩ : BufTy).Contents (Elt Ideal)) (x20 : (⟨S192x128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128, .f32⟩ : BufTy).Contents (Elt Ideal)) (x26 : (⟨S128x1, .f32⟩ : BufTy).Contents (Elt Ideal)) (x27 : (⟨S1, .f32⟩ : BufTy).Contents (Elt Ideal)) (x28 : (⟨S2x600000, .i32⟩ : BufTy).Contents (Elt Ideal)) (x29 : (⟨S200000, .i32⟩ : BufTy).Contents (Elt Ideal))
    (ps : A2 512 128) (cnt : A1 512) (xf : A2 512 128)
    (hps : ps = (Read.val_main_v112 (F := Ideal) x0 x2 x3 x4 x5 x28 x29)) (hcnt : cnt = (Read.val_main_v109 (F := Ideal) x29)) (hxf : xf = (Read.val_main_v141 (F := Ideal) x1 x6 x7 x8 x9 x10 x11 x12 x13)) :
    (Read.val_main_v192 (F := Ideal) x0 x1 x2 x3 x4 x5 x6 x7 x8 x9 x10 x11 x12 x13 x14 x15 x16 x17 x18 x19 x20 x21 x22 x23 x24 x25 x26 x27 x28 x29)
      = OUT ps (broadcastInDim Cert.KernelIdeal.S512x1 ![0] Cert.KernelIdeal.Gen.bcast_S512_S512x1_0 cnt) xf x14 (shapeCast Cert.KernelIdeal.S1x192 x15 Cert.KernelIdeal.Gen.shapeCasts_S192_S1x192) (shapeCast Cert.KernelIdeal.S1x192 x16 Cert.KernelIdeal.Gen.shapeCasts_S192_S1x192) (shapeCast Cert.KernelIdeal.S1x192 x17 Cert.KernelIdeal.Gen.shapeCasts_S192_S1x192) (shapeCast Cert.KernelIdeal.S1x192 x18 Cert.KernelIdeal.Gen.shapeCasts_S192_S1x192) (shapeCast Cert.KernelIdeal.S1x192 x19 Cert.KernelIdeal.Gen.shapeCasts_S192_S1x192)
          x20 (shapeCast Cert.KernelIdeal.S1x128 x21 Cert.KernelIdeal.Gen.shapeCasts_S128_S1x128) (shapeCast Cert.KernelIdeal.S1x128 x22 Cert.KernelIdeal.Gen.shapeCasts_S128_S1x128) (shapeCast Cert.KernelIdeal.S1x128 x23 Cert.KernelIdeal.Gen.shapeCasts_S128_S1x128) (shapeCast Cert.KernelIdeal.S1x128 x24 Cert.KernelIdeal.Gen.shapeCasts_S128_S1x128) (shapeCast Cert.KernelIdeal.S1x128 x25 Cert.KernelIdeal.Gen.shapeCasts_S128_S1x128) x26 (shapeCast Cert.KernelIdeal.S1x1 x27 Cert.KernelIdeal.Gen.shapeCasts_S1_S1x1) := by
  subst hps hcnt hxf
  funext i
  obtain ⟨r, z, rfl⟩ : ∃ (r : Fin 512) (z : Fin 1), i = ix2 r z := ⟨i 0, i 1, eq_ix2 i⟩
  obtain rfl : z = 0 := Subsingleton.elim _ _
  rw [OUT_ix, Read.val_main_v192_apply, Read.val_main_v191_apply, Read.val_main_cst_32_apply, Read.val_main_v190_apply,
    Read.val_main_v189_apply, Read.val_main_cst_31_apply, Read.val_main_v188_apply, Read.val_main_v187_apply,
    Read.val_main_v186_apply, ref_183, b3_at]
  simp only [ref_hid2]
  unfold lin Ideal.logistic
  rw [row1_at]
  simp only [Ideal.hostDivf_def, Ideal.addf_def, Ideal.hostUnary_exp_def, Ideal.hostNegf_def, Ideal.negf_def, Ideal.ofBits_def,
    ofBits_one]

end Cert.Bridge.Fusion

end
-- ==== Proof.KVal.lean ====
/-
  The value the idealized kernel program returns, read through @main's fold: each region's output array is the
  whole-array function of the arrays it found (the dense stages, the feature MLP, the fusion head), each host stretch's
  results are the operations' terms, and stage by stage these are the reference's own stages of the same arguments —
  the two graph-convolution layers by the re-association of the symmetric normalisation, the per-graph counts by the
  precondition (no negative graph index), everything else operation for operation.
-/
import proofs.«117654_j30477087932519_2_alg».proof.Proof.HostK
import proofs.«117654_j30477087932519_2_alg».proof.Proof.Pre
import proofs.«117654_j30477087932519_2_alg».proof.Proof.Layers0
import proofs.«117654_j30477087932519_2_alg».proof.Proof.Layers1
import proofs.«117654_j30477087932519_2_alg».proof.Proof.Layers2
import proofs.«117654_j30477087932519_2_alg».proof.Proof.Layers3
import proofs.«117654_j30477087932519_2_alg».proof.Proof.LayerAlg1
import proofs.«117654_j30477087932519_2_alg».proof.Proof.LayerAlg2
import proofs.«117654_j30477087932519_2_alg».proof.Proof.FeatMlp
import proofs.«117654_j30477087932519_2_alg».proof.Proof.FusionKernel
import proofs.«117654_j30477087932519_2_alg».proof.Proof.FusionRef

set_option maxRecDepth 16384
set_option maxHeartbeats 4000000

noncomputable section

namespace Cert.Bridge.KVal

open Idealize.ShloMosaic Idealize.ShloMosaic.TcCoe Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-- Layer 1's linear stage: the transformed features scaled by the normalisation. -/
theorem W2_v18 : W2 m ρ c (Proc.devRef .tc main_v18) = (linVpu (m ((c : Thread nD τ).loc main_arg0)) (m ((c : Thread nD τ).loc main_arg2)) (broadcastInDim S200000x1 ![0] bcast_S200000_S200000x1_0 (Cert.ReferenceIdeal.Read.val_main_v17 (F := Ideal) (m ((c : Thread nD τ).loc main_arg28))))) := by
  refine (W2_arr m ρ c 3).trans ((Layers.final0 (V1 m ρ) c).trans ?_)
  show linVpu (W1 m ρ c (Proc.devRef .tc main_arg0)) (W1 m ρ c (Proc.devRef .tc main_arg2)) (W1 m ρ c (Proc.devRef .tc main_v17)) = _
  rw [FoldA.keep_arg0_1_0, FoldA.keep_arg2_1_0, HostK.W1_v17]

/-- Layer 1's output is the reference's. -/
theorem W4_v30 : W4 m ρ c (Proc.devRef .tc main_v30) = (Cert.ReferenceIdeal.Read.val_main_v54 (F := Ideal) (m ((c : Thread nD τ).loc main_arg0)) (m ((c : Thread nD τ).loc main_arg2)) (m ((c : Thread nD τ).loc main_arg3)) (m ((c : Thread nD τ).loc main_arg28))) := by
  refine (W4_arr m ρ c 4).trans ((Layers.final1 (V3 m ρ) c).trans ?_)
  show fin (W3 m ρ c (Proc.devRef .tc main_v28)) (W3 m ρ c (Proc.devRef .tc main_v18)) (W3 m ρ c (Proc.devRef .tc main_v17)) (W3 m ρ c (Proc.devRef .tc main_v29)) = _
  rw [HostK.W3_v28 m ρ c _ (W2_v18 m ρ c), FoldA.keep_v18_3_2, W2_v18, FoldA.keep_v17_3_1, HostK.W1_v17, HostK.W3_v29]
  exact LayerAlg.layer1 (m ((c : Thread nD τ).loc main_arg0)) (m ((c : Thread nD τ).loc main_arg2)) (m ((c : Thread nD τ).loc main_arg3)) (m ((c : Thread nD τ).loc main_arg28)) (Cert.ReferenceIdeal.Read.val_main_v17 (F := Ideal) (m ((c : Thread nD τ).loc main_arg28))) (Cert.ReferenceIdeal.Read.val_main_v23 (F := Ideal) (m ((c : Thread nD τ).loc main_arg28))) (Cert.ReferenceIdeal.Read.val_main_v44 (F := Ideal) (m ((c : Thread nD τ).loc main_arg28))) (Cert.ReferenceIdeal.Read.val_main_v43 (F := Ideal)) rfl rfl rfl rfl

/-- Layer 2's linear stage. -/
theorem W5_v31 : W5 m ρ c (Proc.devRef .tc main_v31) = (linMxu (Cert.ReferenceIdeal.Read.val_main_v54 (F := Ideal) (m ((c : Thread nD τ).loc main_arg0)) (m ((c : Thread nD τ).loc main_arg2)) (m ((c : Thread nD τ).loc main_arg3)) (m ((c : Thread nD τ).loc main_arg28))) (m ((c : Thread nD τ).loc main_arg4)) (broadcastInDim S200000x1 ![0] bcast_S200000_S200000x1_0 (Cert.ReferenceIdeal.Read.val_main_v17 (F := Ideal) (m ((c : Thread nD τ).loc main_arg28))))) := by
  refine (W5_arr m ρ c 3).trans ((Layers.final2 (V4 m ρ) c).trans ?_)
  show linMxu (W4 m ρ c (Proc.devRef .tc main_v30)) (W4 m ρ c (Proc.devRef .tc main_arg4)) (W4 m ρ c (Proc.devRef .tc main_v17)) = _
  rw [W4_v30, FoldA.keep_arg4_4_0, FoldA.keep_v17_4_1, HostK.W1_v17]

/-- Layer 2's output is the reference's. -/
theorem W7_v43 : W7 m ρ c (Proc.devRef .tc main_v43) = Cert.ReferenceIdeal.Read.val_main_v105 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg28)) := by
  refine (W7_arr m ρ c 4).trans ((Layers.final3 (V6 m ρ) c).trans ?_)
  show fin (W6 m ρ c (Proc.devRef .tc main_v41)) (W6 m ρ c (Proc.devRef .tc main_v31)) (W6 m ρ c (Proc.devRef .tc main_v17)) (W6 m ρ c (Proc.devRef .tc main_v42)) = _
  rw [HostK.W6_v41 m ρ c _ (W5_v31 m ρ c), FoldA.keep_v31_6_5, W5_v31, FoldA.keep_v17_6_1, HostK.W1_v17, HostK.W6_v42]
  exact LayerAlg.layer2 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg28)) (Cert.ReferenceIdeal.Read.val_main_v54 (F := Ideal) (m ((c : Thread nD τ).loc main_arg0)) (m ((c : Thread nD τ).loc main_arg2)) (m ((c : Thread nD τ).loc main_arg3)) (m ((c : Thread nD τ).loc main_arg28))) rfl (Cert.ReferenceIdeal.Read.val_main_v17 (F := Ideal) (m ((c : Thread nD τ).loc main_arg28))) (Cert.ReferenceIdeal.Read.val_main_v74 (F := Ideal) (m ((c : Thread nD τ).loc main_arg28))) (Cert.ReferenceIdeal.Read.val_main_v95 (F := Ideal) (m ((c : Thread nD τ).loc main_arg28))) (Cert.ReferenceIdeal.Read.val_main_v94 (F := Ideal)) rfl rfl rfl rfl

/-- The per-graph sums are the reference's. -/
theorem W8_v55 : W8 m ρ c (Proc.devRef .tc main_v55) = Cert.ReferenceIdeal.Read.val_main_v112 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg28)) (m ((c : Thread nD τ).loc main_arg29)) := by
  rw [HostK.W8_v55 m ρ c _ (W7_v43 m ρ c)]
  all_goals rfl

/-- The feature MLP's output is the reference's. -/
theorem W9_v63 : W9 m ρ c (Proc.devRef .tc main_v63) = Cert.ReferenceIdeal.Read.val_main_v141 (F := Ideal) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W9_arr m ρ c 9).trans ((FeatMlp.final4 (V8 m ρ) c).trans ?_)
  show FeatMlp.XF (W8 m ρ c (Proc.devRef .tc main_arg1)) (W8 m ρ c (Proc.devRef .tc main_arg6)) (W8 m ρ c (Proc.devRef .tc main_v57)) (W8 m ρ c (Proc.devRef .tc main_v58)) (W8 m ρ c (Proc.devRef .tc main_v59)) (W8 m ρ c (Proc.devRef .tc main_v60)) (W8 m ρ c (Proc.devRef .tc main_v61)) (W8 m ρ c (Proc.devRef .tc main_arg12)) (W8 m ρ c (Proc.devRef .tc main_v62)) = _
  rw [FoldB.keep_arg1_8_0, FoldB.keep_arg6_8_0, FoldB.keep_arg12_8_0, HostK.W8_v57, HostK.W8_v58, HostK.W8_v59, HostK.W8_v60, HostK.W8_v61, HostK.W8_v62]
  exact (FeatMlp.ref_xf (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

/-- The fusion head's output column is the reference's, when no graph index is negative. -/
theorem W11_v75 (hB : ∀ i, 0 ≤ ((m ((c : Thread nD τ).loc main_arg29)) i).toInt) : W11 m ρ c (Proc.devRef .tc main_v75) = Cert.ReferenceIdeal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  refine (W11_arr m ρ c 17).trans ((Fusion.final5 (V10 m ρ) c).trans ?_)
  show Fusion.OUT (W10 m ρ c (Proc.devRef .tc main_v55)) (W10 m ρ c (Proc.devRef .tc main_v56)) (W10 m ρ c (Proc.devRef .tc main_v63)) (W10 m ρ c (Proc.devRef .tc main_arg14))
    (W10 m ρ c (Proc.devRef .tc main_v64)) (W10 m ρ c (Proc.devRef .tc main_v65)) (W10 m ρ c (Proc.devRef .tc main_v66)) (W10 m ρ c (Proc.devRef .tc main_v67)) (W10 m ρ c (Proc.devRef .tc main_v68))
    (W10 m ρ c (Proc.devRef .tc main_arg20)) (W10 m ρ c (Proc.devRef .tc main_v69)) (W10 m ρ c (Proc.devRef .tc main_v70)) (W10 m ρ c (Proc.devRef .tc main_v71)) (W10 m ρ c (Proc.devRef .tc main_v72)) (W10 m ρ c (Proc.devRef .tc main_v73))
    (W10 m ρ c (Proc.devRef .tc main_arg26)) (W10 m ρ c (Proc.devRef .tc main_v74)) = _
  rw [FoldC.keep_v55_10_8, W8_v55, FoldC.keep_v56_10_8, HostK.W8_v56, FoldC.keep_v63_10_9, W9_v63, FoldC.keep_arg14_10_0, FoldC.keep_arg20_10_0, FoldC.keep_arg26_10_0,
    HostK.W10_v64, HostK.W10_v65, HostK.W10_v66, HostK.W10_v67, HostK.W10_v68, HostK.W10_v69, HostK.W10_v70, HostK.W10_v71, HostK.W10_v72, HostK.W10_v73, HostK.W10_v74]
  exact (Fusion.ref_fusion (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) _ _ _ rfl (Pre.cnt_eq _ hB) rfl).symm

/-- THE KERNEL PROGRAM'S RESULT is the reference's result term of the same arguments, when no graph index is negative. -/
theorem result (hB : ∀ i, 0 ≤ ((m ((c : Thread nD τ).loc main_arg29)) i).toInt) :
    W12 m ρ c (Proc.devRef .tc main_v76) = Cert.ReferenceIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  rw [HostK.W12_v76 m ρ c _ (W11_v75 m ρ c hB)]
  all_goals rfl

end Cert.Bridge.KVal

end
-- ==== Proof.lean ====
/-
  A graph network's forward pass — two graph-convolution layers (a dense per-node transform, a gather along the
  edges, a scatter-add at the destinations), a mean pooling per graph, a feature MLP and a fusion head — computed by
  six tiled kernels among host gathers and scatters, against the plain array program. At the ideal instance (exact
  extended reals) the two programs return the same vector from arguments that agree, provided no node's graph index
  is negative:
    * each layer re-associates the symmetric normalisation: scaling a node's features by `dis` before the gather
      and the aggregate by `dis` after the scatter is the per-edge scaling by `dis[src]·dis[dst]`, because every
      edge summed at a node has that node as its destination and `dis = deg^(-1/2)` is a non-negative real, over
      which multiplication distributes on the extended reals;
    * the per-graph node counts differ between the programs only in how a NEGATIVE graph index is treated (wrapped by
      the one, dropped by the other): the precondition excludes it;
    * the feature MLP and the fusion head are the same sums of products, the head's one product over the
      concatenation being the sum of the two products over its halves.
  The three frames are the generated ones (the reference's from its generated run); the idealization rewrote nothing.
-/
import proofs.«117654_j30477087932519_2_alg».proof.Defs
import proofs.«117654_j30477087932519_2_alg».proof.Proof.Gen.Kernel
import proofs.«117654_j30477087932519_2_alg».proof.Proof.Gen.Kernel.Skeleton
import proofs.«117654_j30477087932519_2_alg».proof.Proof.Gen.Kernel.Launch
import proofs.«117654_j30477087932519_2_alg».proof.Proof.Gen.Kernel.Points
import proofs.«117654_j30477087932519_2_alg».proof.Proof.Gen.Kernel.Frame
import proofs.«117654_j30477087932519_2_alg».proof.Proof.Gen.KernelIdeal
import proofs.«117654_j30477087932519_2_alg».proof.Proof.Gen.KernelIdeal.Skeleton
import proofs.«117654_j30477087932519_2_alg».proof.Proof.Gen.KernelIdeal.Launch
import proofs.«117654_j30477087932519_2_alg».proof.Proof.Gen.KernelIdeal.Points
import proofs.«117654_j30477087932519_2_alg».proof.Proof.Gen.KernelIdeal.Frame
import proofs.«117654_j30477087932519_2_alg».proof.Proof.Gen.ReferenceIdeal
import proofs.«117654_j30477087932519_2_alg».proof.Proof.Gen.Pre_finite_inputs
import proofs.«117654_j30477087932519_2_alg».proof.Proof.Gen.ReferenceIdeal.Run
import proofs.«117654_j30477087932519_2_alg».proof.Proof.Gen.ReferenceIdeal.Read
import proofs.«117654_j30477087932519_2_alg».proof.Proof.KRun
import proofs.«117654_j30477087932519_2_alg».proof.Proof.KVal
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

set_option maxHeartbeats 4000000 in
/-- Both runs end at the reference's result term of the kernel program's arguments. -/
theorem algebraic : Cert.algebraic_KernelIdeal_ReferenceIdeal := by
  intro m ρ m' ρ' hpre hagree
  refine ⟨_, (θ_run Cert.KernelIdeal.defs _ _).mono
    (fun _ h c => ⟨(h c).1.trans (Cert.Bridge.KVal.result m ρ c (Cert.Bridge.Pre.batch_nonneg m hpre c)), (h c).2⟩)
    (Cert.Bridge.KRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v193_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
